-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S8192x128 .f32) (main_arg1 : IVec S2x262144 32) (main_arg2 : FVec F S128x128 .f32) (main_arg3 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S1x8192 : Shape := ⟨2, ![1, 8192]⟩
abbrev S1x128 : Shape := ⟨2, ![1, 128]⟩
abbrev S1x1024 : Shape := ⟨2, ![1, 1024]⟩
abbrev S1024x128 : Shape := ⟨2, ![1024, 128]⟩

abbrev nBuf : Space → Nat
  | .hbm => 39
  | .vmem => 15
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x128, .f32⟩
  | .hbm, ⟨3, _⟩ => ⟨S128, .f32⟩
  | .hbm, ⟨4, _⟩ => ⟨S_, .bf16⟩
  | .hbm, ⟨5, _⟩ => ⟨S8192x8192, .bf16⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .bf16⟩
  | .hbm, ⟨28, _⟩ => ⟨S262144, .bf16⟩
  | .hbm, ⟨29, _⟩ => ⟨S8192x8192, .bf16⟩
  | .hbm, ⟨30, _⟩ => ⟨S8192x1, .f32⟩
  | .hbm, ⟨31, _⟩ => ⟨S1x8192, .f32⟩
  | .hbm, ⟨32, _⟩ => ⟨S128x128, .f32⟩
  | .hbm, ⟨33, _⟩ => ⟨S8192x128, .f32⟩
  | .hbm, ⟨34, _⟩ => ⟨S1x128, .f32⟩
  | .hbm, ⟨35, _⟩ => ⟨S8192x128, .f32⟩
  | .hbm, ⟨36, _⟩ => ⟨S8192x128, .f32⟩
  | .hbm, ⟨37, _⟩ => ⟨S8192x128, .bf16⟩
  | .hbm, ⟨38, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1, .f32⟩
  | .local _ .vmem, ⟨3, _⟩ => ⟨S1024x1, .f32⟩
  | .local _ .vmem, ⟨4, _⟩ => ⟨S1024x1, .f32⟩
  | .local _ .vmem, ⟨5, _⟩ => ⟨S1024x1024, .bf16⟩
  | .local _ .vmem, ⟨6, _⟩ => ⟨S1024x1024, .bf16⟩
  | .local _ .vmem, ⟨7, _⟩ => ⟨S1024x1, .f32⟩
  | .local _ .vmem, ⟨8, _⟩ => ⟨S1024x1, .f32⟩
  | .local _ .vmem, ⟨9, _⟩ => ⟨S1x1024, .f32⟩
  | .local _ .vmem, ⟨10, _⟩ => ⟨S1x1024, .f32⟩
  | .local _ .vmem, ⟨11, _⟩ => ⟨S8192x128, .bf16⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond3 (i : grid1.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_12 : BitVec 32 := 0#32
  let v31 : BitVec 1 := Scalar.cmpi .ne v30 c0_i32_12
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S8192x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  reduces_S1024x1024_S1024 : S1024x1024.Reduces [1] S1024
  shapeCasts_S1024_S1024x1 : S1024.ShapeCasts S1024x1
  shapeCasts_S8192x1_S1x8192 : S8192x1.ShapeCasts S1x8192
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  broadcasts_S1024x1_S1024x128 : S1024x1.Broadcasts S1024x128
  scatter_S8192x8192_S262144x2_S262144_n_01_01_1_wf : ScatterDims.WF S8192x8192 S262144x2 S262144 [] [0, 1] [0, 1] 1
  dot_S8192x128_S128x128_S8192x128_1_0_0_1_n_n_wf : DotDims.WF S8192x128 S128x128 S8192x128 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .bf16 = 32 ∨ (Rect.block (s := S8192x8192) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .f32 = 32 ∨ (Rect.block (s := S8192x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S8192x128.size a
  hwx1_3 : ∀ i : grid1.Coords, EltTy.bits .bf16 = 32 ∨ (Rect.block (s := S8192x128) S8192x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v19) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond3 i == 1#1) | ⟨_ + 2, h⟩ => absurd h (Nat.not_lt.2 (Nat.le_add_left _ _))

abbrev win1_0 : Pipeline.Window sig grid1 :=
  Pipeline.Window.ofSpec (Memref.whole main_v19) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S8192x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond3 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S2x262144 : Shape := ⟨2, ![2, 262144]⟩
abbrev S128x128 : Shape := ⟨2, ![128, 128]⟩
abbrev S128 : Shape := ⟨1, ![128]⟩
abbrev S_ : Shape := ⟨0, ![]⟩
abbrev S8192x8192 : Shape := ⟨2, ![8192, 8192]⟩
abbrev S1x262144 : Shape := ⟨2, ![1, 262144]⟩
abbrev S262144 : Shape := ⟨1, ![262144]⟩
abbrev S262144x1 : Shape := ⟨2, ![262144, 1]⟩
abbrev S262144x2 : Shape := ⟨2, ![262144, 2]⟩
abbrev S8192 : Shape := ⟨1, ![8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S2x262144, .i32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S8192x8192, .f32⟩
  | .hbm, ⟨6, _⟩ => ⟨S1x262144, .i32⟩
  | .hbm, ⟨7, _⟩ => ⟨S262144, .i32⟩
  | .hbm, ⟨8, _⟩ => ⟨S1x262144, .i32⟩
  | .hbm, ⟨9, _⟩ => ⟨S262144, .i32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S_, .f32⟩
  | .hbm, ⟨28, _⟩ => ⟨S262144, .f32⟩
  | .hbm, ⟨29, _⟩ => ⟨S8192x8192, .f32⟩
  | .hbm, ⟨30, _⟩ => ⟨S8192x8192, .i32⟩
  | .hbm, ⟨31, _⟩ => ⟨S8192x8192, .i32⟩
  | .hbm, ⟨32, _⟩ => ⟨S_, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .i1⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S1x8192, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S128x128, .f32⟩
  | .hbm, ⟨56, _⟩ => ⟨S8192x128, .f32⟩
  | .hbm, ⟨57, _⟩ => ⟨S1x128, .f32⟩
  | .hbm, ⟨58, _⟩ => ⟨S8192x128, .f32⟩
  | .hbm, ⟨59, _⟩ => ⟨S8192x128, .f32⟩
  | .hbm, ⟨60, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S128x128_S128x128_1_0 : S128x128.Transposes [1, 0] S128x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  scatter_S8192x8192_S262144x2_S262144_n_01_01_1_wf : ScatterDims.WF S8192x8192 S262144x2 S262144 [] [0, 1] [0, 1] 1
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.KernelShared.lean ====
/-
  What the two kernels' runs are stated over, for the program `Kernel`: the three conditions of each body's
  `pl.when`s as propositions over the grid coordinates, with their closed forms over the point number
  (point t is row tile t / 8 against column tile t % 8: the first column tile is t % 8 = 0, the diagonal tile
  t % 9 = 0, the last column tile t % 8 = 7), where the output window is idle, the staging and scratch memrefs,
  a window's block at a point, and the class invariant with the carried scratch split off.
-/
import proofs.«109869_j22351009808763_2_alg».proof.Proof.Gen.Kernel.Launch
import proofs.«109869_j22351009808763_2_alg».proof.Proof.Gen.Kernel.Skeleton
import proofs.«109869_j22351009808763_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The degree kernel's conditions -/

/-- First column tile: the accumulator is reset. -/
abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 8 = 0 :=
  (by decide +kernel : ∀ t : Fin grid0.N, cond0_1 (grid0.coords t) ↔ t.val % 8 = 0)
/-- Diagonal tile: the self-loop is counted. -/
abbrev cond0_2 (i : grid0.Coords) : Prop := (Scalar.cmpi .ne (Scalar.extui (Scalar.cmpi .eq (BitVec.ofNat 32 (i 0).val) (BitVec.ofNat 32 (i 1).val))) 0#32) = 1#1
theorem hcond0_2 : ∀ t : Fin cfg0.N, cond0_2 (grid0.coords t) ↔ t.val % 9 = 0 :=
  (by decide +kernel : ∀ t : Fin grid0.N, cond0_2 (grid0.coords t) ↔ t.val % 9 = 0)
/-- Last column tile: the result is stored. -/
abbrev cond0_3 (i : grid0.Coords) : Prop := k0_cond3 i = 1#1
theorem hcond0_3 : ∀ t : Fin cfg0.N, cond0_3 (grid0.coords t) ↔ t.val % 8 = 7 :=
  (by decide +kernel : ∀ t : Fin grid0.N, cond0_3 (grid0.coords t) ↔ t.val % 8 = 7)

/-! ## The aggregate kernel's conditions -/

abbrev cond1_1 (i : grid1.Coords) : Prop := (Scalar.cmpi .ne (Scalar.extui (Scalar.cmpi .eq (BitVec.ofNat 32 (i 1).val) 0#32)) 0#32) = 1#1
theorem hcond1_1 : ∀ t : Fin cfg1.N, cond1_1 (grid1.coords t) ↔ t.val % 8 = 0 :=
  (by decide +kernel : ∀ t : Fin grid1.N, cond1_1 (grid1.coords t) ↔ t.val % 8 = 0)
abbrev cond1_2 (i : grid1.Coords) : Prop := (Scalar.cmpi .ne (Scalar.extui (Scalar.cmpi .eq (BitVec.ofNat 32 (i 0).val) (BitVec.ofNat 32 (i 1).val))) 0#32) = 1#1
theorem hcond1_2 : ∀ t : Fin cfg1.N, cond1_2 (grid1.coords t) ↔ t.val % 9 = 0 :=
  (by decide +kernel : ∀ t : Fin grid1.N, cond1_2 (grid1.coords t) ↔ t.val % 9 = 0)
abbrev cond1_3 (i : grid1.Coords) : Prop := k1_cond3 i = 1#1
theorem hcond1_3 : ∀ t : Fin cfg1.N, cond1_3 (grid1.coords t) ↔ t.val % 8 = 7 :=
  (by decide +kernel : ∀ t : Fin grid1.N, cond1_3 (grid1.coords t) ↔ t.val % 8 = 7)

/-! ## Where the output windows are idle -/

theorem liveAt0_0 : ∀ t : Fin cfg0.N, cfg0.idle 0 (grid0.coords t) = false := by decide +kernel
theorem idleAt0_1 : ∀ t : Fin cfg0.N, ¬cond0_3 (grid0.coords t) → cfg0.idle 1 (grid0.coords t) = true := by decide +kernel
theorem noFlush0_1 : ∀ t : Fin cfg0.N, ¬cond0_3 (grid0.coords t) → (cfg0.win 1).flush t = false := by decide +kernel
theorem liveAt0_1 : ∀ t : Fin cfg0.N, cond0_3 (grid0.coords t) → cfg0.idle 1 (grid0.coords t) = false := by decide +kernel

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_3 (grid1.coords t) → cfg1.idle 4 (grid1.coords t) = true := by decide +kernel
theorem noFlush1_4 : ∀ t : Fin cfg1.N, ¬cond1_3 (grid1.coords t) → (cfg1.win 4).flush t = false := by decide +kernel
theorem liveAt1_4 : ∀ t : Fin cfg1.N, cond1_3 (grid1.coords t) → cfg1.idle 4 (grid1.coords t) = false := by decide +kernel

/-! ## The memrefs the bodies are called with -/

abbrev VO0_1 : View sig .tc .vmem S1024x1 .f32 := (Memref.whole cc0_stg1_0 : Memref sig .tc .vmem S1024x1 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev scM0_0 : Memref sig .tc .vmem S1024x1 .f32 := Memref.whole cc0_scratch0
abbrev VS0_0 : View sig .tc .vmem S1024x1 .f32 := scM0_0.view

abbrev VO1_4 : View sig .tc .vmem S1024x128 .f32 := (Memref.whole cc1_stg4_0 : Memref sig .tc .vmem S1024x128 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
abbrev scM1_0 : Memref sig .tc .vmem S1024x128 .f32 := Memref.whole cc1_scratch0
abbrev VS1_0 : View sig .tc .vmem S1024x128 .f32 := scM1_0.view

end Cert.Kernel.Frame

end
-- ==== Proof.KernelRuns0.lean ====
/-
  The degree kernel's body run in each of the six cases of its three conditions that the grid meets, for the
  program `Kernel`: first column tile or not, diagonal tile or not, last column tile or not (the first and the last
  column tile are never the same point). After each run: its stores cover the buffers they are read back from.
-/
import proofs.«109869_j22351009808763_2_alg».proof.Proof.KernelShared

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body in case A (first column tile: true; diagonal tile: true; last column tile: false) on whole memrefs: it runs to the
    continuation with the inputs as they were, the scratch at its stores' pieces over what it held, and the output
    handed back untouched. The pieces are what the run finds. -/
noncomputable def kernelRun0_A (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : cond0_1 i) (hc2 : cond0_2 i) (hc3 : ¬cond0_3 i)
    (x0 : Vec F S1024x1024 .bf16) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f_arg2, %hf_arg2, H_arg2⟩, ⟨%f_arg3, %hf_arg3, H_arg3⟩, ⟨%d_arg4, %f_arg4, -, H_arg4⟩, Hk⟩
    obtain rfl := harg2.eq_unread hf_arg2; obtain rfl := harg3.eq_unread hf_arg3
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    iexists _; iexact H_arg4

/-- Case A's pieces for the scratch accumulator tile it, so they cover it. -/
theorem scover0_A (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : cond0_1 i) (hc2 : cond0_2 i) (hc3 : ¬cond0_3 i)
    (x0 : Vec F S1024x1024 .bf16) (y : S1024x1.Idx) :
    ∃ pc ∈ (kernelRun0_A c i arg2 harg2 arg3 harg3 arg4 harg4 hc1 hc2 hc3 x0).2.1, y ∈ pc.1.set :=
  View.cover_of_tiledL (kernelRun0_A c i arg2 harg2 arg3 harg3 arg4 harg4 hc1 hc2 hc3 x0).2.1 S1024x1.size (by sl_kernel_rfl) y

set_option maxHeartbeats 1000000 in
/-- The body in case B (first column tile: true; diagonal tile: false; last column tile: false) on whole memrefs: it runs to the
    continuation with the inputs as they were, the scratch at its stores' pieces over what it held, and the output
    handed back untouched. The pieces are what the run finds. -/
noncomputable def kernelRun0_B (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : cond0_1 i) (hc2 : ¬cond0_2 i) (hc3 : ¬cond0_3 i)
    (x0 : Vec F S1024x1024 .bf16) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f_arg2, %hf_arg2, H_arg2⟩, ⟨%f_arg3, %hf_arg3, H_arg3⟩, ⟨%d_arg4, %f_arg4, -, H_arg4⟩, Hk⟩
    obtain rfl := harg2.eq_unread hf_arg2; obtain rfl := harg3.eq_unread hf_arg3
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    iexists _; iexact H_arg4

/-- Case B's pieces for the scratch accumulator tile it, so they cover it. -/
theorem scover0_B (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : cond0_1 i) (hc2 : ¬cond0_2 i) (hc3 : ¬cond0_3 i)
    (x0 : Vec F S1024x1024 .bf16) (y : S1024x1.Idx) :
    ∃ pc ∈ (kernelRun0_B c i arg2 harg2 arg3 harg3 arg4 harg4 hc1 hc2 hc3 x0).2.1, y ∈ pc.1.set :=
  View.cover_of_tiledL (kernelRun0_B c i arg2 harg2 arg3 harg3 arg4 harg4 hc1 hc2 hc3 x0).2.1 S1024x1.size (by sl_kernel_rfl) y

set_option maxHeartbeats 1000000 in
/-- The body in case C (first column tile: false; diagonal tile: true; last column tile: false) on whole memrefs: it runs to the
    continuation with the inputs as they were, the scratch at its stores' pieces over what it held, and the output
    handed back untouched. The pieces are what the run finds. -/
noncomputable def kernelRun0_C (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : cond0_2 i) (hc3 : ¬cond0_3 i)
    (x0 : Vec F S1024x1024 .bf16) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f_arg2, %hf_arg2, H_arg2⟩, ⟨%f_arg3, %hf_arg3, H_arg3⟩, ⟨%f_arg4, %hf_arg4, H_arg4⟩, Hk⟩
    obtain rfl := harg2.eq_unread hf_arg2; obtain rfl := harg3.eq_unread hf_arg3; obtain rfl := harg4.eq_unread hf_arg4
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    iexists _; iexact H_arg4

/-- Case C's pieces for the scratch accumulator tile it, so they cover it. -/
theorem scover0_C (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : cond0_2 i) (hc3 : ¬cond0_3 i)
    (x0 : Vec F S1024x1024 .bf16) (xs0 : Vec F S1024x1 .f32) (y : S1024x1.Idx) :
    ∃ pc ∈ (kernelRun0_C c i arg2 harg2 arg3 harg3 arg4 harg4 hc1 hc2 hc3 x0 xs0).2.1, y ∈ pc.1.set :=
  View.cover_of_tiledL (kernelRun0_C c i arg2 harg2 arg3 harg3 arg4 harg4 hc1 hc2 hc3 x0 xs0).2.1 S1024x1.size (by sl_kernel_rfl) y

set_option maxHeartbeats 1000000 in
/-- The body in case D (first column tile: false; diagonal tile: false; last column tile: false) on whole memrefs: it runs to the
    continuation with the inputs as they were, the scratch at its stores' pieces over what it held, and the output
    handed back untouched. The pieces are what the run finds. -/
noncomputable def kernelRun0_D (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : ¬cond0_2 i) (hc3 : ¬cond0_3 i)
    (x0 : Vec F S1024x1024 .bf16) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f_arg2, %hf_arg2, H_arg2⟩, ⟨%f_arg3, %hf_arg3, H_arg3⟩, ⟨%f_arg4, %hf_arg4, H_arg4⟩, Hk⟩
    obtain rfl := harg2.eq_unread hf_arg2; obtain rfl := harg3.eq_unread hf_arg3; obtain rfl := harg4.eq_unread hf_arg4
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    iexists _; iexact H_arg4

/-- Case D's pieces for the scratch accumulator tile it, so they cover it. -/
theorem scover0_D (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : ¬cond0_2 i) (hc3 : ¬cond0_3 i)
    (x0 : Vec F S1024x1024 .bf16) (xs0 : Vec F S1024x1 .f32) (y : S1024x1.Idx) :
    ∃ pc ∈ (kernelRun0_D c i arg2 harg2 arg3 harg3 arg4 harg4 hc1 hc2 hc3 x0 xs0).2.1, y ∈ pc.1.set :=
  View.cover_of_tiledL (kernelRun0_D c i arg2 harg2 arg3 harg3 arg4 harg4 hc1 hc2 hc3 x0 xs0).2.1 S1024x1.size (by sl_kernel_rfl) y

set_option maxHeartbeats 1000000 in
/-- The body in case E (first column tile: false; diagonal tile: true; last column tile: true) on whole memrefs: it runs to the
    continuation with the inputs as they were, the scratch at its stores' pieces over what it held, and the output
    at its store's piece. The pieces are what the run finds. -/
noncomputable def kernelRun0_E (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : cond0_2 i) (hc3 : cond0_3 i)
    (x0 : Vec F S1024x1024 .bf16) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f_arg2, %hf_arg2, H_arg2⟩, ⟨%d_arg3, %f_arg3, -, H_arg3⟩, ⟨%f_arg4, %hf_arg4, H_arg4⟩, Hk⟩
    obtain rfl := harg2.eq_unread hf_arg2; obtain rfl := harg4.eq_unread hf_arg4
    sl_exec (disch := first | exact hc1 | exact hc2 | exact hc3)
    sl_step
    iapply Hk
    isplitl [H_arg2]
    · iexists _; isplitr; · ipureintro; exact harg2.read_unread _
      iexact H_arg2
    isplitl [H_arg3]
    · iexists _; iexact H_arg3
    iexists _; iexact H_arg4

/-- Case E's pieces for the scratch accumulator tile it, so they cover it. -/
theorem scover0_E (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : cond0_2 i) (hc3 : cond0_3 i)
    (x0 : Vec F S1024x1024 .bf16) (xs0 : Vec F S1024x1 .f32) (y : S1024x1.Idx) :
    ∃ pc ∈ (kernelRun0_E c i arg2 harg2 arg3 harg3 arg4 harg4 hc1 hc2 hc3 x0 xs0).2.1, y ∈ pc.1.set :=
  View.cover_of_tiledL (kernelRun0_E c i arg2 harg2 arg3 harg3 arg4 harg4 hc1 hc2 hc3 x0 xs0).2.1 S1024x1.size (by sl_kernel_rfl) y
/-- Case E's piece for the output block tiles it, so it covers it. -/
theorem cover0_E (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : cond0_2 i) (hc3 : cond0_3 i)
    (x0 : Vec F S1024x1024 .bf16) (xs0 : Vec F S1024x1 .f32) (y : S1024x1.Idx) :
    ∃ pc ∈ (kernelRun0_E c i arg2 harg2 arg3 harg3 arg4 harg4 hc1 hc2 hc3 x0 xs0).1, y ∈ pc.1.set :=
  View.cover_of_tiledL (kernelRun0_E c i arg2 harg2 arg3 harg3 arg4 harg4 hc1 hc2 hc3 x0 xs0).1 S1024x1.size (by sl_kernel_rfl) y

set_option maxHeartbeats 1000000 in
/-- The body in case F (first column tile: false; diagonal tile: false; last column tile: true) on whole memrefs: it runs to the
    continuation with the inputs as they were, the scratch at its stores' pieces over what it held, and the output
    at its store's piece. The pieces are what the run finds. -/
noncomputable def kernelRun0_F (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : ¬cond0_2 i) (hc3 : cond0_3 i)
    (x0 : Vec F S1024x1024 .bf16) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f_arg2, %hf_arg2, H_arg2⟩, ⟨%d_arg3, %f_arg3, -, H_arg3⟩, ⟨%f_arg4, %hf_arg4, H_arg4⟩, Hk⟩
    obtain rfl := harg2.eq_unread hf_arg2; obtain rfl := harg4.eq_unread hf_arg4
    sl_exec (disch := first | exact hc1 | exact hc2 | exact hc3)
    sl_step
    iapply Hk
    isplitl [H_arg2]
    · iexists _; isplitr; · ipureintro; exact harg2.read_unread _
      iexact H_arg2
    isplitl [H_arg3]
    · iexists _; iexact H_arg3
    iexists _; iexact H_arg4

/-- Case F's pieces for the scratch accumulator tile it, so they cover it. -/
theorem scover0_F (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : ¬cond0_2 i) (hc3 : cond0_3 i)
    (x0 : Vec F S1024x1024 .bf16) (xs0 : Vec F S1024x1 .f32) (y : S1024x1.Idx) :
    ∃ pc ∈ (kernelRun0_F c i arg2 harg2 arg3 harg3 arg4 harg4 hc1 hc2 hc3 x0 xs0).2.1, y ∈ pc.1.set :=
  View.cover_of_tiledL (kernelRun0_F c i arg2 harg2 arg3 harg3 arg4 harg4 hc1 hc2 hc3 x0 xs0).2.1 S1024x1.size (by sl_kernel_rfl) y
/-- Case F's piece for the output block tiles it, so it covers it. -/
theorem cover0_F (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : ¬cond0_2 i) (hc3 : cond0_3 i)
    (x0 : Vec F S1024x1024 .bf16) (xs0 : Vec F S1024x1 .f32) (y : S1024x1.Idx) :
    ∃ pc ∈ (kernelRun0_F c i arg2 harg2 arg3 harg3 arg4 harg4 hc1 hc2 hc3 x0 xs0).1, y ∈ pc.1.set :=
  View.cover_of_tiledL (kernelRun0_F c i arg2 harg2 arg3 harg3 arg4 harg4 hc1 hc2 hc3 x0 xs0).1 S1024x1.size (by sl_kernel_rfl) y

end Cert.Kernel.Frame

end
-- ==== Proof.KernelFrame0.lean ====
/-
  The degree kernel as one region of the program `Kernel`, at any contents `V` of the core's buffers when the
  region is entered: a window's block at a point; what the output's staging buffer and the carried scratch
  accumulator hold after the body at each point, by recursion on the point (the case the point is in, over what the
  point before left in the scratch); the region invariant (before the first point every scratch at anything, afterwards
  the accumulator at what the point before left); the proof data; the body obligation.
-/
import proofs.«109869_j22351009808763_2_alg».proof.Proof.KernelRuns0

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## Each case at a point, its conditions in closed form -/

abbrev run0_A (c : Dev nD) (t : Fin cfg0.N) (h1 : t.val % 8 = 0) (h2 : t.val % 9 = 0) (h3 : ¬t.val % 8 = 7) :=
  kernelRun0_A (F := F) c (grid0.coords t) (ms0_0 t) (hs0_0 t) (ms0_1 t) (hs0_1 t) scM0_0 (Memref.isWhole_whole _) ((hcond0_1 t).mpr h1) ((hcond0_2 t).mpr h2) (fun h => h3 ((hcond0_3 t).mp h)) (iblk0 V c 0 t)
/-- What case A leaves in the output's staging buffer (its store read back over junk; nothing when it stores nothing). -/
def out0_A (c : Dev nD) (t : Fin cfg0.N) (h1 : t.val % 8 = 0) (h2 : t.val % 9 = 0) (h3 : ¬t.val % 8 = 7) : Vec F S1024x1 .f32 :=
  VO0_1.read (Elt F) (VO0_1.writes (Elt F) VO0_1.junk (run0_A V c t h1 h2 h3).1)
/-- What case A leaves in the scratch accumulator: its stores read back over junk. -/
def sout0_A (c : Dev nD) (t : Fin cfg0.N) (h1 : t.val % 8 = 0) (h2 : t.val % 9 = 0) (h3 : ¬t.val % 8 = 7) : Vec F S1024x1 .f32 :=
  VS0_0.read (Elt F) (VS0_0.writes (Elt F) VS0_0.junk (run0_A V c t h1 h2 h3).2.1)

abbrev run0_B (c : Dev nD) (t : Fin cfg0.N) (h1 : t.val % 8 = 0) (h2 : ¬t.val % 9 = 0) (h3 : ¬t.val % 8 = 7) :=
  kernelRun0_B (F := F) c (grid0.coords t) (ms0_0 t) (hs0_0 t) (ms0_1 t) (hs0_1 t) scM0_0 (Memref.isWhole_whole _) ((hcond0_1 t).mpr h1) (fun h => h2 ((hcond0_2 t).mp h)) (fun h => h3 ((hcond0_3 t).mp h)) (iblk0 V c 0 t)
/-- What case B leaves in the output's staging buffer (its store read back over junk; nothing when it stores nothing). -/
def out0_B (c : Dev nD) (t : Fin cfg0.N) (h1 : t.val % 8 = 0) (h2 : ¬t.val % 9 = 0) (h3 : ¬t.val % 8 = 7) : Vec F S1024x1 .f32 :=
  VO0_1.read (Elt F) (VO0_1.writes (Elt F) VO0_1.junk (run0_B V c t h1 h2 h3).1)
/-- What case B leaves in the scratch accumulator: its stores read back over junk. -/
def sout0_B (c : Dev nD) (t : Fin cfg0.N) (h1 : t.val % 8 = 0) (h2 : ¬t.val % 9 = 0) (h3 : ¬t.val % 8 = 7) : Vec F S1024x1 .f32 :=
  VS0_0.read (Elt F) (VS0_0.writes (Elt F) VS0_0.junk (run0_B V c t h1 h2 h3).2.1)

abbrev run0_C (c : Dev nD) (t : Fin cfg0.N) (h1 : ¬t.val % 8 = 0) (h2 : t.val % 9 = 0) (h3 : ¬t.val % 8 = 7) (xs : Vec F S1024x1 .f32) :=
  kernelRun0_C (F := F) c (grid0.coords t) (ms0_0 t) (hs0_0 t) (ms0_1 t) (hs0_1 t) scM0_0 (Memref.isWhole_whole _) (fun h => h1 ((hcond0_1 t).mp h)) ((hcond0_2 t).mpr h2) (fun h => h3 ((hcond0_3 t).mp h)) (iblk0 V c 0 t) xs
/-- What case C leaves in the output's staging buffer (its store read back over junk; nothing when it stores nothing). -/
def out0_C (c : Dev nD) (t : Fin cfg0.N) (h1 : ¬t.val % 8 = 0) (h2 : t.val % 9 = 0) (h3 : ¬t.val % 8 = 7) (xs : Vec F S1024x1 .f32) : Vec F S1024x1 .f32 :=
  VO0_1.read (Elt F) (VO0_1.writes (Elt F) VO0_1.junk (run0_C V c t h1 h2 h3 xs).1)
/-- What case C leaves in the scratch accumulator: its stores read back over junk. -/
def sout0_C (c : Dev nD) (t : Fin cfg0.N) (h1 : ¬t.val % 8 = 0) (h2 : t.val % 9 = 0) (h3 : ¬t.val % 8 = 7) (xs : Vec F S1024x1 .f32) : Vec F S1024x1 .f32 :=
  VS0_0.read (Elt F) (VS0_0.writes (Elt F) VS0_0.junk (run0_C V c t h1 h2 h3 xs).2.1)

abbrev run0_D (c : Dev nD) (t : Fin cfg0.N) (h1 : ¬t.val % 8 = 0) (h2 : ¬t.val % 9 = 0) (h3 : ¬t.val % 8 = 7) (xs : Vec F S1024x1 .f32) :=
  kernelRun0_D (F := F) c (grid0.coords t) (ms0_0 t) (hs0_0 t) (ms0_1 t) (hs0_1 t) scM0_0 (Memref.isWhole_whole _) (fun h => h1 ((hcond0_1 t).mp h)) (fun h => h2 ((hcond0_2 t).mp h)) (fun h => h3 ((hcond0_3 t).mp h)) (iblk0 V c 0 t) xs
/-- What case D leaves in the output's staging buffer (its store read back over junk; nothing when it stores nothing). -/
def out0_D (c : Dev nD) (t : Fin cfg0.N) (h1 : ¬t.val % 8 = 0) (h2 : ¬t.val % 9 = 0) (h3 : ¬t.val % 8 = 7) (xs : Vec F S1024x1 .f32) : Vec F S1024x1 .f32 :=
  VO0_1.read (Elt F) (VO0_1.writes (Elt F) VO0_1.junk (run0_D V c t h1 h2 h3 xs).1)
/-- What case D leaves in the scratch accumulator: its stores read back over junk. -/
def sout0_D (c : Dev nD) (t : Fin cfg0.N) (h1 : ¬t.val % 8 = 0) (h2 : ¬t.val % 9 = 0) (h3 : ¬t.val % 8 = 7) (xs : Vec F S1024x1 .f32) : Vec F S1024x1 .f32 :=
  VS0_0.read (Elt F) (VS0_0.writes (Elt F) VS0_0.junk (run0_D V c t h1 h2 h3 xs).2.1)

abbrev run0_E (c : Dev nD) (t : Fin cfg0.N) (h1 : ¬t.val % 8 = 0) (h2 : t.val % 9 = 0) (h3 : t.val % 8 = 7) (xs : Vec F S1024x1 .f32) :=
  kernelRun0_E (F := F) c (grid0.coords t) (ms0_0 t) (hs0_0 t) (ms0_1 t) (hs0_1 t) scM0_0 (Memref.isWhole_whole _) (fun h => h1 ((hcond0_1 t).mp h)) ((hcond0_2 t).mpr h2) ((hcond0_3 t).mpr h3) (iblk0 V c 0 t) xs
/-- What case E leaves in the output's staging buffer (its store read back over junk; nothing when it stores nothing). -/
def out0_E (c : Dev nD) (t : Fin cfg0.N) (h1 : ¬t.val % 8 = 0) (h2 : t.val % 9 = 0) (h3 : t.val % 8 = 7) (xs : Vec F S1024x1 .f32) : Vec F S1024x1 .f32 :=
  VO0_1.read (Elt F) (VO0_1.writes (Elt F) VO0_1.junk (run0_E V c t h1 h2 h3 xs).1)
/-- What case E leaves in the scratch accumulator: its stores read back over junk. -/
def sout0_E (c : Dev nD) (t : Fin cfg0.N) (h1 : ¬t.val % 8 = 0) (h2 : t.val % 9 = 0) (h3 : t.val % 8 = 7) (xs : Vec F S1024x1 .f32) : Vec F S1024x1 .f32 :=
  VS0_0.read (Elt F) (VS0_0.writes (Elt F) VS0_0.junk (run0_E V c t h1 h2 h3 xs).2.1)

abbrev run0_F (c : Dev nD) (t : Fin cfg0.N) (h1 : ¬t.val % 8 = 0) (h2 : ¬t.val % 9 = 0) (h3 : t.val % 8 = 7) (xs : Vec F S1024x1 .f32) :=
  kernelRun0_F (F := F) c (grid0.coords t) (ms0_0 t) (hs0_0 t) (ms0_1 t) (hs0_1 t) scM0_0 (Memref.isWhole_whole _) (fun h => h1 ((hcond0_1 t).mp h)) (fun h => h2 ((hcond0_2 t).mp h)) ((hcond0_3 t).mpr h3) (iblk0 V c 0 t) xs
/-- What case F leaves in the output's staging buffer (its store read back over junk; nothing when it stores nothing). -/
def out0_F (c : Dev nD) (t : Fin cfg0.N) (h1 : ¬t.val % 8 = 0) (h2 : ¬t.val % 9 = 0) (h3 : t.val % 8 = 7) (xs : Vec F S1024x1 .f32) : Vec F S1024x1 .f32 :=
  VO0_1.read (Elt F) (VO0_1.writes (Elt F) VO0_1.junk (run0_F V c t h1 h2 h3 xs).1)
/-- What case F leaves in the scratch accumulator: its stores read back over junk. -/
def sout0_F (c : Dev nD) (t : Fin cfg0.N) (h1 : ¬t.val % 8 = 0) (h2 : ¬t.val % 9 = 0) (h3 : t.val % 8 = 7) (xs : Vec F S1024x1 .f32) : Vec F S1024x1 .f32 :=
  VS0_0.read (Elt F) (VS0_0.writes (Elt F) VS0_0.junk (run0_F V c t h1 h2 h3 xs).2.1)

/-! ## Point by point -/

/-- One point: the case its number selects, over what the scratch held before it (`xs`, not read when the point resets it). -/
def step0 (c : Dev nD) (t : Fin cfg0.N) (xs : Vec F S1024x1 .f32) : Vec F S1024x1 .f32 × Vec F S1024x1 .f32 :=
  if h1 : t.val % 8 = 0 then
    if h2 : t.val % 9 = 0 then
      if h3 : t.val % 8 = 7 then False.elim (by omega) else (out0_A V c t h1 h2 h3, sout0_A V c t h1 h2 h3)
    else
      if h3 : t.val % 8 = 7 then False.elim (by omega) else (out0_B V c t h1 h2 h3, sout0_B V c t h1 h2 h3)
  else
    if h2 : t.val % 9 = 0 then
      if h3 : t.val % 8 = 7 then (out0_E V c t h1 h2 h3 xs, sout0_E V c t h1 h2 h3 xs) else (out0_C V c t h1 h2 h3 xs, sout0_C V c t h1 h2 h3 xs)
    else
      if h3 : t.val % 8 = 7 then (out0_F V c t h1 h2 h3 xs, sout0_F V c t h1 h2 h3 xs) else (out0_D V c t h1 h2 h3 xs, sout0_D V c t h1 h2 h3 xs)

theorem step0_A (c : Dev nD) (t : Fin cfg0.N) (xs : Vec F S1024x1 .f32) (h1 : t.val % 8 = 0) (h2 : t.val % 9 = 0) (h3 : ¬t.val % 8 = 7) :
    step0 V c t xs = (out0_A V c t h1 h2 h3, sout0_A V c t h1 h2 h3) := by
  unfold step0; rw [dif_pos h1, dif_pos h2, dif_neg h3]
theorem step0_B (c : Dev nD) (t : Fin cfg0.N) (xs : Vec F S1024x1 .f32) (h1 : t.val % 8 = 0) (h2 : ¬t.val % 9 = 0) (h3 : ¬t.val % 8 = 7) :
    step0 V c t xs = (out0_B V c t h1 h2 h3, sout0_B V c t h1 h2 h3) := by
  unfold step0; rw [dif_pos h1, dif_neg h2, dif_neg h3]
theorem step0_C (c : Dev nD) (t : Fin cfg0.N) (xs : Vec F S1024x1 .f32) (h1 : ¬t.val % 8 = 0) (h2 : t.val % 9 = 0) (h3 : ¬t.val % 8 = 7) :
    step0 V c t xs = (out0_C V c t h1 h2 h3 xs, sout0_C V c t h1 h2 h3 xs) := by
  unfold step0; rw [dif_neg h1, dif_pos h2, dif_neg h3]
theorem step0_D (c : Dev nD) (t : Fin cfg0.N) (xs : Vec F S1024x1 .f32) (h1 : ¬t.val % 8 = 0) (h2 : ¬t.val % 9 = 0) (h3 : ¬t.val % 8 = 7) :
    step0 V c t xs = (out0_D V c t h1 h2 h3 xs, sout0_D V c t h1 h2 h3 xs) := by
  unfold step0; rw [dif_neg h1, dif_neg h2, dif_neg h3]
theorem step0_E (c : Dev nD) (t : Fin cfg0.N) (xs : Vec F S1024x1 .f32) (h1 : ¬t.val % 8 = 0) (h2 : t.val % 9 = 0) (h3 : t.val % 8 = 7) :
    step0 V c t xs = (out0_E V c t h1 h2 h3 xs, sout0_E V c t h1 h2 h3 xs) := by
  unfold step0; rw [dif_neg h1, dif_pos h2, dif_pos h3]
theorem step0_F (c : Dev nD) (t : Fin cfg0.N) (xs : Vec F S1024x1 .f32) (h1 : ¬t.val % 8 = 0) (h2 : ¬t.val % 9 = 0) (h3 : t.val % 8 = 7) :
    step0 V c t xs = (out0_F V c t h1 h2 h3 xs, sout0_F V c t h1 h2 h3 xs) := by
  unfold step0; rw [dif_neg h1, dif_neg h2, dif_pos h3]

/-- THE ACCUMULATION: what the output's staging buffer and the scratch hold after the body at position `n`. -/
def outsAt0 (c : Dev nD) : (n : ℕ) → n < cfg0.N → Vec F S1024x1 .f32 × Vec F S1024x1 .f32
  | 0, hn => step0 V c ⟨0, hn⟩ (VS0_0.read (Elt F) VS0_0.junk)
  | n + 1, hn => step0 V c ⟨n + 1, hn⟩ (outsAt0 c n (Nat.lt_of_succ_lt hn)).2

/-- What the scratch held before point `t`. -/
def prev0 (c : Dev nD) (t : Fin cfg0.N) : Vec F S1024x1 .f32 :=
  match t with
  | ⟨0, _⟩ => VS0_0.read (Elt F) VS0_0.junk
  | ⟨n + 1, hn⟩ => (outsAt0 V c n (Nat.lt_of_succ_lt hn)).2

theorem outsAt0_step (c : Dev nD) (t : Fin cfg0.N) : outsAt0 V c t.val t.isLt = step0 V c t (prev0 V c t) := by
  obtain ⟨n, hn⟩ := t
  cases n <;> rfl

theorem prev0_pos (c : Dev nD) (t : Fin cfg0.N) (hz : t.val ≠ 0) :
    prev0 V c t = (outsAt0 V c (t.val - 1) (Nat.lt_of_le_of_lt (Nat.sub_le _ _) t.isLt)).2 := by
  obtain ⟨n, hn⟩ := t
  cases n with
  | zero => exact absurd rfl hz
  | succ n => rfl

/-! ## The region invariant -/

/-- The core's scoped buffers other than the pipeline's staging buffers and the accumulator, each at anything. -/
abbrev Rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA
  rw [Pipeline.scopedRest_split_of_list spec0 c [cc0_scratch0] (by decide) (by decide)]
  simp only [bigSepL_singleton, scM0_0, owns_whole]; try rfl

/-- Before position `n`: at the first point the class's invariant (every scratch at anything); afterwards the accumulator
    at what the point before left in it, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ Rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the inputs' staging buffers hold their blocks; the point's number says which case it is in; the
    invariant hands the body the accumulator at what the point before left (at anything at the first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  by_cases h1 : t.val % 8 = 0
  · by_cases h2 : t.val % 9 = 0
    · have h3 : ¬t.val % 8 = 7 := by omega
      rw [Dat.leavesExact_idle (dat0 V c) 1 t (idleAt0_1 t (fun h => h3 ((hcond0_3 t).mp h))) (noFlush0_1 t (fun h => h3 ((hcond0_3 t).mp h)))]
      rw [outsAt0_step V c t, step0_A V c t _ h1 h2 h3]
      unfold sout0_A; (try dsimp only)
      by_cases hz : t.val = 0
      · -- the first point: every scratch at anything
        rw [PhiS0_castSucc V c t, PhiS0_zero V c _ _ hz, PhiA0_eq]
        iintro ⟨⟨⟨HS, HR⟩, Hg⟩, Ho, ⟨%d0, H0⟩, ⟨%d1, H1⟩⟩
        iapply ((run0_A V c t h1 h2 h3).2.2 _ Set.univ _)
        isplitl [H0]; · iexact H0
        isplitl [H1]; · iexact H1
        isplitl [HS]; · iexact HS
        iintro ⟨H0, H1, ⟨%es, HS⟩⟩
        isplitl [HS HR Hg]
        · isplitl [HS HR]
          · isplitl [HS]
            · unfold owns; iexists _; isplitr
              swap; · iexact HS
              ipureintro; exact View.read_writes_of_cover _ _ _ _ _ (scover0_A c _ _ _ _ _ _ _ _ _ _ _)
            iexact HR
          iexact Hg
        isplitl [Ho]; · iexact Ho
        isplitl [H0]; · iexact H0
        iexists _; iexact H1
      · -- a later point: the accumulator at what the point before left
        rw [PhiS0_castSucc V c t, PhiS0_pos V c _ _ hz]
        iintro ⟨⟨⟨HS, HR⟩, Hg⟩, Ho, ⟨%d0, H0⟩, ⟨%d1, H1⟩⟩
        iapply ((run0_A V c t h1 h2 h3).2.2 _ Set.univ _)
        isplitl [H0]; · iexact H0
        isplitl [H1]; · iexact H1
        isplitl [HS]; · iexists _; iexact HS
        iintro ⟨H0, H1, ⟨%es, HS⟩⟩
        isplitl [HS HR Hg]
        · isplitl [HS HR]
          · isplitl [HS]
            · unfold owns; iexists _; isplitr
              swap; · iexact HS
              ipureintro; exact View.read_writes_of_cover _ _ _ _ _ (scover0_A c _ _ _ _ _ _ _ _ _ _ _)
            iexact HR
          iexact Hg
        isplitl [Ho]; · iexact Ho
        isplitl [H0]; · iexact H0
        iexists _; iexact H1
    · have h3 : ¬t.val % 8 = 7 := by omega
      rw [Dat.leavesExact_idle (dat0 V c) 1 t (idleAt0_1 t (fun h => h3 ((hcond0_3 t).mp h))) (noFlush0_1 t (fun h => h3 ((hcond0_3 t).mp h)))]
      rw [outsAt0_step V c t, step0_B V c t _ h1 h2 h3]
      unfold sout0_B; (try dsimp only)
      by_cases hz : t.val = 0
      · exfalso; omega
      · -- a later point: the accumulator at what the point before left
        rw [PhiS0_castSucc V c t, PhiS0_pos V c _ _ hz]
        iintro ⟨⟨⟨HS, HR⟩, Hg⟩, Ho, ⟨%d0, H0⟩, ⟨%d1, H1⟩⟩
        iapply ((run0_B V c t h1 h2 h3).2.2 _ Set.univ _)
        isplitl [H0]; · iexact H0
        isplitl [H1]; · iexact H1
        isplitl [HS]; · iexists _; iexact HS
        iintro ⟨H0, H1, ⟨%es, HS⟩⟩
        isplitl [HS HR Hg]
        · isplitl [HS HR]
          · isplitl [HS]
            · unfold owns; iexists _; isplitr
              swap; · iexact HS
              ipureintro; exact View.read_writes_of_cover _ _ _ _ _ (scover0_B c _ _ _ _ _ _ _ _ _ _ _)
            iexact HR
          iexact Hg
        isplitl [Ho]; · iexact Ho
        isplitl [H0]; · iexact H0
        iexists _; iexact H1
  · by_cases h2 : t.val % 9 = 0
    · by_cases h3 : t.val % 8 = 7
      · rw [show (dat0 V c).leavesExact 1 t = owns (c : Thread nD τ) (ms0_1 t) fullShare ((dat0 V c).after 1 t) from by
          unfold Dat.leavesExact; rw [liveAt0_1 t ((hcond0_3 t).mpr h3)], after0_1]
        rw [outsAt0_step V c t, step0_E V c t _ h1 h2 h3]
        unfold out0_E sout0_E; (try dsimp only)
        by_cases hz : t.val = 0
        · exfalso; omega
        · -- a later point: the accumulator at what the point before left
          rw [PhiS0_castSucc V c t, PhiS0_pos V c _ _ hz, ← prev0_pos V c t hz]
          iintro ⟨⟨⟨HS, HR⟩, Hg⟩, Ho, ⟨%d0, H0⟩, ⟨%d1, H1⟩⟩
          iapply ((run0_E V c t h1 h2 h3 (prev0 V c t)).2.2 Set.univ _)
          isplitl [H0]; · iexact H0
          isplitl [H1]; · iexists _; iexact H1
          isplitl [HS]; · iexact HS
          iintro ⟨H0, ⟨%e1, H1⟩, ⟨%es, HS⟩⟩
          isplitl [HS HR Hg]
          · isplitl [HS HR]
            · isplitl [HS]
              · unfold owns; iexists _; isplitr
                swap; · iexact HS
                ipureintro; exact View.read_writes_of_cover _ _ _ _ _ (scover0_E c _ _ _ _ _ _ _ _ _ _ _ _)
              iexact HR
            iexact Hg
          isplitl [Ho]; · iexact Ho
          isplitl [H0]; · iexact H0
          unfold owns; iexists _; isplitr
          swap; · iexact H1
          ipureintro; exact View.read_writes_of_cover _ _ _ _ _ (cover0_E c _ _ _ _ _ _ _ _ _ _ _ _)
      · rw [Dat.leavesExact_idle (dat0 V c) 1 t (idleAt0_1 t (fun h => h3 ((hcond0_3 t).mp h))) (noFlush0_1 t (fun h => h3 ((hcond0_3 t).mp h)))]
        rw [outsAt0_step V c t, step0_C V c t _ h1 h2 h3]
        unfold sout0_C; (try dsimp only)
        by_cases hz : t.val = 0
        · exfalso; omega
        · -- a later point: the accumulator at what the point before left
          rw [PhiS0_castSucc V c t, PhiS0_pos V c _ _ hz, ← prev0_pos V c t hz]
          iintro ⟨⟨⟨HS, HR⟩, Hg⟩, Ho, ⟨%d0, H0⟩, ⟨%d1, H1⟩⟩
          iapply ((run0_C V c t h1 h2 h3 (prev0 V c t)).2.2 _ Set.univ _)
          isplitl [H0]; · iexact H0
          isplitl [H1]; · iexact H1
          isplitl [HS]; · iexact HS
          iintro ⟨H0, H1, ⟨%es, HS⟩⟩
          isplitl [HS HR Hg]
          · isplitl [HS HR]
            · isplitl [HS]
              · unfold owns; iexists _; isplitr
                swap; · iexact HS
                ipureintro; exact View.read_writes_of_cover _ _ _ _ _ (scover0_C c _ _ _ _ _ _ _ _ _ _ _ _)
              iexact HR
            iexact Hg
          isplitl [Ho]; · iexact Ho
          isplitl [H0]; · iexact H0
          iexists _; iexact H1
    · by_cases h3 : t.val % 8 = 7
      · rw [show (dat0 V c).leavesExact 1 t = owns (c : Thread nD τ) (ms0_1 t) fullShare ((dat0 V c).after 1 t) from by
          unfold Dat.leavesExact; rw [liveAt0_1 t ((hcond0_3 t).mpr h3)], after0_1]
        rw [outsAt0_step V c t, step0_F V c t _ h1 h2 h3]
        unfold out0_F sout0_F; (try dsimp only)
        by_cases hz : t.val = 0
        · exfalso; omega
        · -- a later point: the accumulator at what the point before left
          rw [PhiS0_castSucc V c t, PhiS0_pos V c _ _ hz, ← prev0_pos V c t hz]
          iintro ⟨⟨⟨HS, HR⟩, Hg⟩, Ho, ⟨%d0, H0⟩, ⟨%d1, H1⟩⟩
          iapply ((run0_F V c t h1 h2 h3 (prev0 V c t)).2.2 Set.univ _)
          isplitl [H0]; · iexact H0
          isplitl [H1]; · iexists _; iexact H1
          isplitl [HS]; · iexact HS
          iintro ⟨H0, ⟨%e1, H1⟩, ⟨%es, HS⟩⟩
          isplitl [HS HR Hg]
          · isplitl [HS HR]
            · isplitl [HS]
              · unfold owns; iexists _; isplitr
                swap; · iexact HS
                ipureintro; exact View.read_writes_of_cover _ _ _ _ _ (scover0_F c _ _ _ _ _ _ _ _ _ _ _ _)
              iexact HR
            iexact Hg
          isplitl [Ho]; · iexact Ho
          isplitl [H0]; · iexact H0
          unfold owns; iexists _; isplitr
          swap; · iexact H1
          ipureintro; exact View.read_writes_of_cover _ _ _ _ _ (cover0_F c _ _ _ _ _ _ _ _ _ _ _ _)
      · rw [Dat.leavesExact_idle (dat0 V c) 1 t (idleAt0_1 t (fun h => h3 ((hcond0_3 t).mp h))) (noFlush0_1 t (fun h => h3 ((hcond0_3 t).mp h)))]
        rw [outsAt0_step V c t, step0_D V c t _ h1 h2 h3]
        unfold sout0_D; (try dsimp only)
        by_cases hz : t.val = 0
        · exfalso; omega
        · -- a later point: the accumulator at what the point before left
          rw [PhiS0_castSucc V c t, PhiS0_pos V c _ _ hz, ← prev0_pos V c t hz]
          iintro ⟨⟨⟨HS, HR⟩, Hg⟩, Ho, ⟨%d0, H0⟩, ⟨%d1, H1⟩⟩
          iapply ((run0_D V c t h1 h2 h3 (prev0 V c t)).2.2 _ Set.univ _)
          isplitl [H0]; · iexact H0
          isplitl [H1]; · iexact H1
          isplitl [HS]; · iexact HS
          iintro ⟨H0, H1, ⟨%es, HS⟩⟩
          isplitl [HS HR Hg]
          · isplitl [HS HR]
            · isplitl [HS]
              · unfold owns; iexists _; isplitr
                swap; · iexact HS
                ipureintro; exact View.read_writes_of_cover _ _ _ _ _ (scover0_D c _ _ _ _ _ _ _ _ _ _ _ _)
              iexact HR
            iexact Hg
          isplitl [Ho]; · iexact Ho
          isplitl [H0]; · iexact H0
          iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the class's invariant is before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, HR⟩, Hg⟩
  isplitl [HS HR]
  · isplitl [HS]
    · iexists _; iexact HS
    iexact HR
  iexact Hg

end

end Cert.Kernel.Frame

end
-- ==== Proof.KernelRuns1.lean ====
/-
  The aggregate kernel's body run in each of the six cases of its three conditions that the grid meets, for the
  program `Kernel`: first column tile or not, diagonal tile or not, last column tile or not (the first and the last
  column tile are never the same point). After each run: its stores cover the buffers they are read back from.
-/
import proofs.«109869_j22351009808763_2_alg».proof.Proof.KernelShared

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body in case A (first column tile: true; diagonal tile: true; last column tile: false) on whole memrefs: it runs to the
    continuation with the inputs as they were, the scratch at its stores' pieces over what it held, and the output
    handed back untouched. The pieces are what the run finds. -/
noncomputable def kernelRun1_A (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : cond1_1 i) (hc2 : cond1_2 i) (hc3 : ¬cond1_3 i)
    (x0 : Vec F S1024x1024 .bf16) (x1 : Vec F S1024x1 .f32) (x2 : Vec F S1x1024 .f32) (x3 : Vec F S8192x128 .bf16) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__aggregate_kernel i arg2 harg2 arg3 harg3 arg4 harg4 arg5 harg5 arg6 harg6 arg7 harg7) K } := by
  refine ⟨[], ?_, fun xi4 E K => ?run⟩
  case run =>
    simp only [cc1__aggregate_kernel_eq_skeleton]; unfold cc1__aggregate_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg6, %hf_arg6, H_arg6⟩, ⟨%d_arg7, %f_arg7, -, H_arg7⟩, Hk⟩
    obtain rfl := harg2.eq_unread hf_arg2; obtain rfl := harg3.eq_unread hf_arg3; obtain rfl := harg4.eq_unread hf_arg4; obtain rfl := harg5.eq_unread hf_arg5; obtain rfl := harg6.eq_unread hf_arg6
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg6]
    · iexists _; isplitr; · ipureintro; exact harg6.read_unread _
      iexact H_arg6
    iexists _; iexact H_arg7

/-- Case A's pieces for the scratch accumulator tile it, so they cover it. -/
theorem scover1_A (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : cond1_1 i) (hc2 : cond1_2 i) (hc3 : ¬cond1_3 i)
    (x0 : Vec F S1024x1024 .bf16) (x1 : Vec F S1024x1 .f32) (x2 : Vec F S1x1024 .f32) (x3 : Vec F S8192x128 .bf16) (y : S1024x128.Idx) :
    ∃ pc ∈ (kernelRun1_A c i arg2 harg2 arg3 harg3 arg4 harg4 arg5 harg5 arg6 harg6 arg7 harg7 hc1 hc2 hc3 x0 x1 x2 x3).2.1, y ∈ pc.1.set :=
  View.cover_of_tiledL (kernelRun1_A c i arg2 harg2 arg3 harg3 arg4 harg4 arg5 harg5 arg6 harg6 arg7 harg7 hc1 hc2 hc3 x0 x1 x2 x3).2.1 S1024x128.size (by sl_kernel_rfl) y

set_option maxHeartbeats 1000000 in
/-- The body in case B (first column tile: true; diagonal tile: false; last column tile: false) on whole memrefs: it runs to the
    continuation with the inputs as they were, the scratch at its stores' pieces over what it held, and the output
    handed back untouched. The pieces are what the run finds. -/
noncomputable def kernelRun1_B (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : cond1_1 i) (hc2 : ¬cond1_2 i) (hc3 : ¬cond1_3 i)
    (x0 : Vec F S1024x1024 .bf16) (x1 : Vec F S1024x1 .f32) (x2 : Vec F S1x1024 .f32) (x3 : Vec F S8192x128 .bf16) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__aggregate_kernel i arg2 harg2 arg3 harg3 arg4 harg4 arg5 harg5 arg6 harg6 arg7 harg7) K } := by
  refine ⟨[], ?_, fun xi4 E K => ?run⟩
  case run =>
    simp only [cc1__aggregate_kernel_eq_skeleton]; unfold cc1__aggregate_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg6, %hf_arg6, H_arg6⟩, ⟨%d_arg7, %f_arg7, -, H_arg7⟩, Hk⟩
    obtain rfl := harg2.eq_unread hf_arg2; obtain rfl := harg3.eq_unread hf_arg3; obtain rfl := harg4.eq_unread hf_arg4; obtain rfl := harg5.eq_unread hf_arg5; obtain rfl := harg6.eq_unread hf_arg6
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg6]
    · iexists _; isplitr; · ipureintro; exact harg6.read_unread _
      iexact H_arg6
    iexists _; iexact H_arg7

/-- Case B's pieces for the scratch accumulator tile it, so they cover it. -/
theorem scover1_B (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : cond1_1 i) (hc2 : ¬cond1_2 i) (hc3 : ¬cond1_3 i)
    (x0 : Vec F S1024x1024 .bf16) (x1 : Vec F S1024x1 .f32) (x2 : Vec F S1x1024 .f32) (x3 : Vec F S8192x128 .bf16) (y : S1024x128.Idx) :
    ∃ pc ∈ (kernelRun1_B c i arg2 harg2 arg3 harg3 arg4 harg4 arg5 harg5 arg6 harg6 arg7 harg7 hc1 hc2 hc3 x0 x1 x2 x3).2.1, y ∈ pc.1.set :=
  View.cover_of_tiledL (kernelRun1_B c i arg2 harg2 arg3 harg3 arg4 harg4 arg5 harg5 arg6 harg6 arg7 harg7 hc1 hc2 hc3 x0 x1 x2 x3).2.1 S1024x128.size (by sl_kernel_rfl) y

set_option maxHeartbeats 1000000 in
/-- The body in case C (first column tile: false; diagonal tile: true; last column tile: false) on whole memrefs: it runs to the
    continuation with the inputs as they were, the scratch at its stores' pieces over what it held, and the output
    handed back untouched. The pieces are what the run finds. -/
noncomputable def kernelRun1_C (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : cond1_2 i) (hc3 : ¬cond1_3 i)
    (x0 : Vec F S1024x1024 .bf16) (x1 : Vec F S1024x1 .f32) (x2 : Vec F S1x1024 .f32) (x3 : Vec F S8192x128 .bf16) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__aggregate_kernel i arg2 harg2 arg3 harg3 arg4 harg4 arg5 harg5 arg6 harg6 arg7 harg7) K } := by
  refine ⟨[], ?_, fun xi4 E K => ?run⟩
  case run =>
    simp only [cc1__aggregate_kernel_eq_skeleton]; unfold cc1__aggregate_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg6, %hf_arg6, H_arg6⟩, ⟨%f_arg7, %hf_arg7, H_arg7⟩, Hk⟩
    obtain rfl := harg2.eq_unread hf_arg2; obtain rfl := harg3.eq_unread hf_arg3; obtain rfl := harg4.eq_unread hf_arg4; obtain rfl := harg5.eq_unread hf_arg5; obtain rfl := harg6.eq_unread hf_arg6; obtain rfl := harg7.eq_unread hf_arg7
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg6]
    · iexists _; isplitr; · ipureintro; exact harg6.read_unread _
      iexact H_arg6
    iexists _; iexact H_arg7

/-- Case C's pieces for the scratch accumulator tile it, so they cover it. -/
theorem scover1_C (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : cond1_2 i) (hc3 : ¬cond1_3 i)
    (x0 : Vec F S1024x1024 .bf16) (x1 : Vec F S1024x1 .f32) (x2 : Vec F S1x1024 .f32) (x3 : Vec F S8192x128 .bf16) (xs0 : Vec F S1024x128 .f32) (y : S1024x128.Idx) :
    ∃ pc ∈ (kernelRun1_C c i arg2 harg2 arg3 harg3 arg4 harg4 arg5 harg5 arg6 harg6 arg7 harg7 hc1 hc2 hc3 x0 x1 x2 x3 xs0).2.1, y ∈ pc.1.set :=
  View.cover_of_tiledL (kernelRun1_C c i arg2 harg2 arg3 harg3 arg4 harg4 arg5 harg5 arg6 harg6 arg7 harg7 hc1 hc2 hc3 x0 x1 x2 x3 xs0).2.1 S1024x128.size (by sl_kernel_rfl) y

set_option maxHeartbeats 1000000 in
/-- The body in case D (first column tile: false; diagonal tile: false; last column tile: false) on whole memrefs: it runs to the
    continuation with the inputs as they were, the scratch at its stores' pieces over what it held, and the output
    handed back untouched. The pieces are what the run finds. -/
noncomputable def kernelRun1_D (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : ¬cond1_2 i) (hc3 : ¬cond1_3 i)
    (x0 : Vec F S1024x1024 .bf16) (x1 : Vec F S1024x1 .f32) (x2 : Vec F S1x1024 .f32) (x3 : Vec F S8192x128 .bf16) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__aggregate_kernel i arg2 harg2 arg3 harg3 arg4 harg4 arg5 harg5 arg6 harg6 arg7 harg7) K } := by
  refine ⟨[], ?_, fun xi4 E K => ?run⟩
  case run =>
    simp only [cc1__aggregate_kernel_eq_skeleton]; unfold cc1__aggregate_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg6, %hf_arg6, H_arg6⟩, ⟨%f_arg7, %hf_arg7, H_arg7⟩, Hk⟩
    obtain rfl := harg2.eq_unread hf_arg2; obtain rfl := harg3.eq_unread hf_arg3; obtain rfl := harg4.eq_unread hf_arg4; obtain rfl := harg5.eq_unread hf_arg5; obtain rfl := harg6.eq_unread hf_arg6; obtain rfl := harg7.eq_unread hf_arg7
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg6]
    · iexists _; isplitr; · ipureintro; exact harg6.read_unread _
      iexact H_arg6
    iexists _; iexact H_arg7

/-- Case D's pieces for the scratch accumulator tile it, so they cover it. -/
theorem scover1_D (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : ¬cond1_2 i) (hc3 : ¬cond1_3 i)
    (x0 : Vec F S1024x1024 .bf16) (x1 : Vec F S1024x1 .f32) (x2 : Vec F S1x1024 .f32) (x3 : Vec F S8192x128 .bf16) (xs0 : Vec F S1024x128 .f32) (y : S1024x128.Idx) :
    ∃ pc ∈ (kernelRun1_D c i arg2 harg2 arg3 harg3 arg4 harg4 arg5 harg5 arg6 harg6 arg7 harg7 hc1 hc2 hc3 x0 x1 x2 x3 xs0).2.1, y ∈ pc.1.set :=
  View.cover_of_tiledL (kernelRun1_D c i arg2 harg2 arg3 harg3 arg4 harg4 arg5 harg5 arg6 harg6 arg7 harg7 hc1 hc2 hc3 x0 x1 x2 x3 xs0).2.1 S1024x128.size (by sl_kernel_rfl) y

set_option maxHeartbeats 1000000 in
/-- The body in case E (first column tile: false; diagonal tile: true; last column tile: true) on whole memrefs: it runs to the
    continuation with the inputs as they were, the scratch at its stores' pieces over what it held, and the output
    at its store's piece. The pieces are what the run finds. -/
noncomputable def kernelRun1_E (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : cond1_2 i) (hc3 : cond1_3 i)
    (x0 : Vec F S1024x1024 .bf16) (x1 : Vec F S1024x1 .f32) (x2 : Vec F S1x1024 .f32) (x3 : Vec F S8192x128 .bf16) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__aggregate_kernel i arg2 harg2 arg3 harg3 arg4 harg4 arg5 harg5 arg6 harg6 arg7 harg7) K } := by
  refine ⟨?_, ?_, fun E K => ?run⟩
  case run =>
    simp only [cc1__aggregate_kernel_eq_skeleton]; unfold cc1__aggregate_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%d_arg6, %f_arg6, -, H_arg6⟩, ⟨%f_arg7, %hf_arg7, H_arg7⟩, Hk⟩
    obtain rfl := harg2.eq_unread hf_arg2; obtain rfl := harg3.eq_unread hf_arg3; obtain rfl := harg4.eq_unread hf_arg4; obtain rfl := harg5.eq_unread hf_arg5; obtain rfl := harg7.eq_unread hf_arg7
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg6]
    · iexists _; iexact H_arg6
    iexists _; iexact H_arg7

/-- Case E's pieces for the scratch accumulator tile it, so they cover it. -/
theorem scover1_E (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : cond1_2 i) (hc3 : cond1_3 i)
    (x0 : Vec F S1024x1024 .bf16) (x1 : Vec F S1024x1 .f32) (x2 : Vec F S1x1024 .f32) (x3 : Vec F S8192x128 .bf16) (xs0 : Vec F S1024x128 .f32) (y : S1024x128.Idx) :
    ∃ pc ∈ (kernelRun1_E c i arg2 harg2 arg3 harg3 arg4 harg4 arg5 harg5 arg6 harg6 arg7 harg7 hc1 hc2 hc3 x0 x1 x2 x3 xs0).2.1, y ∈ pc.1.set :=
  View.cover_of_tiledL (kernelRun1_E c i arg2 harg2 arg3 harg3 arg4 harg4 arg5 harg5 arg6 harg6 arg7 harg7 hc1 hc2 hc3 x0 x1 x2 x3 xs0).2.1 S1024x128.size (by sl_kernel_rfl) y
/-- Case E's piece for the output block tiles it, so it covers it. -/
theorem cover1_E (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : cond1_2 i) (hc3 : cond1_3 i)
    (x0 : Vec F S1024x1024 .bf16) (x1 : Vec F S1024x1 .f32) (x2 : Vec F S1x1024 .f32) (x3 : Vec F S8192x128 .bf16) (xs0 : Vec F S1024x128 .f32) (y : S1024x128.Idx) :
    ∃ pc ∈ (kernelRun1_E c i arg2 harg2 arg3 harg3 arg4 harg4 arg5 harg5 arg6 harg6 arg7 harg7 hc1 hc2 hc3 x0 x1 x2 x3 xs0).1, y ∈ pc.1.set :=
  View.cover_of_tiledL (kernelRun1_E c i arg2 harg2 arg3 harg3 arg4 harg4 arg5 harg5 arg6 harg6 arg7 harg7 hc1 hc2 hc3 x0 x1 x2 x3 xs0).1 S1024x128.size (by sl_kernel_rfl) y

set_option maxHeartbeats 1000000 in
/-- The body in case F (first column tile: false; diagonal tile: false; last column tile: true) on whole memrefs: it runs to the
    continuation with the inputs as they were, the scratch at its stores' pieces over what it held, and the output
    at its store's piece. The pieces are what the run finds. -/
noncomputable def kernelRun1_F (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : ¬cond1_2 i) (hc3 : cond1_3 i)
    (x0 : Vec F S1024x1024 .bf16) (x1 : Vec F S1024x1 .f32) (x2 : Vec F S1x1024 .f32) (x3 : Vec F S8192x128 .bf16) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__aggregate_kernel i arg2 harg2 arg3 harg3 arg4 harg4 arg5 harg5 arg6 harg6 arg7 harg7) K } := by
  refine ⟨?_, ?_, fun E K => ?run⟩
  case run =>
    simp only [cc1__aggregate_kernel_eq_skeleton]; unfold cc1__aggregate_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%d_arg6, %f_arg6, -, H_arg6⟩, ⟨%f_arg7, %hf_arg7, H_arg7⟩, Hk⟩
    obtain rfl := harg2.eq_unread hf_arg2; obtain rfl := harg3.eq_unread hf_arg3; obtain rfl := harg4.eq_unread hf_arg4; obtain rfl := harg5.eq_unread hf_arg5; obtain rfl := harg7.eq_unread hf_arg7
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg6]
    · iexists _; iexact H_arg6
    iexists _; iexact H_arg7

/-- Case F's pieces for the scratch accumulator tile it, so they cover it. -/
theorem scover1_F (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : ¬cond1_2 i) (hc3 : cond1_3 i)
    (x0 : Vec F S1024x1024 .bf16) (x1 : Vec F S1024x1 .f32) (x2 : Vec F S1x1024 .f32) (x3 : Vec F S8192x128 .bf16) (xs0 : Vec F S1024x128 .f32) (y : S1024x128.Idx) :
    ∃ pc ∈ (kernelRun1_F c i arg2 harg2 arg3 harg3 arg4 harg4 arg5 harg5 arg6 harg6 arg7 harg7 hc1 hc2 hc3 x0 x1 x2 x3 xs0).2.1, y ∈ pc.1.set :=
  View.cover_of_tiledL (kernelRun1_F c i arg2 harg2 arg3 harg3 arg4 harg4 arg5 harg5 arg6 harg6 arg7 harg7 hc1 hc2 hc3 x0 x1 x2 x3 xs0).2.1 S1024x128.size (by sl_kernel_rfl) y
/-- Case F's piece for the output block tiles it, so it covers it. -/
theorem cover1_F (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : ¬cond1_2 i) (hc3 : cond1_3 i)
    (x0 : Vec F S1024x1024 .bf16) (x1 : Vec F S1024x1 .f32) (x2 : Vec F S1x1024 .f32) (x3 : Vec F S8192x128 .bf16) (xs0 : Vec F S1024x128 .f32) (y : S1024x128.Idx) :
    ∃ pc ∈ (kernelRun1_F c i arg2 harg2 arg3 harg3 arg4 harg4 arg5 harg5 arg6 harg6 arg7 harg7 hc1 hc2 hc3 x0 x1 x2 x3 xs0).1, y ∈ pc.1.set :=
  View.cover_of_tiledL (kernelRun1_F c i arg2 harg2 arg3 harg3 arg4 harg4 arg5 harg5 arg6 harg6 arg7 harg7 hc1 hc2 hc3 x0 x1 x2 x3 xs0).1 S1024x128.size (by sl_kernel_rfl) y

end Cert.Kernel.Frame

end
-- ==== Proof.KernelFrame1.lean ====
/-
  The aggregate kernel as one region of the program `Kernel`, at any contents `V` of the core's buffers when the
  region is entered: a window's block at a point; what the output's staging buffer and the carried scratch
  accumulator hold after the body at each point, by recursion on the point (the case the point is in, over what the
  point before left in the scratch); the region invariant (before the first point every scratch at anything, afterwards
  the accumulator at what the point before left); the proof data; the body obligation.
-/
import proofs.«109869_j22351009808763_2_alg».proof.Proof.KernelRuns1

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Each case at a point, its conditions in closed form -/

abbrev run1_A (c : Dev nD) (t : Fin cfg1.N) (h1 : t.val % 8 = 0) (h2 : t.val % 9 = 0) (h3 : ¬t.val % 8 = 7) :=
  kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_1 t).mpr h1) ((hcond1_2 t).mpr h2) (fun h => h3 ((hcond1_3 t).mp h)) (iblk1 V c 0 t) (iblk1 V c 1 t) (iblk1 V c 2 t) (iblk1 V c 3 t)
/-- What case A leaves in the output's staging buffer (its store read back over junk; nothing when it stores nothing). -/
def out1_A (c : Dev nD) (t : Fin cfg1.N) (h1 : t.val % 8 = 0) (h2 : t.val % 9 = 0) (h3 : ¬t.val % 8 = 7) : Vec F S1024x128 .f32 :=
  VO1_4.read (Elt F) (VO1_4.writes (Elt F) VO1_4.junk (run1_A V c t h1 h2 h3).1)
/-- What case A leaves in the scratch accumulator: its stores read back over junk. -/
def sout1_A (c : Dev nD) (t : Fin cfg1.N) (h1 : t.val % 8 = 0) (h2 : t.val % 9 = 0) (h3 : ¬t.val % 8 = 7) : Vec F S1024x128 .f32 :=
  VS1_0.read (Elt F) (VS1_0.writes (Elt F) VS1_0.junk (run1_A V c t h1 h2 h3).2.1)

abbrev run1_B (c : Dev nD) (t : Fin cfg1.N) (h1 : t.val % 8 = 0) (h2 : ¬t.val % 9 = 0) (h3 : ¬t.val % 8 = 7) :=
  kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_1 t).mpr h1) (fun h => h2 ((hcond1_2 t).mp h)) (fun h => h3 ((hcond1_3 t).mp h)) (iblk1 V c 0 t) (iblk1 V c 1 t) (iblk1 V c 2 t) (iblk1 V c 3 t)
/-- What case B leaves in the output's staging buffer (its store read back over junk; nothing when it stores nothing). -/
def out1_B (c : Dev nD) (t : Fin cfg1.N) (h1 : t.val % 8 = 0) (h2 : ¬t.val % 9 = 0) (h3 : ¬t.val % 8 = 7) : Vec F S1024x128 .f32 :=
  VO1_4.read (Elt F) (VO1_4.writes (Elt F) VO1_4.junk (run1_B V c t h1 h2 h3).1)
/-- What case B leaves in the scratch accumulator: its stores read back over junk. -/
def sout1_B (c : Dev nD) (t : Fin cfg1.N) (h1 : t.val % 8 = 0) (h2 : ¬t.val % 9 = 0) (h3 : ¬t.val % 8 = 7) : Vec F S1024x128 .f32 :=
  VS1_0.read (Elt F) (VS1_0.writes (Elt F) VS1_0.junk (run1_B V c t h1 h2 h3).2.1)

abbrev run1_C (c : Dev nD) (t : Fin cfg1.N) (h1 : ¬t.val % 8 = 0) (h2 : t.val % 9 = 0) (h3 : ¬t.val % 8 = 7) (xs : Vec F S1024x128 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h1 ((hcond1_1 t).mp h)) ((hcond1_2 t).mpr h2) (fun h => h3 ((hcond1_3 t).mp h)) (iblk1 V c 0 t) (iblk1 V c 1 t) (iblk1 V c 2 t) (iblk1 V c 3 t) xs
/-- What case C leaves in the output's staging buffer (its store read back over junk; nothing when it stores nothing). -/
def out1_C (c : Dev nD) (t : Fin cfg1.N) (h1 : ¬t.val % 8 = 0) (h2 : t.val % 9 = 0) (h3 : ¬t.val % 8 = 7) (xs : Vec F S1024x128 .f32) : Vec F S1024x128 .f32 :=
  VO1_4.read (Elt F) (VO1_4.writes (Elt F) VO1_4.junk (run1_C V c t h1 h2 h3 xs).1)
/-- What case C leaves in the scratch accumulator: its stores read back over junk. -/
def sout1_C (c : Dev nD) (t : Fin cfg1.N) (h1 : ¬t.val % 8 = 0) (h2 : t.val % 9 = 0) (h3 : ¬t.val % 8 = 7) (xs : Vec F S1024x128 .f32) : Vec F S1024x128 .f32 :=
  VS1_0.read (Elt F) (VS1_0.writes (Elt F) VS1_0.junk (run1_C V c t h1 h2 h3 xs).2.1)

abbrev run1_D (c : Dev nD) (t : Fin cfg1.N) (h1 : ¬t.val % 8 = 0) (h2 : ¬t.val % 9 = 0) (h3 : ¬t.val % 8 = 7) (xs : Vec F S1024x128 .f32) :=
  kernelRun1_D (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h1 ((hcond1_1 t).mp h)) (fun h => h2 ((hcond1_2 t).mp h)) (fun h => h3 ((hcond1_3 t).mp h)) (iblk1 V c 0 t) (iblk1 V c 1 t) (iblk1 V c 2 t) (iblk1 V c 3 t) xs
/-- What case D leaves in the output's staging buffer (its store read back over junk; nothing when it stores nothing). -/
def out1_D (c : Dev nD) (t : Fin cfg1.N) (h1 : ¬t.val % 8 = 0) (h2 : ¬t.val % 9 = 0) (h3 : ¬t.val % 8 = 7) (xs : Vec F S1024x128 .f32) : Vec F S1024x128 .f32 :=
  VO1_4.read (Elt F) (VO1_4.writes (Elt F) VO1_4.junk (run1_D V c t h1 h2 h3 xs).1)
/-- What case D leaves in the scratch accumulator: its stores read back over junk. -/
def sout1_D (c : Dev nD) (t : Fin cfg1.N) (h1 : ¬t.val % 8 = 0) (h2 : ¬t.val % 9 = 0) (h3 : ¬t.val % 8 = 7) (xs : Vec F S1024x128 .f32) : Vec F S1024x128 .f32 :=
  VS1_0.read (Elt F) (VS1_0.writes (Elt F) VS1_0.junk (run1_D V c t h1 h2 h3 xs).2.1)

abbrev run1_E (c : Dev nD) (t : Fin cfg1.N) (h1 : ¬t.val % 8 = 0) (h2 : t.val % 9 = 0) (h3 : t.val % 8 = 7) (xs : Vec F S1024x128 .f32) :=
  kernelRun1_E (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h1 ((hcond1_1 t).mp h)) ((hcond1_2 t).mpr h2) ((hcond1_3 t).mpr h3) (iblk1 V c 0 t) (iblk1 V c 1 t) (iblk1 V c 2 t) (iblk1 V c 3 t) xs
/-- What case E leaves in the output's staging buffer (its store read back over junk; nothing when it stores nothing). -/
def out1_E (c : Dev nD) (t : Fin cfg1.N) (h1 : ¬t.val % 8 = 0) (h2 : t.val % 9 = 0) (h3 : t.val % 8 = 7) (xs : Vec F S1024x128 .f32) : Vec F S1024x128 .f32 :=
  VO1_4.read (Elt F) (VO1_4.writes (Elt F) VO1_4.junk (run1_E V c t h1 h2 h3 xs).1)
/-- What case E leaves in the scratch accumulator: its stores read back over junk. -/
def sout1_E (c : Dev nD) (t : Fin cfg1.N) (h1 : ¬t.val % 8 = 0) (h2 : t.val % 9 = 0) (h3 : t.val % 8 = 7) (xs : Vec F S1024x128 .f32) : Vec F S1024x128 .f32 :=
  VS1_0.read (Elt F) (VS1_0.writes (Elt F) VS1_0.junk (run1_E V c t h1 h2 h3 xs).2.1)

abbrev run1_F (c : Dev nD) (t : Fin cfg1.N) (h1 : ¬t.val % 8 = 0) (h2 : ¬t.val % 9 = 0) (h3 : t.val % 8 = 7) (xs : Vec F S1024x128 .f32) :=
  kernelRun1_F (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h1 ((hcond1_1 t).mp h)) (fun h => h2 ((hcond1_2 t).mp h)) ((hcond1_3 t).mpr h3) (iblk1 V c 0 t) (iblk1 V c 1 t) (iblk1 V c 2 t) (iblk1 V c 3 t) xs
/-- What case F leaves in the output's staging buffer (its store read back over junk; nothing when it stores nothing). -/
def out1_F (c : Dev nD) (t : Fin cfg1.N) (h1 : ¬t.val % 8 = 0) (h2 : ¬t.val % 9 = 0) (h3 : t.val % 8 = 7) (xs : Vec F S1024x128 .f32) : Vec F S1024x128 .f32 :=
  VO1_4.read (Elt F) (VO1_4.writes (Elt F) VO1_4.junk (run1_F V c t h1 h2 h3 xs).1)
/-- What case F leaves in the scratch accumulator: its stores read back over junk. -/
def sout1_F (c : Dev nD) (t : Fin cfg1.N) (h1 : ¬t.val % 8 = 0) (h2 : ¬t.val % 9 = 0) (h3 : t.val % 8 = 7) (xs : Vec F S1024x128 .f32) : Vec F S1024x128 .f32 :=
  VS1_0.read (Elt F) (VS1_0.writes (Elt F) VS1_0.junk (run1_F V c t h1 h2 h3 xs).2.1)

/-! ## Point by point -/

/-- One point: the case its number selects, over what the scratch held before it (`xs`, not read when the point resets it). -/
def step1 (c : Dev nD) (t : Fin cfg1.N) (xs : Vec F S1024x128 .f32) : Vec F S1024x128 .f32 × Vec F S1024x128 .f32 :=
  if h1 : t.val % 8 = 0 then
    if h2 : t.val % 9 = 0 then
      if h3 : t.val % 8 = 7 then False.elim (by omega) else (out1_A V c t h1 h2 h3, sout1_A V c t h1 h2 h3)
    else
      if h3 : t.val % 8 = 7 then False.elim (by omega) else (out1_B V c t h1 h2 h3, sout1_B V c t h1 h2 h3)
  else
    if h2 : t.val % 9 = 0 then
      if h3 : t.val % 8 = 7 then (out1_E V c t h1 h2 h3 xs, sout1_E V c t h1 h2 h3 xs) else (out1_C V c t h1 h2 h3 xs, sout1_C V c t h1 h2 h3 xs)
    else
      if h3 : t.val % 8 = 7 then (out1_F V c t h1 h2 h3 xs, sout1_F V c t h1 h2 h3 xs) else (out1_D V c t h1 h2 h3 xs, sout1_D V c t h1 h2 h3 xs)

theorem step1_A (c : Dev nD) (t : Fin cfg1.N) (xs : Vec F S1024x128 .f32) (h1 : t.val % 8 = 0) (h2 : t.val % 9 = 0) (h3 : ¬t.val % 8 = 7) :
    step1 V c t xs = (out1_A V c t h1 h2 h3, sout1_A V c t h1 h2 h3) := by
  unfold step1; rw [dif_pos h1, dif_pos h2, dif_neg h3]
theorem step1_B (c : Dev nD) (t : Fin cfg1.N) (xs : Vec F S1024x128 .f32) (h1 : t.val % 8 = 0) (h2 : ¬t.val % 9 = 0) (h3 : ¬t.val % 8 = 7) :
    step1 V c t xs = (out1_B V c t h1 h2 h3, sout1_B V c t h1 h2 h3) := by
  unfold step1; rw [dif_pos h1, dif_neg h2, dif_neg h3]
theorem step1_C (c : Dev nD) (t : Fin cfg1.N) (xs : Vec F S1024x128 .f32) (h1 : ¬t.val % 8 = 0) (h2 : t.val % 9 = 0) (h3 : ¬t.val % 8 = 7) :
    step1 V c t xs = (out1_C V c t h1 h2 h3 xs, sout1_C V c t h1 h2 h3 xs) := by
  unfold step1; rw [dif_neg h1, dif_pos h2, dif_neg h3]
theorem step1_D (c : Dev nD) (t : Fin cfg1.N) (xs : Vec F S1024x128 .f32) (h1 : ¬t.val % 8 = 0) (h2 : ¬t.val % 9 = 0) (h3 : ¬t.val % 8 = 7) :
    step1 V c t xs = (out1_D V c t h1 h2 h3 xs, sout1_D V c t h1 h2 h3 xs) := by
  unfold step1; rw [dif_neg h1, dif_neg h2, dif_neg h3]
theorem step1_E (c : Dev nD) (t : Fin cfg1.N) (xs : Vec F S1024x128 .f32) (h1 : ¬t.val % 8 = 0) (h2 : t.val % 9 = 0) (h3 : t.val % 8 = 7) :
    step1 V c t xs = (out1_E V c t h1 h2 h3 xs, sout1_E V c t h1 h2 h3 xs) := by
  unfold step1; rw [dif_neg h1, dif_pos h2, dif_pos h3]
theorem step1_F (c : Dev nD) (t : Fin cfg1.N) (xs : Vec F S1024x128 .f32) (h1 : ¬t.val % 8 = 0) (h2 : ¬t.val % 9 = 0) (h3 : t.val % 8 = 7) :
    step1 V c t xs = (out1_F V c t h1 h2 h3 xs, sout1_F V c t h1 h2 h3 xs) := by
  unfold step1; rw [dif_neg h1, dif_neg h2, dif_pos h3]

/-- THE ACCUMULATION: what the output's staging buffer and the scratch hold after the body at position `n`. -/
def outsAt1 (c : Dev nD) : (n : ℕ) → n < cfg1.N → Vec F S1024x128 .f32 × Vec F S1024x128 .f32
  | 0, hn => step1 V c ⟨0, hn⟩ (VS1_0.read (Elt F) VS1_0.junk)
  | n + 1, hn => step1 V c ⟨n + 1, hn⟩ (outsAt1 c n (Nat.lt_of_succ_lt hn)).2

/-- What the scratch held before point `t`. -/
def prev1 (c : Dev nD) (t : Fin cfg1.N) : Vec F S1024x128 .f32 :=
  match t with
  | ⟨0, _⟩ => VS1_0.read (Elt F) VS1_0.junk
  | ⟨n + 1, hn⟩ => (outsAt1 V c n (Nat.lt_of_succ_lt hn)).2

theorem outsAt1_step (c : Dev nD) (t : Fin cfg1.N) : outsAt1 V c t.val t.isLt = step1 V c t (prev1 V c t) := by
  obtain ⟨n, hn⟩ := t
  cases n <;> rfl

theorem prev1_pos (c : Dev nD) (t : Fin cfg1.N) (hz : t.val ≠ 0) :
    prev1 V c t = (outsAt1 V c (t.val - 1) (Nat.lt_of_le_of_lt (Nat.sub_le _ _) t.isLt)).2 := by
  obtain ⟨n, hn⟩ := t
  cases n with
  | zero => exact absurd rfl hz
  | succ n => rfl

/-! ## The region invariant -/

/-- The core's scoped buffers other than the pipeline's staging buffers and the accumulator, each at anything. -/
abbrev Rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA
  rw [Pipeline.scopedRest_split_of_list spec1 c [cc1_scratch0] (by decide) (by decide)]
  simp only [bigSepL_singleton, scM1_0, owns_whole]; try rfl

/-- Before position `n`: at the first point the class's invariant (every scratch at anything); afterwards the accumulator
    at what the point before left in it, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' staging buffers hold their blocks; the point's number says which case it is in; the
    invariant hands the body the accumulator at what the point before left (at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h1 : t.val % 8 = 0
  · by_cases h2 : t.val % 9 = 0
    · have h3 : ¬t.val % 8 = 7 := by omega
      rw [Dat.leavesExact_idle (dat1 V c) 4 t (idleAt1_4 t (fun h => h3 ((hcond1_3 t).mp h))) (noFlush1_4 t (fun h => h3 ((hcond1_3 t).mp h)))]
      rw [outsAt1_step V c t, step1_A V c t _ h1 h2 h3]
      unfold sout1_A; (try dsimp only)
      by_cases hz : t.val = 0
      · -- the first point: every scratch at anything
        rw [PhiS1_castSucc V c t, PhiS1_zero V c _ _ hz, PhiA1_eq]
        iintro ⟨⟨⟨HS, HR⟩, Hg⟩, Ho, ⟨%d0, H0⟩, ⟨%d1, H1⟩, ⟨%d2, H2⟩, ⟨%d3, H3⟩, ⟨%d4, H4⟩⟩
        iapply ((run1_A V c t h1 h2 h3).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS HR Hg]
        · isplitl [HS HR]
          · isplitl [HS]
            · unfold owns; iexists _; isplitr
              swap; · iexact HS
              ipureintro; exact View.read_writes_of_cover _ _ _ _ _ (scover1_A c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · -- a later point: the accumulator at what the point before left
        rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩⟩
        iapply ((run1_A V c t h1 h2 h3).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS HR Hg]
        · isplitl [HS HR]
          · isplitl [HS]
            · unfold owns; iexists _; isplitr
              swap; · iexact HS
              ipureintro; exact View.read_writes_of_cover _ _ _ _ _ (scover1_A c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
    · have h3 : ¬t.val % 8 = 7 := by omega
      rw [Dat.leavesExact_idle (dat1 V c) 4 t (idleAt1_4 t (fun h => h3 ((hcond1_3 t).mp h))) (noFlush1_4 t (fun h => h3 ((hcond1_3 t).mp h)))]
      rw [outsAt1_step V c t, step1_B V c t _ h1 h2 h3]
      unfold sout1_B; (try dsimp only)
      by_cases hz : t.val = 0
      · exfalso; omega
      · -- a later point: the accumulator at what the point before left
        rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩⟩
        iapply ((run1_B V c t h1 h2 h3).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS HR Hg]
        · isplitl [HS HR]
          · isplitl [HS]
            · unfold owns; iexists _; isplitr
              swap; · iexact HS
              ipureintro; exact View.read_writes_of_cover _ _ _ _ _ (scover1_B c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h2 : t.val % 9 = 0
    · by_cases h3 : t.val % 8 = 7
      · rw [show (dat1 V c).leavesExact 4 t = owns (c : Thread nD τ) (ms1_4 t) fullShare ((dat1 V c).after 4 t) from by
          unfold Dat.leavesExact; rw [liveAt1_4 t ((hcond1_3 t).mpr h3)], after1_4]
        rw [outsAt1_step V c t, step1_E V c t _ h1 h2 h3]
        unfold out1_E sout1_E; (try dsimp only)
        by_cases hz : t.val = 0
        · exfalso; omega
        · -- a later point: the accumulator at what the point before left
          rw [PhiS1_castSucc V c t, PhiS1_pos V c _ _ hz, ← prev1_pos V c t hz]
          iintro ⟨⟨⟨HS, HR⟩, Hg⟩, Ho, ⟨%d0, H0⟩, ⟨%d1, H1⟩, ⟨%d2, H2⟩, ⟨%d3, H3⟩, ⟨%d4, H4⟩⟩
          iapply ((run1_E V c t h1 h2 h3 (prev1 V c t)).2.2 Set.univ _)
          isplitl [H0]; · iexact H0
          isplitl [H1]; · iexact H1
          isplitl [H2]; · iexact H2
          isplitl [H3]; · iexact H3
          isplitl [H4]; · iexists _; iexact H4
          isplitl [HS]; · iexact HS
          iintro ⟨H0, H1, H2, H3, ⟨%e4, H4⟩, ⟨%es, HS⟩⟩
          isplitl [HS HR Hg]
          · isplitl [HS HR]
            · isplitl [HS]
              · unfold owns; iexists _; isplitr
                swap; · iexact HS
                ipureintro; exact View.read_writes_of_cover _ _ _ _ _ (scover1_E c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover1_E c _ _ _ _ _ _ _ _ _ _ _ _ _ _ _ _ _ _ _ _ _)
      · rw [Dat.leavesExact_idle (dat1 V c) 4 t (idleAt1_4 t (fun h => h3 ((hcond1_3 t).mp h))) (noFlush1_4 t (fun h => h3 ((hcond1_3 t).mp h)))]
        rw [outsAt1_step V c t, step1_C V c t _ h1 h2 h3]
        unfold sout1_C; (try dsimp only)
        by_cases hz : t.val = 0
        · exfalso; omega
        · -- a later point: the accumulator at what the point before left
          rw [PhiS1_castSucc V c t, PhiS1_pos V c _ _ hz, ← prev1_pos V c t hz]
          iintro ⟨⟨⟨HS, HR⟩, Hg⟩, Ho, ⟨%d0, H0⟩, ⟨%d1, H1⟩, ⟨%d2, H2⟩, ⟨%d3, H3⟩, ⟨%d4, H4⟩⟩
          iapply ((run1_C V c t h1 h2 h3 (prev1 V c t)).2.2 _ Set.univ _)
          isplitl [H0]; · iexact H0
          isplitl [H1]; · iexact H1
          isplitl [H2]; · iexact H2
          isplitl [H3]; · iexact H3
          isplitl [H4]; · iexact H4
          isplitl [HS]; · iexact HS
          iintro ⟨H0, H1, H2, H3, H4, ⟨%es, HS⟩⟩
          isplitl [HS HR Hg]
          · isplitl [HS HR]
            · isplitl [HS]
              · unfold owns; iexists _; isplitr
                swap; · iexact HS
                ipureintro; exact View.read_writes_of_cover _ _ _ _ _ (scover1_C c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          iexists _; iexact H4
    · by_cases h3 : t.val % 8 = 7
      · rw [show (dat1 V c).leavesExact 4 t = owns (c : Thread nD τ) (ms1_4 t) fullShare ((dat1 V c).after 4 t) from by
          unfold Dat.leavesExact; rw [liveAt1_4 t ((hcond1_3 t).mpr h3)], after1_4]
        rw [outsAt1_step V c t, step1_F V c t _ h1 h2 h3]
        unfold out1_F sout1_F; (try dsimp only)
        by_cases hz : t.val = 0
        · exfalso; omega
        · -- a later point: the accumulator at what the point before left
          rw [PhiS1_castSucc V c t, PhiS1_pos V c _ _ hz, ← prev1_pos V c t hz]
          iintro ⟨⟨⟨HS, HR⟩, Hg⟩, Ho, ⟨%d0, H0⟩, ⟨%d1, H1⟩, ⟨%d2, H2⟩, ⟨%d3, H3⟩, ⟨%d4, H4⟩⟩
          iapply ((run1_F V c t h1 h2 h3 (prev1 V c t)).2.2 Set.univ _)
          isplitl [H0]; · iexact H0
          isplitl [H1]; · iexact H1
          isplitl [H2]; · iexact H2
          isplitl [H3]; · iexact H3
          isplitl [H4]; · iexists _; iexact H4
          isplitl [HS]; · iexact HS
          iintro ⟨H0, H1, H2, H3, ⟨%e4, H4⟩, ⟨%es, HS⟩⟩
          isplitl [HS HR Hg]
          · isplitl [HS HR]
            · isplitl [HS]
              · unfold owns; iexists _; isplitr
                swap; · iexact HS
                ipureintro; exact View.read_writes_of_cover _ _ _ _ _ (scover1_F c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover1_F c _ _ _ _ _ _ _ _ _ _ _ _ _ _ _ _ _ _ _ _ _)
      · rw [Dat.leavesExact_idle (dat1 V c) 4 t (idleAt1_4 t (fun h => h3 ((hcond1_3 t).mp h))) (noFlush1_4 t (fun h => h3 ((hcond1_3 t).mp h)))]
        rw [outsAt1_step V c t, step1_D V c t _ h1 h2 h3]
        unfold sout1_D; (try dsimp only)
        by_cases hz : t.val = 0
        · exfalso; omega
        · -- a later point: the accumulator at what the point before left
          rw [PhiS1_castSucc V c t, PhiS1_pos V c _ _ hz, ← prev1_pos V c t hz]
          iintro ⟨⟨⟨HS, HR⟩, Hg⟩, Ho, ⟨%d0, H0⟩, ⟨%d1, H1⟩, ⟨%d2, H2⟩, ⟨%d3, H3⟩, ⟨%d4, H4⟩⟩
          iapply ((run1_D V c t h1 h2 h3 (prev1 V c t)).2.2 _ Set.univ _)
          isplitl [H0]; · iexact H0
          isplitl [H1]; · iexact H1
          isplitl [H2]; · iexact H2
          isplitl [H3]; · iexact H3
          isplitl [H4]; · iexact H4
          isplitl [HS]; · iexact HS
          iintro ⟨H0, H1, H2, H3, H4, ⟨%es, HS⟩⟩
          isplitl [HS HR Hg]
          · isplitl [HS HR]
            · isplitl [HS]
              · unfold owns; iexists _; isplitr
                swap; · iexact HS
                ipureintro; exact View.read_writes_of_cover _ _ _ _ _ (scover1_D c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the class's invariant is before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, HR⟩, Hg⟩
  isplitl [HS HR]
  · isplitl [HS]
    · iexists _; iexact HS
    iexact HR
  iexact Hg

end

end Cert.Kernel.Frame

end
-- ==== Proof.KernelRun.lean ====
/-
  The whole run of `Kernel`'s @main: host operations, the degree kernel's region, host operations, the aggregate
  kernel's region. The contents of the core's buffers at each boundary are a fold from the launch memory (a stretch
  of host operations applies them; a region leaves its arrays at what its write-backs leave); each region is entered
  from every unscoped buffer at the boundary's contents and left at the next boundary's; the last boundary's contents
  are read off the final state. No host operation and no region writes an argument array.
-/
import proofs.«109869_j22351009808763_2_alg».proof.Proof.KernelFrame0
import proofs.«109869_j22351009808763_2_alg».proof.Proof.KernelFrame1
import proofs.«109869_j22351009808763_2_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer no host operation of the first stretch writes holds its launch contents at the first region's entry. -/
theorem W1_of (c : Dev nD) (r : Ref sig .tc) (h : r ∉ hostOps0_W) : W1 m ρ c r = W0 m ρ c r :=
  StableHlo.after_of_writes_sub hostOps0 _ hostOps0_writes h
/-- A buffer no host operation of the second stretch writes is as the first region left it at the second's entry. -/
theorem W3_of (c : Dev nD) (r : Ref sig .tc) (h : r ∉ hostOps1_W) : W3 m ρ c r = W2 m ρ c r :=
  StableHlo.after_of_writes_sub hostOps1 _ hostOps1_writes h

theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <|
    (W2_of_ne m ρ c main_arg3 (by decide)).trans <| (W1_of m ρ c main_arg3 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The degree kernel's region over the thread state: its arrays split out of the unscoped buffers at entry and put
    back at the exit contents; the generator register into the invariant and out; the scratch's named contents forgotten at
    the end; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregate kernel's region over the thread state: its arrays split out of the unscoped buffers at entry and put
    back at the exit contents; the generator register into the invariant and out; the scratch's named contents forgotten at
    the end; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and every
    final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Frame

end
-- ==== Proof.KernelIdealShared.lean ====
/-
  What the two kernels' runs are stated over, for the program `KernelIdeal`: the three conditions of each body's
  `pl.when`s as propositions over the grid coordinates, with their closed forms over the point number
  (point t is row tile t / 8 against column tile t % 8: the first column tile is t % 8 = 0, the diagonal tile
  t % 9 = 0, the last column tile t % 8 = 7), where the output window is idle, the staging and scratch memrefs,
  a window's block at a point, and the class invariant with the carried scratch split off.
-/
import proofs.«109869_j22351009808763_2_alg».proof.Proof.Gen.KernelIdeal.Launch
import proofs.«109869_j22351009808763_2_alg».proof.Proof.Gen.KernelIdeal.Skeleton
import proofs.«109869_j22351009808763_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The degree kernel's conditions -/

/-- First column tile: the accumulator is reset. -/
abbrev cond0_1 (i : grid0.Coords) : Prop := (Scalar.cmpi .ne (Scalar.extui (Scalar.cmpi .eq (BitVec.ofNat 32 (i 1).val) 0#32)) 0#32) = 1#1
theorem hcond0_1 : ∀ t : Fin cfg0.N, cond0_1 (grid0.coords t) ↔ t.val % 8 = 0 :=
  (by decide +kernel : ∀ t : Fin grid0.N, cond0_1 (grid0.coords t) ↔ t.val % 8 = 0)
/-- Diagonal tile: the self-loop is counted. -/
abbrev cond0_2 (i : grid0.Coords) : Prop := (Scalar.cmpi .ne (Scalar.extui (Scalar.cmpi .eq (BitVec.ofNat 32 (i 0).val) (BitVec.ofNat 32 (i 1).val))) 0#32) = 1#1
theorem hcond0_2 : ∀ t : Fin cfg0.N, cond0_2 (grid0.coords t) ↔ t.val % 9 = 0 :=
  (by decide +kernel : ∀ t : Fin grid0.N, cond0_2 (grid0.coords t) ↔ t.val % 9 = 0)
/-- Last column tile: the result is stored. -/
abbrev cond0_3 (i : grid0.Coords) : Prop := k0_cond3 i = 1#1
theorem hcond0_3 : ∀ t : Fin cfg0.N, cond0_3 (grid0.coords t) ↔ t.val % 8 = 7 :=
  (by decide +kernel : ∀ t : Fin grid0.N, cond0_3 (grid0.coords t) ↔ t.val % 8 = 7)

/-! ## The aggregate kernel's conditions -/

abbrev cond1_1 (i : grid1.Coords) : Prop := (Scalar.cmpi .ne (Scalar.extui (Scalar.cmpi .eq (BitVec.ofNat 32 (i 1).val) 0#32)) 0#32) = 1#1
theorem hcond1_1 : ∀ t : Fin cfg1.N, cond1_1 (grid1.coords t) ↔ t.val % 8 = 0 :=
  (by decide +kernel : ∀ t : Fin grid1.N, cond1_1 (grid1.coords t) ↔ t.val % 8 = 0)
abbrev cond1_2 (i : grid1.Coords) : Prop := (Scalar.cmpi .ne (Scalar.extui (Scalar.cmpi .eq (BitVec.ofNat 32 (i 0).val) (BitVec.ofNat 32 (i 1).val))) 0#32) = 1#1
theorem hcond1_2 : ∀ t : Fin cfg1.N, cond1_2 (grid1.coords t) ↔ t.val % 9 = 0 :=
  (by decide +kernel : ∀ t : Fin grid1.N, cond1_2 (grid1.coords t) ↔ t.val % 9 = 0)
abbrev cond1_3 (i : grid1.Coords) : Prop := k1_cond3 i = 1#1
theorem hcond1_3 : ∀ t : Fin cfg1.N, cond1_3 (grid1.coords t) ↔ t.val % 8 = 7 :=
  (by decide +kernel : ∀ t : Fin grid1.N, cond1_3 (grid1.coords t) ↔ t.val % 8 = 7)

/-! ## Where the output windows are idle -/

theorem liveAt0_0 : ∀ t : Fin cfg0.N, cfg0.idle 0 (grid0.coords t) = false := by decide +kernel
theorem idleAt0_1 : ∀ t : Fin cfg0.N, ¬cond0_3 (grid0.coords t) → cfg0.idle 1 (grid0.coords t) = true := by decide +kernel
theorem noFlush0_1 : ∀ t : Fin cfg0.N, ¬cond0_3 (grid0.coords t) → (cfg0.win 1).flush t = false := by decide +kernel
theorem liveAt0_1 : ∀ t : Fin cfg0.N, cond0_3 (grid0.coords t) → cfg0.idle 1 (grid0.coords t) = false := by decide +kernel

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem idleAt1_4 : ∀ t : Fin cfg1.N, ¬cond1_3 (grid1.coords t) → cfg1.idle 4 (grid1.coords t) = true := by decide +kernel
theorem noFlush1_4 : ∀ t : Fin cfg1.N, ¬cond1_3 (grid1.coords t) → (cfg1.win 4).flush t = false := by decide +kernel
theorem liveAt1_4 : ∀ t : Fin cfg1.N, cond1_3 (grid1.coords t) → cfg1.idle 4 (grid1.coords t) = false := by decide +kernel

/-! ## The memrefs the bodies are called with -/

abbrev VO0_1 : View sig .tc .vmem S1024x1 .f32 := (Memref.whole cc0_stg1_0 : Memref sig .tc .vmem S1024x1 .f32).view
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev scM0_0 : Memref sig .tc .vmem S1024x1 .f32 := Memref.whole cc0_scratch0
abbrev VS0_0 : View sig .tc .vmem S1024x1 .f32 := scM0_0.view

abbrev VO1_4 : View sig .tc .vmem S1024x128 .f32 := (Memref.whole cc1_stg4_0 : Memref sig .tc .vmem S1024x128 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8192x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x128 .f32 := win1_4.stage (cfg1.slots t 4)
abbrev hs1_4 (t : Fin cfg1.N) : (ms1_4 t).IsWhole := hstage1_4 ((cfg1.slots t 4).cast nbuf1_4)
abbrev scM1_0 : Memref sig .tc .vmem S1024x128 .f32 := Memref.whole cc1_scratch0
abbrev VS1_0 : View sig .tc .vmem S1024x128 .f32 := scM1_0.view

end Cert.KernelIdeal.Frame

end
-- ==== Proof.KernelIdealRuns1.lean ====
/-
  The aggregate kernel's body run in each of the six cases of its three conditions that the grid meets, for the
  program `KernelIdeal`: first column tile or not, diagonal tile or not, last column tile or not (the first and the last
  column tile are never the same point). After each run: its stores cover the buffers they are read back from.
-/
import proofs.«109869_j22351009808763_2_alg».proof.Proof.KernelIdealShared

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body in case A (first column tile: true; diagonal tile: true; last column tile: false) on whole memrefs: it runs to the
    continuation with the inputs as they were, the scratch at its stores' pieces over what it held, and the output
    handed back untouched. The pieces are what the run finds. -/
noncomputable def kernelRun1_A (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : cond1_1 i) (hc2 : cond1_2 i) (hc3 : ¬cond1_3 i)
    (x0 : Vec F S1024x1024 .bf16) (x1 : Vec F S1024x1 .f32) (x2 : Vec F S1x1024 .f32) (x3 : Vec F S8192x128 .bf16) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__aggregate_kernel i arg2 harg2 arg3 harg3 arg4 harg4 arg5 harg5 arg6 harg6 arg7 harg7) K } := by
  refine ⟨[], ?_, fun xi4 E K => ?run⟩
  case run =>
    simp only [cc1__aggregate_kernel_eq_skeleton]; unfold cc1__aggregate_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg6, %hf_arg6, H_arg6⟩, ⟨%d_arg7, %f_arg7, -, H_arg7⟩, Hk⟩
    obtain rfl := harg2.eq_unread hf_arg2; obtain rfl := harg3.eq_unread hf_arg3; obtain rfl := harg4.eq_unread hf_arg4; obtain rfl := harg5.eq_unread hf_arg5; obtain rfl := harg6.eq_unread hf_arg6
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg6]
    · iexists _; isplitr; · ipureintro; exact harg6.read_unread _
      iexact H_arg6
    iexists _; iexact H_arg7

/-- Case A's pieces for the scratch accumulator tile it, so they cover it. -/
theorem scover1_A (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : cond1_1 i) (hc2 : cond1_2 i) (hc3 : ¬cond1_3 i)
    (x0 : Vec F S1024x1024 .bf16) (x1 : Vec F S1024x1 .f32) (x2 : Vec F S1x1024 .f32) (x3 : Vec F S8192x128 .bf16) (y : S1024x128.Idx) :
    ∃ pc ∈ (kernelRun1_A c i arg2 harg2 arg3 harg3 arg4 harg4 arg5 harg5 arg6 harg6 arg7 harg7 hc1 hc2 hc3 x0 x1 x2 x3).2.1, y ∈ pc.1.set :=
  View.cover_of_tiledL (kernelRun1_A c i arg2 harg2 arg3 harg3 arg4 harg4 arg5 harg5 arg6 harg6 arg7 harg7 hc1 hc2 hc3 x0 x1 x2 x3).2.1 S1024x128.size (by sl_kernel_rfl) y

set_option maxHeartbeats 1000000 in
/-- The body in case B (first column tile: true; diagonal tile: false; last column tile: false) on whole memrefs: it runs to the
    continuation with the inputs as they were, the scratch at its stores' pieces over what it held, and the output
    handed back untouched. The pieces are what the run finds. -/
noncomputable def kernelRun1_B (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : cond1_1 i) (hc2 : ¬cond1_2 i) (hc3 : ¬cond1_3 i)
    (x0 : Vec F S1024x1024 .bf16) (x1 : Vec F S1024x1 .f32) (x2 : Vec F S1x1024 .f32) (x3 : Vec F S8192x128 .bf16) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__aggregate_kernel i arg2 harg2 arg3 harg3 arg4 harg4 arg5 harg5 arg6 harg6 arg7 harg7) K } := by
  refine ⟨[], ?_, fun xi4 E K => ?run⟩
  case run =>
    simp only [cc1__aggregate_kernel_eq_skeleton]; unfold cc1__aggregate_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg6, %hf_arg6, H_arg6⟩, ⟨%d_arg7, %f_arg7, -, H_arg7⟩, Hk⟩
    obtain rfl := harg2.eq_unread hf_arg2; obtain rfl := harg3.eq_unread hf_arg3; obtain rfl := harg4.eq_unread hf_arg4; obtain rfl := harg5.eq_unread hf_arg5; obtain rfl := harg6.eq_unread hf_arg6
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg6]
    · iexists _; isplitr; · ipureintro; exact harg6.read_unread _
      iexact H_arg6
    iexists _; iexact H_arg7

/-- Case B's pieces for the scratch accumulator tile it, so they cover it. -/
theorem scover1_B (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : cond1_1 i) (hc2 : ¬cond1_2 i) (hc3 : ¬cond1_3 i)
    (x0 : Vec F S1024x1024 .bf16) (x1 : Vec F S1024x1 .f32) (x2 : Vec F S1x1024 .f32) (x3 : Vec F S8192x128 .bf16) (y : S1024x128.Idx) :
    ∃ pc ∈ (kernelRun1_B c i arg2 harg2 arg3 harg3 arg4 harg4 arg5 harg5 arg6 harg6 arg7 harg7 hc1 hc2 hc3 x0 x1 x2 x3).2.1, y ∈ pc.1.set :=
  View.cover_of_tiledL (kernelRun1_B c i arg2 harg2 arg3 harg3 arg4 harg4 arg5 harg5 arg6 harg6 arg7 harg7 hc1 hc2 hc3 x0 x1 x2 x3).2.1 S1024x128.size (by sl_kernel_rfl) y

set_option maxHeartbeats 1000000 in
/-- The body in case C (first column tile: false; diagonal tile: true; last column tile: false) on whole memrefs: it runs to the
    continuation with the inputs as they were, the scratch at its stores' pieces over what it held, and the output
    handed back untouched. The pieces are what the run finds. -/
noncomputable def kernelRun1_C (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : cond1_2 i) (hc3 : ¬cond1_3 i)
    (x0 : Vec F S1024x1024 .bf16) (x1 : Vec F S1024x1 .f32) (x2 : Vec F S1x1024 .f32) (x3 : Vec F S8192x128 .bf16) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__aggregate_kernel i arg2 harg2 arg3 harg3 arg4 harg4 arg5 harg5 arg6 harg6 arg7 harg7) K } := by
  refine ⟨[], ?_, fun xi4 E K => ?run⟩
  case run =>
    simp only [cc1__aggregate_kernel_eq_skeleton]; unfold cc1__aggregate_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg6, %hf_arg6, H_arg6⟩, ⟨%f_arg7, %hf_arg7, H_arg7⟩, Hk⟩
    obtain rfl := harg2.eq_unread hf_arg2; obtain rfl := harg3.eq_unread hf_arg3; obtain rfl := harg4.eq_unread hf_arg4; obtain rfl := harg5.eq_unread hf_arg5; obtain rfl := harg6.eq_unread hf_arg6; obtain rfl := harg7.eq_unread hf_arg7
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg6]
    · iexists _; isplitr; · ipureintro; exact harg6.read_unread _
      iexact H_arg6
    iexists _; iexact H_arg7

/-- Case C's pieces for the scratch accumulator tile it, so they cover it. -/
theorem scover1_C (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : cond1_2 i) (hc3 : ¬cond1_3 i)
    (x0 : Vec F S1024x1024 .bf16) (x1 : Vec F S1024x1 .f32) (x2 : Vec F S1x1024 .f32) (x3 : Vec F S8192x128 .bf16) (xs0 : Vec F S1024x128 .f32) (y : S1024x128.Idx) :
    ∃ pc ∈ (kernelRun1_C c i arg2 harg2 arg3 harg3 arg4 harg4 arg5 harg5 arg6 harg6 arg7 harg7 hc1 hc2 hc3 x0 x1 x2 x3 xs0).2.1, y ∈ pc.1.set :=
  View.cover_of_tiledL (kernelRun1_C c i arg2 harg2 arg3 harg3 arg4 harg4 arg5 harg5 arg6 harg6 arg7 harg7 hc1 hc2 hc3 x0 x1 x2 x3 xs0).2.1 S1024x128.size (by sl_kernel_rfl) y

set_option maxHeartbeats 1000000 in
/-- The body in case D (first column tile: false; diagonal tile: false; last column tile: false) on whole memrefs: it runs to the
    continuation with the inputs as they were, the scratch at its stores' pieces over what it held, and the output
    handed back untouched. The pieces are what the run finds. -/
noncomputable def kernelRun1_D (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : ¬cond1_2 i) (hc3 : ¬cond1_3 i)
    (x0 : Vec F S1024x1024 .bf16) (x1 : Vec F S1024x1 .f32) (x2 : Vec F S1x1024 .f32) (x3 : Vec F S8192x128 .bf16) (xs0 : Vec F S1024x128 .f32) :
    Σ' (L4 : List (View.Piece (Elt F) S1024x128 .f32)), { LS0 : List (View.Piece (Elt F) S1024x128 .f32) //
      ∀ (xi4 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc1__aggregate_kernel i arg2 harg2 arg3 harg3 arg4 harg4 arg5 harg5 arg6 harg6 arg7 harg7) K } := by
  refine ⟨[], ?_, fun xi4 E K => ?run⟩
  case run =>
    simp only [cc1__aggregate_kernel_eq_skeleton]; unfold cc1__aggregate_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg6, %hf_arg6, H_arg6⟩, ⟨%f_arg7, %hf_arg7, H_arg7⟩, Hk⟩
    obtain rfl := harg2.eq_unread hf_arg2; obtain rfl := harg3.eq_unread hf_arg3; obtain rfl := harg4.eq_unread hf_arg4; obtain rfl := harg5.eq_unread hf_arg5; obtain rfl := harg6.eq_unread hf_arg6; obtain rfl := harg7.eq_unread hf_arg7
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg6]
    · iexists _; isplitr; · ipureintro; exact harg6.read_unread _
      iexact H_arg6
    iexists _; iexact H_arg7

/-- Case D's pieces for the scratch accumulator tile it, so they cover it. -/
theorem scover1_D (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : ¬cond1_2 i) (hc3 : ¬cond1_3 i)
    (x0 : Vec F S1024x1024 .bf16) (x1 : Vec F S1024x1 .f32) (x2 : Vec F S1x1024 .f32) (x3 : Vec F S8192x128 .bf16) (xs0 : Vec F S1024x128 .f32) (y : S1024x128.Idx) :
    ∃ pc ∈ (kernelRun1_D c i arg2 harg2 arg3 harg3 arg4 harg4 arg5 harg5 arg6 harg6 arg7 harg7 hc1 hc2 hc3 x0 x1 x2 x3 xs0).2.1, y ∈ pc.1.set :=
  View.cover_of_tiledL (kernelRun1_D c i arg2 harg2 arg3 harg3 arg4 harg4 arg5 harg5 arg6 harg6 arg7 harg7 hc1 hc2 hc3 x0 x1 x2 x3 xs0).2.1 S1024x128.size (by sl_kernel_rfl) y

set_option maxHeartbeats 1000000 in
/-- The body in case E (first column tile: false; diagonal tile: true; last column tile: true) on whole memrefs: it runs to the
    continuation with the inputs as they were, the scratch at its stores' pieces over what it held, and the output
    at its store's piece. The pieces are what the run finds. -/
noncomputable def kernelRun1_E (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : cond1_2 i) (hc3 : cond1_3 i)
    (x0 : Vec F S1024x1024 .bf16) (x1 : Vec F S1024x1 .f32) (x2 : Vec F S1x1024 .f32) (x3 : Vec F S8192x128 .bf16) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__aggregate_kernel i arg2 harg2 arg3 harg3 arg4 harg4 arg5 harg5 arg6 harg6 arg7 harg7) K } := by
  refine ⟨?_, ?_, fun E K => ?run⟩
  case run =>
    simp only [cc1__aggregate_kernel_eq_skeleton]; unfold cc1__aggregate_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%d_arg6, %f_arg6, -, H_arg6⟩, ⟨%f_arg7, %hf_arg7, H_arg7⟩, Hk⟩
    obtain rfl := harg2.eq_unread hf_arg2; obtain rfl := harg3.eq_unread hf_arg3; obtain rfl := harg4.eq_unread hf_arg4; obtain rfl := harg5.eq_unread hf_arg5; obtain rfl := harg7.eq_unread hf_arg7
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg6]
    · iexists _; iexact H_arg6
    iexists _; iexact H_arg7

/-- Case E's pieces for the scratch accumulator tile it, so they cover it. -/
theorem scover1_E (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : cond1_2 i) (hc3 : cond1_3 i)
    (x0 : Vec F S1024x1024 .bf16) (x1 : Vec F S1024x1 .f32) (x2 : Vec F S1x1024 .f32) (x3 : Vec F S8192x128 .bf16) (xs0 : Vec F S1024x128 .f32) (y : S1024x128.Idx) :
    ∃ pc ∈ (kernelRun1_E c i arg2 harg2 arg3 harg3 arg4 harg4 arg5 harg5 arg6 harg6 arg7 harg7 hc1 hc2 hc3 x0 x1 x2 x3 xs0).2.1, y ∈ pc.1.set :=
  View.cover_of_tiledL (kernelRun1_E c i arg2 harg2 arg3 harg3 arg4 harg4 arg5 harg5 arg6 harg6 arg7 harg7 hc1 hc2 hc3 x0 x1 x2 x3 xs0).2.1 S1024x128.size (by sl_kernel_rfl) y
/-- Case E's piece for the output block tiles it, so it covers it. -/
theorem cover1_E (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : cond1_2 i) (hc3 : cond1_3 i)
    (x0 : Vec F S1024x1024 .bf16) (x1 : Vec F S1024x1 .f32) (x2 : Vec F S1x1024 .f32) (x3 : Vec F S8192x128 .bf16) (xs0 : Vec F S1024x128 .f32) (y : S1024x128.Idx) :
    ∃ pc ∈ (kernelRun1_E c i arg2 harg2 arg3 harg3 arg4 harg4 arg5 harg5 arg6 harg6 arg7 harg7 hc1 hc2 hc3 x0 x1 x2 x3 xs0).1, y ∈ pc.1.set :=
  View.cover_of_tiledL (kernelRun1_E c i arg2 harg2 arg3 harg3 arg4 harg4 arg5 harg5 arg6 harg6 arg7 harg7 hc1 hc2 hc3 x0 x1 x2 x3 xs0).1 S1024x128.size (by sl_kernel_rfl) y

set_option maxHeartbeats 1000000 in
/-- The body in case F (first column tile: false; diagonal tile: false; last column tile: true) on whole memrefs: it runs to the
    continuation with the inputs as they were, the scratch at its stores' pieces over what it held, and the output
    at its store's piece. The pieces are what the run finds. -/
noncomputable def kernelRun1_F (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : ¬cond1_2 i) (hc3 : cond1_3 i)
    (x0 : Vec F S1024x1024 .bf16) (x1 : Vec F S1024x1 .f32) (x2 : Vec F S1x1024 .f32) (x3 : Vec F S8192x128 .bf16) (xs0 : Vec F S1024x128 .f32) :
    Σ' (L4 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc1__aggregate_kernel i arg2 harg2 arg3 harg3 arg4 harg4 arg5 harg5 arg6 harg6 arg7 harg7) K } := by
  refine ⟨?_, ?_, fun E K => ?run⟩
  case run =>
    simp only [cc1__aggregate_kernel_eq_skeleton]; unfold cc1__aggregate_kernel_skel
    unfold owns
    iintro ⟨⟨%f_arg2, %hf_arg2, H_arg2⟩, ⟨%f_arg3, %hf_arg3, H_arg3⟩, ⟨%f_arg4, %hf_arg4, H_arg4⟩, ⟨%f_arg5, %hf_arg5, H_arg5⟩, ⟨%d_arg6, %f_arg6, -, H_arg6⟩, ⟨%f_arg7, %hf_arg7, H_arg7⟩, Hk⟩
    obtain rfl := harg2.eq_unread hf_arg2; obtain rfl := harg3.eq_unread hf_arg3; obtain rfl := harg4.eq_unread hf_arg4; obtain rfl := harg5.eq_unread hf_arg5; obtain rfl := harg7.eq_unread hf_arg7
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    isplitl [H_arg4]
    · iexists _; isplitr; · ipureintro; exact harg4.read_unread _
      iexact H_arg4
    isplitl [H_arg5]
    · iexists _; isplitr; · ipureintro; exact harg5.read_unread _
      iexact H_arg5
    isplitl [H_arg6]
    · iexists _; iexact H_arg6
    iexists _; iexact H_arg7

/-- Case F's pieces for the scratch accumulator tile it, so they cover it. -/
theorem scover1_F (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : ¬cond1_2 i) (hc3 : cond1_3 i)
    (x0 : Vec F S1024x1024 .bf16) (x1 : Vec F S1024x1 .f32) (x2 : Vec F S1x1024 .f32) (x3 : Vec F S8192x128 .bf16) (xs0 : Vec F S1024x128 .f32) (y : S1024x128.Idx) :
    ∃ pc ∈ (kernelRun1_F c i arg2 harg2 arg3 harg3 arg4 harg4 arg5 harg5 arg6 harg6 arg7 harg7 hc1 hc2 hc3 x0 x1 x2 x3 xs0).2.1, y ∈ pc.1.set :=
  View.cover_of_tiledL (kernelRun1_F c i arg2 harg2 arg3 harg3 arg4 harg4 arg5 harg5 arg6 harg6 arg7 harg7 hc1 hc2 hc3 x0 x1 x2 x3 xs0).2.1 S1024x128.size (by sl_kernel_rfl) y
/-- Case F's piece for the output block tiles it, so it covers it. -/
theorem cover1_F (c : Dev nD) (i : grid1.Coords) (arg2 : Memref sig .tc .vmem S1024x1024 .bf16) (harg2 : arg2.IsWhole) (arg3 : Memref sig .tc .vmem S1024x1 .f32) (harg3 : arg3.IsWhole) (arg4 : Memref sig .tc .vmem S1x1024 .f32) (harg4 : arg4.IsWhole) (arg5 : Memref sig .tc .vmem S8192x128 .bf16) (harg5 : arg5.IsWhole) (arg6 : Memref sig .tc .vmem S1024x128 .f32) (harg6 : arg6.IsWhole) (arg7 : Memref sig .tc .vmem S1024x128 .f32) (harg7 : arg7.IsWhole) (hc1 : ¬cond1_1 i) (hc2 : ¬cond1_2 i) (hc3 : cond1_3 i)
    (x0 : Vec F S1024x1024 .bf16) (x1 : Vec F S1024x1 .f32) (x2 : Vec F S1x1024 .f32) (x3 : Vec F S8192x128 .bf16) (xs0 : Vec F S1024x128 .f32) (y : S1024x128.Idx) :
    ∃ pc ∈ (kernelRun1_F c i arg2 harg2 arg3 harg3 arg4 harg4 arg5 harg5 arg6 harg6 arg7 harg7 hc1 hc2 hc3 x0 x1 x2 x3 xs0).1, y ∈ pc.1.set :=
  View.cover_of_tiledL (kernelRun1_F c i arg2 harg2 arg3 harg3 arg4 harg4 arg5 harg5 arg6 harg6 arg7 harg7 hc1 hc2 hc3 x0 x1 x2 x3 xs0).1 S1024x128.size (by sl_kernel_rfl) y

end Cert.KernelIdeal.Frame

end
-- ==== Proof.KernelIdealFrame1.lean ====
/-
  The aggregate kernel as one region of the program `KernelIdeal`, at any contents `V` of the core's buffers when the
  region is entered: a window's block at a point; what the output's staging buffer and the carried scratch
  accumulator hold after the body at each point, by recursion on the point (the case the point is in, over what the
  point before left in the scratch); the region invariant (before the first point every scratch at anything, afterwards
  the accumulator at what the point before left); the proof data; the body obligation.
-/
import proofs.«109869_j22351009808763_2_alg».proof.Proof.KernelIdealRuns1

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Each case at a point, its conditions in closed form -/

abbrev run1_A (c : Dev nD) (t : Fin cfg1.N) (h1 : t.val % 8 = 0) (h2 : t.val % 9 = 0) (h3 : ¬t.val % 8 = 7) :=
  kernelRun1_A (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_1 t).mpr h1) ((hcond1_2 t).mpr h2) (fun h => h3 ((hcond1_3 t).mp h)) (iblk1 V c 0 t) (iblk1 V c 1 t) (iblk1 V c 2 t) (iblk1 V c 3 t)
/-- What case A leaves in the output's staging buffer (its store read back over junk; nothing when it stores nothing). -/
def out1_A (c : Dev nD) (t : Fin cfg1.N) (h1 : t.val % 8 = 0) (h2 : t.val % 9 = 0) (h3 : ¬t.val % 8 = 7) : Vec F S1024x128 .f32 :=
  VO1_4.read (Elt F) (VO1_4.writes (Elt F) VO1_4.junk (run1_A V c t h1 h2 h3).1)
/-- What case A leaves in the scratch accumulator: its stores read back over junk. -/
def sout1_A (c : Dev nD) (t : Fin cfg1.N) (h1 : t.val % 8 = 0) (h2 : t.val % 9 = 0) (h3 : ¬t.val % 8 = 7) : Vec F S1024x128 .f32 :=
  VS1_0.read (Elt F) (VS1_0.writes (Elt F) VS1_0.junk (run1_A V c t h1 h2 h3).2.1)

abbrev run1_B (c : Dev nD) (t : Fin cfg1.N) (h1 : t.val % 8 = 0) (h2 : ¬t.val % 9 = 0) (h3 : ¬t.val % 8 = 7) :=
  kernelRun1_B (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_1 t).mpr h1) (fun h => h2 ((hcond1_2 t).mp h)) (fun h => h3 ((hcond1_3 t).mp h)) (iblk1 V c 0 t) (iblk1 V c 1 t) (iblk1 V c 2 t) (iblk1 V c 3 t)
/-- What case B leaves in the output's staging buffer (its store read back over junk; nothing when it stores nothing). -/
def out1_B (c : Dev nD) (t : Fin cfg1.N) (h1 : t.val % 8 = 0) (h2 : ¬t.val % 9 = 0) (h3 : ¬t.val % 8 = 7) : Vec F S1024x128 .f32 :=
  VO1_4.read (Elt F) (VO1_4.writes (Elt F) VO1_4.junk (run1_B V c t h1 h2 h3).1)
/-- What case B leaves in the scratch accumulator: its stores read back over junk. -/
def sout1_B (c : Dev nD) (t : Fin cfg1.N) (h1 : t.val % 8 = 0) (h2 : ¬t.val % 9 = 0) (h3 : ¬t.val % 8 = 7) : Vec F S1024x128 .f32 :=
  VS1_0.read (Elt F) (VS1_0.writes (Elt F) VS1_0.junk (run1_B V c t h1 h2 h3).2.1)

abbrev run1_C (c : Dev nD) (t : Fin cfg1.N) (h1 : ¬t.val % 8 = 0) (h2 : t.val % 9 = 0) (h3 : ¬t.val % 8 = 7) (xs : Vec F S1024x128 .f32) :=
  kernelRun1_C (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h1 ((hcond1_1 t).mp h)) ((hcond1_2 t).mpr h2) (fun h => h3 ((hcond1_3 t).mp h)) (iblk1 V c 0 t) (iblk1 V c 1 t) (iblk1 V c 2 t) (iblk1 V c 3 t) xs
/-- What case C leaves in the output's staging buffer (its store read back over junk; nothing when it stores nothing). -/
def out1_C (c : Dev nD) (t : Fin cfg1.N) (h1 : ¬t.val % 8 = 0) (h2 : t.val % 9 = 0) (h3 : ¬t.val % 8 = 7) (xs : Vec F S1024x128 .f32) : Vec F S1024x128 .f32 :=
  VO1_4.read (Elt F) (VO1_4.writes (Elt F) VO1_4.junk (run1_C V c t h1 h2 h3 xs).1)
/-- What case C leaves in the scratch accumulator: its stores read back over junk. -/
def sout1_C (c : Dev nD) (t : Fin cfg1.N) (h1 : ¬t.val % 8 = 0) (h2 : t.val % 9 = 0) (h3 : ¬t.val % 8 = 7) (xs : Vec F S1024x128 .f32) : Vec F S1024x128 .f32 :=
  VS1_0.read (Elt F) (VS1_0.writes (Elt F) VS1_0.junk (run1_C V c t h1 h2 h3 xs).2.1)

abbrev run1_D (c : Dev nD) (t : Fin cfg1.N) (h1 : ¬t.val % 8 = 0) (h2 : ¬t.val % 9 = 0) (h3 : ¬t.val % 8 = 7) (xs : Vec F S1024x128 .f32) :=
  kernelRun1_D (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h1 ((hcond1_1 t).mp h)) (fun h => h2 ((hcond1_2 t).mp h)) (fun h => h3 ((hcond1_3 t).mp h)) (iblk1 V c 0 t) (iblk1 V c 1 t) (iblk1 V c 2 t) (iblk1 V c 3 t) xs
/-- What case D leaves in the output's staging buffer (its store read back over junk; nothing when it stores nothing). -/
def out1_D (c : Dev nD) (t : Fin cfg1.N) (h1 : ¬t.val % 8 = 0) (h2 : ¬t.val % 9 = 0) (h3 : ¬t.val % 8 = 7) (xs : Vec F S1024x128 .f32) : Vec F S1024x128 .f32 :=
  VO1_4.read (Elt F) (VO1_4.writes (Elt F) VO1_4.junk (run1_D V c t h1 h2 h3 xs).1)
/-- What case D leaves in the scratch accumulator: its stores read back over junk. -/
def sout1_D (c : Dev nD) (t : Fin cfg1.N) (h1 : ¬t.val % 8 = 0) (h2 : ¬t.val % 9 = 0) (h3 : ¬t.val % 8 = 7) (xs : Vec F S1024x128 .f32) : Vec F S1024x128 .f32 :=
  VS1_0.read (Elt F) (VS1_0.writes (Elt F) VS1_0.junk (run1_D V c t h1 h2 h3 xs).2.1)

abbrev run1_E (c : Dev nD) (t : Fin cfg1.N) (h1 : ¬t.val % 8 = 0) (h2 : t.val % 9 = 0) (h3 : t.val % 8 = 7) (xs : Vec F S1024x128 .f32) :=
  kernelRun1_E (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h1 ((hcond1_1 t).mp h)) ((hcond1_2 t).mpr h2) ((hcond1_3 t).mpr h3) (iblk1 V c 0 t) (iblk1 V c 1 t) (iblk1 V c 2 t) (iblk1 V c 3 t) xs
/-- What case E leaves in the output's staging buffer (its store read back over junk; nothing when it stores nothing). -/
def out1_E (c : Dev nD) (t : Fin cfg1.N) (h1 : ¬t.val % 8 = 0) (h2 : t.val % 9 = 0) (h3 : t.val % 8 = 7) (xs : Vec F S1024x128 .f32) : Vec F S1024x128 .f32 :=
  VO1_4.read (Elt F) (VO1_4.writes (Elt F) VO1_4.junk (run1_E V c t h1 h2 h3 xs).1)
/-- What case E leaves in the scratch accumulator: its stores read back over junk. -/
def sout1_E (c : Dev nD) (t : Fin cfg1.N) (h1 : ¬t.val % 8 = 0) (h2 : t.val % 9 = 0) (h3 : t.val % 8 = 7) (xs : Vec F S1024x128 .f32) : Vec F S1024x128 .f32 :=
  VS1_0.read (Elt F) (VS1_0.writes (Elt F) VS1_0.junk (run1_E V c t h1 h2 h3 xs).2.1)

abbrev run1_F (c : Dev nD) (t : Fin cfg1.N) (h1 : ¬t.val % 8 = 0) (h2 : ¬t.val % 9 = 0) (h3 : t.val % 8 = 7) (xs : Vec F S1024x128 .f32) :=
  kernelRun1_F (F := F) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h1 ((hcond1_1 t).mp h)) (fun h => h2 ((hcond1_2 t).mp h)) ((hcond1_3 t).mpr h3) (iblk1 V c 0 t) (iblk1 V c 1 t) (iblk1 V c 2 t) (iblk1 V c 3 t) xs
/-- What case F leaves in the output's staging buffer (its store read back over junk; nothing when it stores nothing). -/
def out1_F (c : Dev nD) (t : Fin cfg1.N) (h1 : ¬t.val % 8 = 0) (h2 : ¬t.val % 9 = 0) (h3 : t.val % 8 = 7) (xs : Vec F S1024x128 .f32) : Vec F S1024x128 .f32 :=
  VO1_4.read (Elt F) (VO1_4.writes (Elt F) VO1_4.junk (run1_F V c t h1 h2 h3 xs).1)
/-- What case F leaves in the scratch accumulator: its stores read back over junk. -/
def sout1_F (c : Dev nD) (t : Fin cfg1.N) (h1 : ¬t.val % 8 = 0) (h2 : ¬t.val % 9 = 0) (h3 : t.val % 8 = 7) (xs : Vec F S1024x128 .f32) : Vec F S1024x128 .f32 :=
  VS1_0.read (Elt F) (VS1_0.writes (Elt F) VS1_0.junk (run1_F V c t h1 h2 h3 xs).2.1)

/-! ## Point by point -/

/-- One point: the case its number selects, over what the scratch held before it (`xs`, not read when the point resets it). -/
def step1 (c : Dev nD) (t : Fin cfg1.N) (xs : Vec F S1024x128 .f32) : Vec F S1024x128 .f32 × Vec F S1024x128 .f32 :=
  if h1 : t.val % 8 = 0 then
    if h2 : t.val % 9 = 0 then
      if h3 : t.val % 8 = 7 then False.elim (by omega) else (out1_A V c t h1 h2 h3, sout1_A V c t h1 h2 h3)
    else
      if h3 : t.val % 8 = 7 then False.elim (by omega) else (out1_B V c t h1 h2 h3, sout1_B V c t h1 h2 h3)
  else
    if h2 : t.val % 9 = 0 then
      if h3 : t.val % 8 = 7 then (out1_E V c t h1 h2 h3 xs, sout1_E V c t h1 h2 h3 xs) else (out1_C V c t h1 h2 h3 xs, sout1_C V c t h1 h2 h3 xs)
    else
      if h3 : t.val % 8 = 7 then (out1_F V c t h1 h2 h3 xs, sout1_F V c t h1 h2 h3 xs) else (out1_D V c t h1 h2 h3 xs, sout1_D V c t h1 h2 h3 xs)

theorem step1_A (c : Dev nD) (t : Fin cfg1.N) (xs : Vec F S1024x128 .f32) (h1 : t.val % 8 = 0) (h2 : t.val % 9 = 0) (h3 : ¬t.val % 8 = 7) :
    step1 V c t xs = (out1_A V c t h1 h2 h3, sout1_A V c t h1 h2 h3) := by
  unfold step1; rw [dif_pos h1, dif_pos h2, dif_neg h3]
theorem step1_B (c : Dev nD) (t : Fin cfg1.N) (xs : Vec F S1024x128 .f32) (h1 : t.val % 8 = 0) (h2 : ¬t.val % 9 = 0) (h3 : ¬t.val % 8 = 7) :
    step1 V c t xs = (out1_B V c t h1 h2 h3, sout1_B V c t h1 h2 h3) := by
  unfold step1; rw [dif_pos h1, dif_neg h2, dif_neg h3]
theorem step1_C (c : Dev nD) (t : Fin cfg1.N) (xs : Vec F S1024x128 .f32) (h1 : ¬t.val % 8 = 0) (h2 : t.val % 9 = 0) (h3 : ¬t.val % 8 = 7) :
    step1 V c t xs = (out1_C V c t h1 h2 h3 xs, sout1_C V c t h1 h2 h3 xs) := by
  unfold step1; rw [dif_neg h1, dif_pos h2, dif_neg h3]
theorem step1_D (c : Dev nD) (t : Fin cfg1.N) (xs : Vec F S1024x128 .f32) (h1 : ¬t.val % 8 = 0) (h2 : ¬t.val % 9 = 0) (h3 : ¬t.val % 8 = 7) :
    step1 V c t xs = (out1_D V c t h1 h2 h3 xs, sout1_D V c t h1 h2 h3 xs) := by
  unfold step1; rw [dif_neg h1, dif_neg h2, dif_neg h3]
theorem step1_E (c : Dev nD) (t : Fin cfg1.N) (xs : Vec F S1024x128 .f32) (h1 : ¬t.val % 8 = 0) (h2 : t.val % 9 = 0) (h3 : t.val % 8 = 7) :
    step1 V c t xs = (out1_E V c t h1 h2 h3 xs, sout1_E V c t h1 h2 h3 xs) := by
  unfold step1; rw [dif_neg h1, dif_pos h2, dif_pos h3]
theorem step1_F (c : Dev nD) (t : Fin cfg1.N) (xs : Vec F S1024x128 .f32) (h1 : ¬t.val % 8 = 0) (h2 : ¬t.val % 9 = 0) (h3 : t.val % 8 = 7) :
    step1 V c t xs = (out1_F V c t h1 h2 h3 xs, sout1_F V c t h1 h2 h3 xs) := by
  unfold step1; rw [dif_neg h1, dif_neg h2, dif_pos h3]

/-- THE ACCUMULATION: what the output's staging buffer and the scratch hold after the body at position `n`. -/
def outsAt1 (c : Dev nD) : (n : ℕ) → n < cfg1.N → Vec F S1024x128 .f32 × Vec F S1024x128 .f32
  | 0, hn => step1 V c ⟨0, hn⟩ (VS1_0.read (Elt F) VS1_0.junk)
  | n + 1, hn => step1 V c ⟨n + 1, hn⟩ (outsAt1 c n (Nat.lt_of_succ_lt hn)).2

/-- What the scratch held before point `t`. -/
def prev1 (c : Dev nD) (t : Fin cfg1.N) : Vec F S1024x128 .f32 :=
  match t with
  | ⟨0, _⟩ => VS1_0.read (Elt F) VS1_0.junk
  | ⟨n + 1, hn⟩ => (outsAt1 V c n (Nat.lt_of_succ_lt hn)).2

theorem outsAt1_step (c : Dev nD) (t : Fin cfg1.N) : outsAt1 V c t.val t.isLt = step1 V c t (prev1 V c t) := by
  obtain ⟨n, hn⟩ := t
  cases n <;> rfl

theorem prev1_pos (c : Dev nD) (t : Fin cfg1.N) (hz : t.val ≠ 0) :
    prev1 V c t = (outsAt1 V c (t.val - 1) (Nat.lt_of_le_of_lt (Nat.sub_le _ _) t.isLt)).2 := by
  obtain ⟨n, hn⟩ := t
  cases n with
  | zero => exact absurd rfl hz
  | succ n => rfl

/-! ## The region invariant -/

/-- The core's scoped buffers other than the pipeline's staging buffers and the accumulator, each at anything. -/
abbrev Rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ Rest1 c) ∗ (∃ r, prngReg c r)) := by
  unfold Pipeline.ΦA
  rw [Pipeline.scopedRest_split_of_list spec1 c [cc1_scratch0] (by decide) (by decide)]
  simp only [bigSepL_singleton, scM1_0, owns_whole]; try rfl

/-- Before position `n`: at the first point the class's invariant (every scratch at anything); afterwards the accumulator
    at what the point before left in it, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Rest1 c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 c) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' staging buffers hold their blocks; the point's number says which case it is in; the
    invariant hands the body the accumulator at what the point before left (at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h1 : t.val % 8 = 0
  · by_cases h2 : t.val % 9 = 0
    · have h3 : ¬t.val % 8 = 7 := by omega
      rw [Dat.leavesExact_idle (dat1 V c) 4 t (idleAt1_4 t (fun h => h3 ((hcond1_3 t).mp h))) (noFlush1_4 t (fun h => h3 ((hcond1_3 t).mp h)))]
      rw [outsAt1_step V c t, step1_A V c t _ h1 h2 h3]
      unfold sout1_A; (try dsimp only)
      by_cases hz : t.val = 0
      · -- the first point: every scratch at anything
        rw [PhiS1_castSucc V c t, PhiS1_zero V c _ _ hz, PhiA1_eq]
        iintro ⟨⟨⟨HS, HR⟩, Hg⟩, Ho, ⟨%d0, H0⟩, ⟨%d1, H1⟩, ⟨%d2, H2⟩, ⟨%d3, H3⟩, ⟨%d4, H4⟩⟩
        iapply ((run1_A V c t h1 h2 h3).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [HS HR Hg]
        · isplitl [HS HR]
          · isplitl [HS]
            · unfold owns; iexists _; isplitr
              swap; · iexact HS
              ipureintro; exact View.read_writes_of_cover _ _ _ _ _ (scover1_A c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · -- a later point: the accumulator at what the point before left
        rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩⟩
        iapply ((run1_A V c t h1 h2 h3).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS HR Hg]
        · isplitl [HS HR]
          · isplitl [HS]
            · unfold owns; iexists _; isplitr
              swap; · iexact HS
              ipureintro; exact View.read_writes_of_cover _ _ _ _ _ (scover1_A c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
    · have h3 : ¬t.val % 8 = 7 := by omega
      rw [Dat.leavesExact_idle (dat1 V c) 4 t (idleAt1_4 t (fun h => h3 ((hcond1_3 t).mp h))) (noFlush1_4 t (fun h => h3 ((hcond1_3 t).mp h)))]
      rw [outsAt1_step V c t, step1_B V c t _ h1 h2 h3]
      unfold sout1_B; (try dsimp only)
      by_cases hz : t.val = 0
      · exfalso; omega
      · -- a later point: the accumulator at what the point before left
        rw [PhiS1_castSucc V c t, PhiS1_pos V c _ _ hz]
        iintro ⟨⟨⟨HS, HR⟩, Hg⟩, Ho, ⟨%d0, H0⟩, ⟨%d1, H1⟩, ⟨%d2, H2⟩, ⟨%d3, H3⟩, ⟨%d4, H4⟩⟩
        iapply ((run1_B V c t h1 h2 h3).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [HS HR Hg]
        · isplitl [HS HR]
          · isplitl [HS]
            · unfold owns; iexists _; isplitr
              swap; · iexact HS
              ipureintro; exact View.read_writes_of_cover _ _ _ _ _ (scover1_B c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h2 : t.val % 9 = 0
    · by_cases h3 : t.val % 8 = 7
      · rw [show (dat1 V c).leavesExact 4 t = owns (c : Thread nD τ) (ms1_4 t) fullShare ((dat1 V c).after 4 t) from by
          unfold Dat.leavesExact; rw [liveAt1_4 t ((hcond1_3 t).mpr h3)], after1_4]
        rw [outsAt1_step V c t, step1_E V c t _ h1 h2 h3]
        unfold out1_E sout1_E; (try dsimp only)
        by_cases hz : t.val = 0
        · exfalso; omega
        · -- a later point: the accumulator at what the point before left
          rw [PhiS1_castSucc V c t, PhiS1_pos V c _ _ hz, ← prev1_pos V c t hz]
          iintro ⟨⟨⟨HS, HR⟩, Hg⟩, Ho, ⟨%d0, H0⟩, ⟨%d1, H1⟩, ⟨%d2, H2⟩, ⟨%d3, H3⟩, ⟨%d4, H4⟩⟩
          iapply ((run1_E V c t h1 h2 h3 (prev1 V c t)).2.2 Set.univ _)
          isplitl [H0]; · iexact H0
          isplitl [H1]; · iexact H1
          isplitl [H2]; · iexact H2
          isplitl [H3]; · iexact H3
          isplitl [H4]; · iexists _; iexact H4
          isplitl [HS]; · iexact HS
          iintro ⟨H0, H1, H2, H3, ⟨%e4, H4⟩, ⟨%es, HS⟩⟩
          isplitl [HS HR Hg]
          · isplitl [HS HR]
            · isplitl [HS]
              · unfold owns; iexists _; isplitr
                swap; · iexact HS
                ipureintro; exact View.read_writes_of_cover _ _ _ _ _ (scover1_E c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover1_E c _ _ _ _ _ _ _ _ _ _ _ _ _ _ _ _ _ _ _ _ _)
      · rw [Dat.leavesExact_idle (dat1 V c) 4 t (idleAt1_4 t (fun h => h3 ((hcond1_3 t).mp h))) (noFlush1_4 t (fun h => h3 ((hcond1_3 t).mp h)))]
        rw [outsAt1_step V c t, step1_C V c t _ h1 h2 h3]
        unfold sout1_C; (try dsimp only)
        by_cases hz : t.val = 0
        · exfalso; omega
        · -- a later point: the accumulator at what the point before left
          rw [PhiS1_castSucc V c t, PhiS1_pos V c _ _ hz, ← prev1_pos V c t hz]
          iintro ⟨⟨⟨HS, HR⟩, Hg⟩, Ho, ⟨%d0, H0⟩, ⟨%d1, H1⟩, ⟨%d2, H2⟩, ⟨%d3, H3⟩, ⟨%d4, H4⟩⟩
          iapply ((run1_C V c t h1 h2 h3 (prev1 V c t)).2.2 _ Set.univ _)
          isplitl [H0]; · iexact H0
          isplitl [H1]; · iexact H1
          isplitl [H2]; · iexact H2
          isplitl [H3]; · iexact H3
          isplitl [H4]; · iexact H4
          isplitl [HS]; · iexact HS
          iintro ⟨H0, H1, H2, H3, H4, ⟨%es, HS⟩⟩
          isplitl [HS HR Hg]
          · isplitl [HS HR]
            · isplitl [HS]
              · unfold owns; iexists _; isplitr
                swap; · iexact HS
                ipureintro; exact View.read_writes_of_cover _ _ _ _ _ (scover1_C c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          iexists _; iexact H4
    · by_cases h3 : t.val % 8 = 7
      · rw [show (dat1 V c).leavesExact 4 t = owns (c : Thread nD τ) (ms1_4 t) fullShare ((dat1 V c).after 4 t) from by
          unfold Dat.leavesExact; rw [liveAt1_4 t ((hcond1_3 t).mpr h3)], after1_4]
        rw [outsAt1_step V c t, step1_F V c t _ h1 h2 h3]
        unfold out1_F sout1_F; (try dsimp only)
        by_cases hz : t.val = 0
        · exfalso; omega
        · -- a later point: the accumulator at what the point before left
          rw [PhiS1_castSucc V c t, PhiS1_pos V c _ _ hz, ← prev1_pos V c t hz]
          iintro ⟨⟨⟨HS, HR⟩, Hg⟩, Ho, ⟨%d0, H0⟩, ⟨%d1, H1⟩, ⟨%d2, H2⟩, ⟨%d3, H3⟩, ⟨%d4, H4⟩⟩
          iapply ((run1_F V c t h1 h2 h3 (prev1 V c t)).2.2 Set.univ _)
          isplitl [H0]; · iexact H0
          isplitl [H1]; · iexact H1
          isplitl [H2]; · iexact H2
          isplitl [H3]; · iexact H3
          isplitl [H4]; · iexists _; iexact H4
          isplitl [HS]; · iexact HS
          iintro ⟨H0, H1, H2, H3, ⟨%e4, H4⟩, ⟨%es, HS⟩⟩
          isplitl [HS HR Hg]
          · isplitl [HS HR]
            · isplitl [HS]
              · unfold owns; iexists _; isplitr
                swap; · iexact HS
                ipureintro; exact View.read_writes_of_cover _ _ _ _ _ (scover1_F c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          unfold owns; iexists _; isplitr
          swap; · iexact H4
          ipureintro; exact View.read_writes_of_cover _ _ _ _ _ (cover1_F c _ _ _ _ _ _ _ _ _ _ _ _ _ _ _ _ _ _ _ _ _)
      · rw [Dat.leavesExact_idle (dat1 V c) 4 t (idleAt1_4 t (fun h => h3 ((hcond1_3 t).mp h))) (noFlush1_4 t (fun h => h3 ((hcond1_3 t).mp h)))]
        rw [outsAt1_step V c t, step1_D V c t _ h1 h2 h3]
        unfold sout1_D; (try dsimp only)
        by_cases hz : t.val = 0
        · exfalso; omega
        · -- a later point: the accumulator at what the point before left
          rw [PhiS1_castSucc V c t, PhiS1_pos V c _ _ hz, ← prev1_pos V c t hz]
          iintro ⟨⟨⟨HS, HR⟩, Hg⟩, Ho, ⟨%d0, H0⟩, ⟨%d1, H1⟩, ⟨%d2, H2⟩, ⟨%d3, H3⟩, ⟨%d4, H4⟩⟩
          iapply ((run1_D V c t h1 h2 h3 (prev1 V c t)).2.2 _ Set.univ _)
          isplitl [H0]; · iexact H0
          isplitl [H1]; · iexact H1
          isplitl [H2]; · iexact H2
          isplitl [H3]; · iexact H3
          isplitl [H4]; · iexact H4
          isplitl [HS]; · iexact HS
          iintro ⟨H0, H1, H2, H3, H4, ⟨%es, HS⟩⟩
          isplitl [HS HR Hg]
          · isplitl [HS HR]
            · isplitl [HS]
              · unfold owns; iexists _; isplitr
                swap; · iexact HS
                ipureintro; exact View.read_writes_of_cover _ _ _ _ _ (scover1_D c _ _ _ _ _ _ _ _ _ _ _ _ _ _ _ _ _ _ _ _ _)
              iexact HR
            iexact Hg
          isplitl [Ho]; · iexact Ho
          isplitl [H0]; · iexact H0
          isplitl [H1]; · iexact H1
          isplitl [H2]; · iexact H2
          isplitl [H3]; · iexact H3
          iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the class's invariant is before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, HR⟩, Hg⟩
  isplitl [HS HR]
  · isplitl [HS]
    · iexists _; iexact HS
    iexact HR
  iexact Hg

end

end Cert.KernelIdeal.Frame

end
-- ==== Proof.LibWholeStores.lean ====
/-
  A buffer stored whole, several times, and read back whole.

  When every store into a buffer writes the whole buffer (a rectangle at offset zero of the buffer's own extents), what is
  read back whole after any number of such stores is the payload of the last one, whatever the earlier stores were.
-/
import Idealize.ShloMosaic.Lib.Pipeline.Value

namespace Cert.LibWholeStores

open Idealize.ShloMosaic Idealize.ShloMosaic.View

variable {Val : EltTy → Type} {S : Shape} {e : EltTy}

/-- A whole-buffer load after whole-buffer stores (last first) reads the last store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

/-- The offset of a whole-buffer rectangle of a matrix. -/
theorem zero2 : (![0, 0] : Fin 2 → ℕ) = fun _ => 0 := by
  funext a; fin_cases a <;> rfl

end Cert.LibWholeStores
-- ==== Proof.KernelIdealPieces1.lean ====
/-
  What each case of the aggregate kernel's body leaves in the scratch accumulator and in the output's staging buffer, as
  the body's arithmetic applied to the input blocks and to what the accumulator held: every store writes its buffer
  whole, so what is read back is the last store's value, and every load after a store reads that store's value.
-/
import proofs.«109869_j22351009808763_2_alg».proof.Proof.KernelIdealFrame1
import proofs.«109869_j22351009808763_2_alg».proof.Proof.LibWholeStores

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.LibWholeStores

/-- The accumulator read whole at the contents it was handed. -/
theorem scr1_read_unread (h : (scM1_0).IsWhole) (X : Vec F S1024x128 .f32) :
    View.read (Elt F) (View.whole cc1_scratch0) (h.unread X) = X := h.read_unread X

section
variable (V : (c : Dev nD) → (b : Ref sig .tc) → Buf (Elt F) ((c : Thread nD τ).loc b))

theorem sout1_A_eq (c : Dev nD) (t : Fin cfg1.N) (h1 : t.val % 8 = 0) (h2 : t.val % 9 = 0) (h3 : ¬t.val % 8 = 7) :
    sout1_A V c t h1 h2 h3 = k1_pay4 (View.ld (iblk1 V c 3 t) (Rect.unit (s := S8192x128) (k1_off1 (grid1.coords t)) S1024x128.size (k1_off1_inb (grid1.coords t)))) (iblk1 V c 1 t) (iblk1 V c 1 t) (k1_pay3 (View.ld (iblk1 V c 3 t) (Rect.unit (s := S8192x128) (k1_off1 (grid1.coords t)) S1024x128.size (k1_off1_inb (grid1.coords t)))) (iblk1 V c 0 t) (iblk1 V c 1 t) (iblk1 V c 2 t) (k1_pay1 (F := F))) := by
  unfold sout1_A
  rw [View.read_writes_eq_canon _ _ _ (scover1_A c _ _ _ _ _ _ _ _ _ _ _ _ _ _ _ _ _ _ _ _)]
  unfold kernelRun1_A
  dsimp only
  sl_unfold_words
  rw [View.canon_cons_unit_zero (S := S1024x128) zero2]
  simp only [readCov_cons_unit_zero (S := S1024x128) _ zero2, View.readAt_eq_ld, Memref.IsWhole.read_unread, scr1_read_unread, View.ld_unit_zero (S := S1024x128) zero2, View.ld_unit_zero (S := S1024x1024) zero2, View.ld_unit_zero (S := S1024x1) zero2, View.ld_unit_zero (S := S1x1024) zero2]
  try rfl

theorem sout1_B_eq (c : Dev nD) (t : Fin cfg1.N) (h1 : t.val % 8 = 0) (h2 : ¬t.val % 9 = 0) (h3 : ¬t.val % 8 = 7) :
    sout1_B V c t h1 h2 h3 = k1_pay3 (View.ld (iblk1 V c 3 t) (Rect.unit (s := S8192x128) (k1_off1 (grid1.coords t)) S1024x128.size (k1_off1_inb (grid1.coords t)))) (iblk1 V c 0 t) (iblk1 V c 1 t) (iblk1 V c 2 t) (k1_pay1 (F := F)) := by
  unfold sout1_B
  rw [View.read_writes_eq_canon _ _ _ (scover1_B c _ _ _ _ _ _ _ _ _ _ _ _ _ _ _ _ _ _ _ _)]
  unfold kernelRun1_B
  dsimp only
  sl_unfold_words
  rw [View.canon_cons_unit_zero (S := S1024x128) zero2]
  simp only [readCov_cons_unit_zero (S := S1024x128) _ zero2, View.readAt_eq_ld, Memref.IsWhole.read_unread, scr1_read_unread, View.ld_unit_zero (S := S1024x128) zero2, View.ld_unit_zero (S := S1024x1024) zero2, View.ld_unit_zero (S := S1024x1) zero2, View.ld_unit_zero (S := S1x1024) zero2]
  try rfl

theorem sout1_C_eq (c : Dev nD) (t : Fin cfg1.N) (h1 : ¬t.val % 8 = 0) (h2 : t.val % 9 = 0) (h3 : ¬t.val % 8 = 7) (xs : Vec F S1024x128 .f32) :
    sout1_C V c t h1 h2 h3 xs = k1_pay4 (View.ld (iblk1 V c 3 t) (Rect.unit (s := S8192x128) (k1_off1 (grid1.coords t)) S1024x128.size (k1_off1_inb (grid1.coords t)))) (iblk1 V c 1 t) (iblk1 V c 1 t) (k1_pay3 (View.ld (iblk1 V c 3 t) (Rect.unit (s := S8192x128) (k1_off1 (grid1.coords t)) S1024x128.size (k1_off1_inb (grid1.coords t)))) (iblk1 V c 0 t) (iblk1 V c 1 t) (iblk1 V c 2 t) xs) := by
  unfold sout1_C
  rw [View.read_writes_eq_canon _ _ _ (scover1_C c _ _ _ _ _ _ _ _ _ _ _ _ _ _ _ _ _ _ _ _ _)]
  unfold kernelRun1_C
  dsimp only
  sl_unfold_words
  rw [View.canon_cons_unit_zero (S := S1024x128) zero2]
  simp only [readCov_cons_unit_zero (S := S1024x128) _ zero2, View.readAt_eq_ld, Memref.IsWhole.read_unread, scr1_read_unread, View.ld_unit_zero (S := S1024x128) zero2, View.ld_unit_zero (S := S1024x1024) zero2, View.ld_unit_zero (S := S1024x1) zero2, View.ld_unit_zero (S := S1x1024) zero2]
  try rfl

theorem sout1_D_eq (c : Dev nD) (t : Fin cfg1.N) (h1 : ¬t.val % 8 = 0) (h2 : ¬t.val % 9 = 0) (h3 : ¬t.val % 8 = 7) (xs : Vec F S1024x128 .f32) :
    sout1_D V c t h1 h2 h3 xs = k1_pay3 (View.ld (iblk1 V c 3 t) (Rect.unit (s := S8192x128) (k1_off1 (grid1.coords t)) S1024x128.size (k1_off1_inb (grid1.coords t)))) (iblk1 V c 0 t) (iblk1 V c 1 t) (iblk1 V c 2 t) xs := by
  unfold sout1_D
  rw [View.read_writes_eq_canon _ _ _ (scover1_D c _ _ _ _ _ _ _ _ _ _ _ _ _ _ _ _ _ _ _ _ _)]
  unfold kernelRun1_D
  dsimp only
  sl_unfold_words
  rw [View.canon_cons_unit_zero (S := S1024x128) zero2]
  simp only [readCov_cons_unit_zero (S := S1024x128) _ zero2, View.readAt_eq_ld, Memref.IsWhole.read_unread, scr1_read_unread, View.ld_unit_zero (S := S1024x128) zero2, View.ld_unit_zero (S := S1024x1024) zero2, View.ld_unit_zero (S := S1024x1) zero2, View.ld_unit_zero (S := S1x1024) zero2]
  try rfl

theorem sout1_E_eq (c : Dev nD) (t : Fin cfg1.N) (h1 : ¬t.val % 8 = 0) (h2 : t.val % 9 = 0) (h3 : t.val % 8 = 7) (xs : Vec F S1024x128 .f32) :
    sout1_E V c t h1 h2 h3 xs = k1_pay4 (View.ld (iblk1 V c 3 t) (Rect.unit (s := S8192x128) (k1_off1 (grid1.coords t)) S1024x128.size (k1_off1_inb (grid1.coords t)))) (iblk1 V c 1 t) (iblk1 V c 1 t) (k1_pay3 (View.ld (iblk1 V c 3 t) (Rect.unit (s := S8192x128) (k1_off1 (grid1.coords t)) S1024x128.size (k1_off1_inb (grid1.coords t)))) (iblk1 V c 0 t) (iblk1 V c 1 t) (iblk1 V c 2 t) xs) := by
  unfold sout1_E
  rw [View.read_writes_eq_canon _ _ _ (scover1_E c _ _ _ _ _ _ _ _ _ _ _ _ _ _ _ _ _ _ _ _ _)]
  unfold kernelRun1_E
  dsimp only
  sl_unfold_words
  rw [View.canon_cons_unit_zero (S := S1024x128) zero2]
  simp only [readCov_cons_unit_zero (S := S1024x128) _ zero2, View.readAt_eq_ld, Memref.IsWhole.read_unread, scr1_read_unread, View.ld_unit_zero (S := S1024x128) zero2, View.ld_unit_zero (S := S1024x1024) zero2, View.ld_unit_zero (S := S1024x1) zero2, View.ld_unit_zero (S := S1x1024) zero2]
  try rfl

theorem out1_E_eq (c : Dev nD) (t : Fin cfg1.N) (h1 : ¬t.val % 8 = 0) (h2 : t.val % 9 = 0) (h3 : t.val % 8 = 7) (xs : Vec F S1024x128 .f32) :
    out1_E V c t h1 h2 h3 xs = k1_pay4 (View.ld (iblk1 V c 3 t) (Rect.unit (s := S8192x128) (k1_off1 (grid1.coords t)) S1024x128.size (k1_off1_inb (grid1.coords t)))) (iblk1 V c 1 t) (iblk1 V c 1 t) (k1_pay3 (View.ld (iblk1 V c 3 t) (Rect.unit (s := S8192x128) (k1_off1 (grid1.coords t)) S1024x128.size (k1_off1_inb (grid1.coords t)))) (iblk1 V c 0 t) (iblk1 V c 1 t) (iblk1 V c 2 t) xs) := by
  unfold out1_E
  rw [View.read_writes_eq_canon _ _ _ (cover1_E c _ _ _ _ _ _ _ _ _ _ _ _ _ _ _ _ _ _ _ _ _)]
  unfold kernelRun1_E
  dsimp only
  sl_unfold_words
  rw [View.canon_cons_unit_zero (S := S1024x128) zero2]
  simp only [readCov_cons_unit_zero (S := S1024x128) _ zero2, View.readAt_eq_ld, Memref.IsWhole.read_unread, scr1_read_unread, View.ld_unit_zero (S := S1024x128) zero2, View.ld_unit_zero (S := S1024x1024) zero2, View.ld_unit_zero (S := S1024x1) zero2, View.ld_unit_zero (S := S1x1024) zero2]
  try rfl

theorem sout1_F_eq (c : Dev nD) (t : Fin cfg1.N) (h1 : ¬t.val % 8 = 0) (h2 : ¬t.val % 9 = 0) (h3 : t.val % 8 = 7) (xs : Vec F S1024x128 .f32) :
    sout1_F V c t h1 h2 h3 xs = k1_pay3 (View.ld (iblk1 V c 3 t) (Rect.unit (s := S8192x128) (k1_off1 (grid1.coords t)) S1024x128.size (k1_off1_inb (grid1.coords t)))) (iblk1 V c 0 t) (iblk1 V c 1 t) (iblk1 V c 2 t) xs := by
  unfold sout1_F
  rw [View.read_writes_eq_canon _ _ _ (scover1_F c _ _ _ _ _ _ _ _ _ _ _ _ _ _ _ _ _ _ _ _ _)]
  unfold kernelRun1_F
  dsimp only
  sl_unfold_words
  rw [View.canon_cons_unit_zero (S := S1024x128) zero2]
  simp only [readCov_cons_unit_zero (S := S1024x128) _ zero2, View.readAt_eq_ld, Memref.IsWhole.read_unread, scr1_read_unread, View.ld_unit_zero (S := S1024x128) zero2, View.ld_unit_zero (S := S1024x1024) zero2, View.ld_unit_zero (S := S1024x1) zero2, View.ld_unit_zero (S := S1x1024) zero2]
  try rfl

theorem out1_F_eq (c : Dev nD) (t : Fin cfg1.N) (h1 : ¬t.val % 8 = 0) (h2 : ¬t.val % 9 = 0) (h3 : t.val % 8 = 7) (xs : Vec F S1024x128 .f32) :
    out1_F V c t h1 h2 h3 xs = k1_pay3 (View.ld (iblk1 V c 3 t) (Rect.unit (s := S8192x128) (k1_off1 (grid1.coords t)) S1024x128.size (k1_off1_inb (grid1.coords t)))) (iblk1 V c 0 t) (iblk1 V c 1 t) (iblk1 V c 2 t) xs := by
  unfold out1_F
  rw [View.read_writes_eq_canon _ _ _ (cover1_F c _ _ _ _ _ _ _ _ _ _ _ _ _ _ _ _ _ _ _ _ _)]
  unfold kernelRun1_F
  dsimp only
  sl_unfold_words
  rw [View.canon_cons_unit_zero (S := S1024x128) zero2]
  simp only [readCov_cons_unit_zero (S := S1024x128) _ zero2, View.readAt_eq_ld, Memref.IsWhole.read_unread, scr1_read_unread, View.ld_unit_zero (S := S1024x128) zero2, View.ld_unit_zero (S := S1024x1024) zero2, View.ld_unit_zero (S := S1024x1) zero2, View.ld_unit_zero (S := S1x1024) zero2]
  try rfl

end

end Cert.KernelIdeal.Frame

end
-- ==== Proof.KernelIdealRuns0.lean ====
/-
  The degree kernel's body run in each of the six cases of its three conditions that the grid meets, for the
  program `KernelIdeal`: first column tile or not, diagonal tile or not, last column tile or not (the first and the last
  column tile are never the same point). After each run: its stores cover the buffers they are read back from.
-/
import proofs.«109869_j22351009808763_2_alg».proof.Proof.KernelIdealShared

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body in case A (first column tile: true; diagonal tile: true; last column tile: false) on whole memrefs: it runs to the
    continuation with the inputs as they were, the scratch at its stores' pieces over what it held, and the output
    handed back untouched. The pieces are what the run finds. -/
noncomputable def kernelRun0_A (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : cond0_1 i) (hc2 : cond0_2 i) (hc3 : ¬cond0_3 i)
    (x0 : Vec F S1024x1024 .bf16) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f_arg2, %hf_arg2, H_arg2⟩, ⟨%f_arg3, %hf_arg3, H_arg3⟩, ⟨%d_arg4, %f_arg4, -, H_arg4⟩, Hk⟩
    obtain rfl := harg2.eq_unread hf_arg2; obtain rfl := harg3.eq_unread hf_arg3
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    iexists _; iexact H_arg4

/-- Case A's pieces for the scratch accumulator tile it, so they cover it. -/
theorem scover0_A (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : cond0_1 i) (hc2 : cond0_2 i) (hc3 : ¬cond0_3 i)
    (x0 : Vec F S1024x1024 .bf16) (y : S1024x1.Idx) :
    ∃ pc ∈ (kernelRun0_A c i arg2 harg2 arg3 harg3 arg4 harg4 hc1 hc2 hc3 x0).2.1, y ∈ pc.1.set :=
  View.cover_of_tiledL (kernelRun0_A c i arg2 harg2 arg3 harg3 arg4 harg4 hc1 hc2 hc3 x0).2.1 S1024x1.size (by sl_kernel_rfl) y

set_option maxHeartbeats 1000000 in
/-- The body in case B (first column tile: true; diagonal tile: false; last column tile: false) on whole memrefs: it runs to the
    continuation with the inputs as they were, the scratch at its stores' pieces over what it held, and the output
    handed back untouched. The pieces are what the run finds. -/
noncomputable def kernelRun0_B (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : cond0_1 i) (hc2 : ¬cond0_2 i) (hc3 : ¬cond0_3 i)
    (x0 : Vec F S1024x1024 .bf16) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d)
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f_arg2, %hf_arg2, H_arg2⟩, ⟨%f_arg3, %hf_arg3, H_arg3⟩, ⟨%d_arg4, %f_arg4, -, H_arg4⟩, Hk⟩
    obtain rfl := harg2.eq_unread hf_arg2; obtain rfl := harg3.eq_unread hf_arg3
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    iexists _; iexact H_arg4

/-- Case B's pieces for the scratch accumulator tile it, so they cover it. -/
theorem scover0_B (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : cond0_1 i) (hc2 : ¬cond0_2 i) (hc3 : ¬cond0_3 i)
    (x0 : Vec F S1024x1024 .bf16) (y : S1024x1.Idx) :
    ∃ pc ∈ (kernelRun0_B c i arg2 harg2 arg3 harg3 arg4 harg4 hc1 hc2 hc3 x0).2.1, y ∈ pc.1.set :=
  View.cover_of_tiledL (kernelRun0_B c i arg2 harg2 arg3 harg3 arg4 harg4 hc1 hc2 hc3 x0).2.1 S1024x1.size (by sl_kernel_rfl) y

set_option maxHeartbeats 1000000 in
/-- The body in case C (first column tile: false; diagonal tile: true; last column tile: false) on whole memrefs: it runs to the
    continuation with the inputs as they were, the scratch at its stores' pieces over what it held, and the output
    handed back untouched. The pieces are what the run finds. -/
noncomputable def kernelRun0_C (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : cond0_2 i) (hc3 : ¬cond0_3 i)
    (x0 : Vec F S1024x1024 .bf16) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f_arg2, %hf_arg2, H_arg2⟩, ⟨%f_arg3, %hf_arg3, H_arg3⟩, ⟨%f_arg4, %hf_arg4, H_arg4⟩, Hk⟩
    obtain rfl := harg2.eq_unread hf_arg2; obtain rfl := harg3.eq_unread hf_arg3; obtain rfl := harg4.eq_unread hf_arg4
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    iexists _; iexact H_arg4

/-- Case C's pieces for the scratch accumulator tile it, so they cover it. -/
theorem scover0_C (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : cond0_2 i) (hc3 : ¬cond0_3 i)
    (x0 : Vec F S1024x1024 .bf16) (xs0 : Vec F S1024x1 .f32) (y : S1024x1.Idx) :
    ∃ pc ∈ (kernelRun0_C c i arg2 harg2 arg3 harg3 arg4 harg4 hc1 hc2 hc3 x0 xs0).2.1, y ∈ pc.1.set :=
  View.cover_of_tiledL (kernelRun0_C c i arg2 harg2 arg3 harg3 arg4 harg4 hc1 hc2 hc3 x0 xs0).2.1 S1024x1.size (by sl_kernel_rfl) y

set_option maxHeartbeats 1000000 in
/-- The body in case D (first column tile: false; diagonal tile: false; last column tile: false) on whole memrefs: it runs to the
    continuation with the inputs as they were, the scratch at its stores' pieces over what it held, and the output
    handed back untouched. The pieces are what the run finds. -/
noncomputable def kernelRun0_D (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : ¬cond0_2 i) (hc3 : ¬cond0_3 i)
    (x0 : Vec F S1024x1024 .bf16) (xs0 : Vec F S1024x1 .f32) :
    Σ' (L1 : List (View.Piece (Elt F) S1024x1 .f32)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ owns (c : Thread nD τ) arg4 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨[], ?_, fun xi1 E K => ?run⟩
  case run =>
    simp only [cc0__degree_kernel_eq_skeleton]; unfold cc0__degree_kernel_skel
    unfold owns
    iintro ⟨⟨%f_arg2, %hf_arg2, H_arg2⟩, ⟨%f_arg3, %hf_arg3, H_arg3⟩, ⟨%f_arg4, %hf_arg4, H_arg4⟩, Hk⟩
    obtain rfl := harg2.eq_unread hf_arg2; obtain rfl := harg3.eq_unread hf_arg3; obtain rfl := harg4.eq_unread hf_arg4
    sl_exec (disch := first | exact hc1 | exact hc2 | exact hc3)
    sl_step
    iapply Hk
    isplitl [H_arg2]
    · iexists _; isplitr; · ipureintro; exact harg2.read_unread _
      iexact H_arg2
    isplitl [H_arg3]
    · iexists _; isplitr; · ipureintro; exact harg3.read_unread _
      iexact H_arg3
    iexists _; iexact H_arg4

/-- Case D's pieces for the scratch accumulator tile it, so they cover it. -/
theorem scover0_D (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : ¬cond0_2 i) (hc3 : ¬cond0_3 i)
    (x0 : Vec F S1024x1024 .bf16) (xs0 : Vec F S1024x1 .f32) (y : S1024x1.Idx) :
    ∃ pc ∈ (kernelRun0_D c i arg2 harg2 arg3 harg3 arg4 harg4 hc1 hc2 hc3 x0 xs0).2.1, y ∈ pc.1.set :=
  View.cover_of_tiledL (kernelRun0_D c i arg2 harg2 arg3 harg3 arg4 harg4 hc1 hc2 hc3 x0 xs0).2.1 S1024x1.size (by sl_kernel_rfl) y

set_option maxHeartbeats 1000000 in
/-- The body in case E (first column tile: false; diagonal tile: true; last column tile: true) on whole memrefs: it runs to the
    continuation with the inputs as they were, the scratch at its stores' pieces over what it held, and the output
    at its store's piece. The pieces are what the run finds. -/
noncomputable def kernelRun0_E (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : cond0_2 i) (hc3 : cond0_3 i)
    (x0 : Vec F S1024x1024 .bf16) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f_arg2, %hf_arg2, H_arg2⟩, ⟨%d_arg3, %f_arg3, -, H_arg3⟩, ⟨%f_arg4, %hf_arg4, H_arg4⟩, Hk⟩
    obtain rfl := harg2.eq_unread hf_arg2; obtain rfl := harg4.eq_unread hf_arg4
    sl_exec (disch := first | exact hc1 | exact hc2 | exact hc3)
    sl_step
    iapply Hk
    isplitl [H_arg2]
    · iexists _; isplitr; · ipureintro; exact harg2.read_unread _
      iexact H_arg2
    isplitl [H_arg3]
    · iexists _; iexact H_arg3
    iexists _; iexact H_arg4

/-- Case E's pieces for the scratch accumulator tile it, so they cover it. -/
theorem scover0_E (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : cond0_2 i) (hc3 : cond0_3 i)
    (x0 : Vec F S1024x1024 .bf16) (xs0 : Vec F S1024x1 .f32) (y : S1024x1.Idx) :
    ∃ pc ∈ (kernelRun0_E c i arg2 harg2 arg3 harg3 arg4 harg4 hc1 hc2 hc3 x0 xs0).2.1, y ∈ pc.1.set :=
  View.cover_of_tiledL (kernelRun0_E c i arg2 harg2 arg3 harg3 arg4 harg4 hc1 hc2 hc3 x0 xs0).2.1 S1024x1.size (by sl_kernel_rfl) y
/-- Case E's piece for the output block tiles it, so it covers it. -/
theorem cover0_E (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : cond0_2 i) (hc3 : cond0_3 i)
    (x0 : Vec F S1024x1024 .bf16) (xs0 : Vec F S1024x1 .f32) (y : S1024x1.Idx) :
    ∃ pc ∈ (kernelRun0_E c i arg2 harg2 arg3 harg3 arg4 harg4 hc1 hc2 hc3 x0 xs0).1, y ∈ pc.1.set :=
  View.cover_of_tiledL (kernelRun0_E c i arg2 harg2 arg3 harg3 arg4 harg4 hc1 hc2 hc3 x0 xs0).1 S1024x1.size (by sl_kernel_rfl) y

set_option maxHeartbeats 1000000 in
/-- The body in case F (first column tile: false; diagonal tile: false; last column tile: true) on whole memrefs: it runs to the
    continuation with the inputs as they were, the scratch at its stores' pieces over what it held, and the output
    at its store's piece. The pieces are what the run finds. -/
noncomputable def kernelRun0_F (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : ¬cond0_2 i) (hc3 : cond0_3 i)
    (x0 : Vec F S1024x1024 .bf16) (xs0 : Vec F S1024x1 .f32) :
    Σ' (L1 : List (View.Piece (Elt F) S1024x1 .f32)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f LS0)) -∗ K ⟨⟩))
          ⊢ wp frame (wpE (defs₀ (F := F)) Variants.none c none) E (cc0__degree_kernel i arg2 harg2 arg3 harg3 arg4 harg4) K } := by
  refine ⟨?_, ?_, fun E K => ?run⟩
  case run =>
    simp only [cc0__degree_kernel_eq_skeleton]; unfold cc0__degree_kernel_skel
    unfold owns
    iintro ⟨⟨%f_arg2, %hf_arg2, H_arg2⟩, ⟨%d_arg3, %f_arg3, -, H_arg3⟩, ⟨%f_arg4, %hf_arg4, H_arg4⟩, Hk⟩
    obtain rfl := harg2.eq_unread hf_arg2; obtain rfl := harg4.eq_unread hf_arg4
    sl_exec (disch := first | exact hc1 | exact hc2 | exact hc3)
    sl_step
    iapply Hk
    isplitl [H_arg2]
    · iexists _; isplitr; · ipureintro; exact harg2.read_unread _
      iexact H_arg2
    isplitl [H_arg3]
    · iexists _; iexact H_arg3
    iexists _; iexact H_arg4

/-- Case F's pieces for the scratch accumulator tile it, so they cover it. -/
theorem scover0_F (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : ¬cond0_2 i) (hc3 : cond0_3 i)
    (x0 : Vec F S1024x1024 .bf16) (xs0 : Vec F S1024x1 .f32) (y : S1024x1.Idx) :
    ∃ pc ∈ (kernelRun0_F c i arg2 harg2 arg3 harg3 arg4 harg4 hc1 hc2 hc3 x0 xs0).2.1, y ∈ pc.1.set :=
  View.cover_of_tiledL (kernelRun0_F c i arg2 harg2 arg3 harg3 arg4 harg4 hc1 hc2 hc3 x0 xs0).2.1 S1024x1.size (by sl_kernel_rfl) y
/-- Case F's piece for the output block tiles it, so it covers it. -/
theorem cover0_F (c : Dev nD) (i : grid0.Coords) (arg2 : Memref sig .tc .vmem S1024x1024 .bf16) (harg2 : arg2.IsWhole) (arg3 : Memref sig .tc .vmem S1024x1 .f32) (harg3 : arg3.IsWhole) (arg4 : Memref sig .tc .vmem S1024x1 .f32) (harg4 : arg4.IsWhole) (hc1 : ¬cond0_1 i) (hc2 : ¬cond0_2 i) (hc3 : cond0_3 i)
    (x0 : Vec F S1024x1024 .bf16) (xs0 : Vec F S1024x1 .f32) (y : S1024x1.Idx) :
    ∃ pc ∈ (kernelRun0_F c i arg2 harg2 arg3 harg3 arg4 harg4 hc1 hc2 hc3 x0 xs0).1, y ∈ pc.1.set :=
  View.cover_of_tiledL (kernelRun0_F c i arg2 harg2 arg3 harg3 arg4 harg4 hc1 hc2 hc3 x0 xs0).1 S1024x1.size (by sl_kernel_rfl) y

end Cert.KernelIdeal.Frame

end
-- ==== Proof.KernelIdealFrame0.lean ====
/-
  The degree kernel as one region of the program `KernelIdeal`, at any contents `V` of the core's buffers when the
  region is entered: a window's block at a point; what the output's staging buffer and the carried scratch
  accumulator hold after the body at each point, by recursion on the point (the case the point is in, over what the
  point before left in the scratch); the region invariant (before the first point every scratch at anything, afterwards
  the accumulator at what the point before left); the proof data; the body obligation.
-/
import proofs.«109869_j22351009808763_2_alg».proof.Proof.KernelIdealRuns0

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## Each case at a point, its conditions in closed form -/

abbrev run0_A (c : Dev nD) (t : Fin cfg0.N) (h1 : t.val % 8 = 0) (h2 : t.val % 9 = 0) (h3 : ¬t.val % 8 = 7) :=
  kernelRun0_A (F := F) c (grid0.coords t) (ms0_0 t) (hs0_0 t) (ms0_1 t) (hs0_1 t) scM0_0 (Memref.isWhole_whole _) ((hcond0_1 t).mpr h1) ((hcond0_2 t).mpr h2) (fun h => h3 ((hcond0_3 t).mp h)) (iblk0 V c 0 t)
/-- What case A leaves in the output's staging buffer (its store read back over junk; nothing when it stores nothing). -/
def out0_A (c : Dev nD) (t : Fin cfg0.N) (h1 : t.val % 8 = 0) (h2 : t.val % 9 = 0) (h3 : ¬t.val % 8 = 7) : Vec F S1024x1 .f32 :=
  VO0_1.read (Elt F) (VO0_1.writes (Elt F) VO0_1.junk (run0_A V c t h1 h2 h3).1)
/-- What case A leaves in the scratch accumulator: its stores read back over junk. -/
def sout0_A (c : Dev nD) (t : Fin cfg0.N) (h1 : t.val % 8 = 0) (h2 : t.val % 9 = 0) (h3 : ¬t.val % 8 = 7) : Vec F S1024x1 .f32 :=
  VS0_0.read (Elt F) (VS0_0.writes (Elt F) VS0_0.junk (run0_A V c t h1 h2 h3).2.1)

abbrev run0_B (c : Dev nD) (t : Fin cfg0.N) (h1 : t.val % 8 = 0) (h2 : ¬t.val % 9 = 0) (h3 : ¬t.val % 8 = 7) :=
  kernelRun0_B (F := F) c (grid0.coords t) (ms0_0 t) (hs0_0 t) (ms0_1 t) (hs0_1 t) scM0_0 (Memref.isWhole_whole _) ((hcond0_1 t).mpr h1) (fun h => h2 ((hcond0_2 t).mp h)) (fun h => h3 ((hcond0_3 t).mp h)) (iblk0 V c 0 t)
/-- What case B leaves in the output's staging buffer (its store read back over junk; nothing when it stores nothing). -/
def out0_B (c : Dev nD) (t : Fin cfg0.N) (h1 : t.val % 8 = 0) (h2 : ¬t.val % 9 = 0) (h3 : ¬t.val % 8 = 7) : Vec F S1024x1 .f32 :=
  VO0_1.read (Elt F) (VO0_1.writes (Elt F) VO0_1.junk (run0_B V c t h1 h2 h3).1)
/-- What case B leaves in the scratch accumulator: its stores read back over junk. -/
def sout0_B (c : Dev nD) (t : Fin cfg0.N) (h1 : t.val % 8 = 0) (h2 : ¬t.val % 9 = 0) (h3 : ¬t.val % 8 = 7) : Vec F S1024x1 .f32 :=
  VS0_0.read (Elt F) (VS0_0.writes (Elt F) VS0_0.junk (run0_B V c t h1 h2 h3).2.1)

abbrev run0_C (c : Dev nD) (t : Fin cfg0.N) (h1 : ¬t.val % 8 = 0) (h2 : t.val % 9 = 0) (h3 : ¬t.val % 8 = 7) (xs : Vec F S1024x1 .f32) :=
  kernelRun0_C (F := F) c (grid0.coords t) (ms0_0 t) (hs0_0 t) (ms0_1 t) (hs0_1 t) scM0_0 (Memref.isWhole_whole _) (fun h => h1 ((hcond0_1 t).mp h)) ((hcond0_2 t).mpr h2) (fun h => h3 ((hcond0_3 t).mp h)) (iblk0 V c 0 t) xs
/-- What case C leaves in the output's staging buffer (its store read back over junk; nothing when it stores nothing). -/
def out0_C (c : Dev nD) (t : Fin cfg0.N) (h1 : ¬t.val % 8 = 0) (h2 : t.val % 9 = 0) (h3 : ¬t.val % 8 = 7) (xs : Vec F S1024x1 .f32) : Vec F S1024x1 .f32 :=
  VO0_1.read (Elt F) (VO0_1.writes (Elt F) VO0_1.junk (run0_C V c t h1 h2 h3 xs).1)
/-- What case C leaves in the scratch accumulator: its stores read back over junk. -/
def sout0_C (c : Dev nD) (t : Fin cfg0.N) (h1 : ¬t.val % 8 = 0) (h2 : t.val % 9 = 0) (h3 : ¬t.val % 8 = 7) (xs : Vec F S1024x1 .f32) : Vec F S1024x1 .f32 :=
  VS0_0.read (Elt F) (VS0_0.writes (Elt F) VS0_0.junk (run0_C V c t h1 h2 h3 xs).2.1)

abbrev run0_D (c : Dev nD) (t : Fin cfg0.N) (h1 : ¬t.val % 8 = 0) (h2 : ¬t.val % 9 = 0) (h3 : ¬t.val % 8 = 7) (xs : Vec F S1024x1 .f32) :=
  kernelRun0_D (F := F) c (grid0.coords t) (ms0_0 t) (hs0_0 t) (ms0_1 t) (hs0_1 t) scM0_0 (Memref.isWhole_whole _) (fun h => h1 ((hcond0_1 t).mp h)) (fun h => h2 ((hcond0_2 t).mp h)) (fun h => h3 ((hcond0_3 t).mp h)) (iblk0 V c 0 t) xs
/-- What case D leaves in the output's staging buffer (its store read back over junk; nothing when it stores nothing). -/
def out0_D (c : Dev nD) (t : Fin cfg0.N) (h1 : ¬t.val % 8 = 0) (h2 : ¬t.val % 9 = 0) (h3 : ¬t.val % 8 = 7) (xs : Vec F S1024x1 .f32) : Vec F S1024x1 .f32 :=
  VO0_1.read (Elt F) (VO0_1.writes (Elt F) VO0_1.junk (run0_D V c t h1 h2 h3 xs).1)
/-- What case D leaves in the scratch accumulator: its stores read back over junk. -/
def sout0_D (c : Dev nD) (t : Fin cfg0.N) (h1 : ¬t.val % 8 = 0) (h2 : ¬t.val % 9 = 0) (h3 : ¬t.val % 8 = 7) (xs : Vec F S1024x1 .f32) : Vec F S1024x1 .f32 :=
  VS0_0.read (Elt F) (VS0_0.writes (Elt F) VS0_0.junk (run0_D V c t h1 h2 h3 xs).2.1)

abbrev run0_E (c : Dev nD) (t : Fin cfg0.N) (h1 : ¬t.val % 8 = 0) (h2 : t.val % 9 = 0) (h3 : t.val % 8 = 7) (xs : Vec F S1024x1 .f32) :=
  kernelRun0_E (F := F) c (grid0.coords t) (ms0_0 t) (hs0_0 t) (ms0_1 t) (hs0_1 t) scM0_0 (Memref.isWhole_whole _) (fun h => h1 ((hcond0_1 t).mp h)) ((hcond0_2 t).mpr h2) ((hcond0_3 t).mpr h3) (iblk0 V c 0 t) xs
/-- What case E leaves in the output's staging buffer (its store read back over junk; nothing when it stores nothing). -/
def out0_E (c : Dev nD) (t : Fin cfg0.N) (h1 : ¬t.val % 8 = 0) (h2 : t.val % 9 = 0) (h3 : t.val % 8 = 7) (xs : Vec F S1024x1 .f32) : Vec F S1024x1 .f32 :=
  VO0_1.read (Elt F) (VO0_1.writes (Elt F) VO0_1.junk (run0_E V c t h1 h2 h3 xs).1)
/-- What case E leaves in the scratch accumulator: its stores read back over junk. -/
def sout0_E (c : Dev nD) (t : Fin cfg0.N) (h1 : ¬t.val % 8 = 0) (h2 : t.val % 9 = 0) (h3 : t.val % 8 = 7) (xs : Vec F S1024x1 .f32) : Vec F S1024x1 .f32 :=
  VS0_0.read (Elt F) (VS0_0.writes (Elt F) VS0_0.junk (run0_E V c t h1 h2 h3 xs).2.1)

abbrev run0_F (c : Dev nD) (t : Fin cfg0.N) (h1 : ¬t.val % 8 = 0) (h2 : ¬t.val % 9 = 0) (h3 : t.val % 8 = 7) (xs : Vec F S1024x1 .f32) :=
  kernelRun0_F (F := F) c (grid0.coords t) (ms0_0 t) (hs0_0 t) (ms0_1 t) (hs0_1 t) scM0_0 (Memref.isWhole_whole _) (fun h => h1 ((hcond0_1 t).mp h)) (fun h => h2 ((hcond0_2 t).mp h)) ((hcond0_3 t).mpr h3) (iblk0 V c 0 t) xs
/-- What case F leaves in the output's staging buffer (its store read back over junk; nothing when it stores nothing). -/
def out0_F (c : Dev nD) (t : Fin cfg0.N) (h1 : ¬t.val % 8 = 0) (h2 : ¬t.val % 9 = 0) (h3 : t.val % 8 = 7) (xs : Vec F S1024x1 .f32) : Vec F S1024x1 .f32 :=
  VO0_1.read (Elt F) (VO0_1.writes (Elt F) VO0_1.junk (run0_F V c t h1 h2 h3 xs).1)
/-- What case F leaves in the scratch accumulator: its stores read back over junk. -/
def sout0_F (c : Dev nD) (t : Fin cfg0.N) (h1 : ¬t.val % 8 = 0) (h2 : ¬t.val % 9 = 0) (h3 : t.val % 8 = 7) (xs : Vec F S1024x1 .f32) : Vec F S1024x1 .f32 :=
  VS0_0.read (Elt F) (VS0_0.writes (Elt F) VS0_0.junk (run0_F V c t h1 h2 h3 xs).2.1)

/-! ## Point by point -/

/-- One point: the case its number selects, over what the scratch held before it (`xs`, not read when the point resets it). -/
def step0 (c : Dev nD) (t : Fin cfg0.N) (xs : Vec F S1024x1 .f32) : Vec F S1024x1 .f32 × Vec F S1024x1 .f32 :=
  if h1 : t.val % 8 = 0 then
    if h2 : t.val % 9 = 0 then
      if h3 : t.val % 8 = 7 then False.elim (by omega) else (out0_A V c t h1 h2 h3, sout0_A V c t h1 h2 h3)
    else
      if h3 : t.val % 8 = 7 then False.elim (by omega) else (out0_B V c t h1 h2 h3, sout0_B V c t h1 h2 h3)
  else
    if h2 : t.val % 9 = 0 then
      if h3 : t.val % 8 = 7 then (out0_E V c t h1 h2 h3 xs, sout0_E V c t h1 h2 h3 xs) else (out0_C V c t h1 h2 h3 xs, sout0_C V c t h1 h2 h3 xs)
    else
      if h3 : t.val % 8 = 7 then (out0_F V c t h1 h2 h3 xs, sout0_F V c t h1 h2 h3 xs) else (out0_D V c t h1 h2 h3 xs, sout0_D V c t h1 h2 h3 xs)

theorem step0_A (c : Dev nD) (t : Fin cfg0.N) (xs : Vec F S1024x1 .f32) (h1 : t.val % 8 = 0) (h2 : t.val % 9 = 0) (h3 : ¬t.val % 8 = 7) :
    step0 V c t xs = (out0_A V c t h1 h2 h3, sout0_A V c t h1 h2 h3) := by
  unfold step0; rw [dif_pos h1, dif_pos h2, dif_neg h3]
theorem step0_B (c : Dev nD) (t : Fin cfg0.N) (xs : Vec F S1024x1 .f32) (h1 : t.val % 8 = 0) (h2 : ¬t.val % 9 = 0) (h3 : ¬t.val % 8 = 7) :
    step0 V c t xs = (out0_B V c t h1 h2 h3, sout0_B V c t h1 h2 h3) := by
  unfold step0; rw [dif_pos h1, dif_neg h2, dif_neg h3]
theorem step0_C (c : Dev nD) (t : Fin cfg0.N) (xs : Vec F S1024x1 .f32) (h1 : ¬t.val % 8 = 0) (h2 : t.val % 9 = 0) (h3 : ¬t.val % 8 = 7) :
    step0 V c t xs = (out0_C V c t h1 h2 h3 xs, sout0_C V c t h1 h2 h3 xs) := by
  unfold step0; rw [dif_neg h1, dif_pos h2, dif_neg h3]
theorem step0_D (c : Dev nD) (t : Fin cfg0.N) (xs : Vec F S1024x1 .f32) (h1 : ¬t.val % 8 = 0) (h2 : ¬t.val % 9 = 0) (h3 : ¬t.val % 8 = 7) :
    step0 V c t xs = (out0_D V c t h1 h2 h3 xs, sout0_D V c t h1 h2 h3 xs) := by
  unfold step0; rw [dif_neg h1, dif_neg h2, dif_neg h3]
theorem step0_E (c : Dev nD) (t : Fin cfg0.N) (xs : Vec F S1024x1 .f32) (h1 : ¬t.val % 8 = 0) (h2 : t.val % 9 = 0) (h3 : t.val % 8 = 7) :
    step0 V c t xs = (out0_E V c t h1 h2 h3 xs, sout0_E V c t h1 h2 h3 xs) := by
  unfold step0; rw [dif_neg h1, dif_pos h2, dif_pos h3]
theorem step0_F (c : Dev nD) (t : Fin cfg0.N) (xs : Vec F S1024x1 .f32) (h1 : ¬t.val % 8 = 0) (h2 : ¬t.val % 9 = 0) (h3 : t.val % 8 = 7) :
    step0 V c t xs = (out0_F V c t h1 h2 h3 xs, sout0_F V c t h1 h2 h3 xs) := by
  unfold step0; rw [dif_neg h1, dif_neg h2, dif_pos h3]

/-- THE ACCUMULATION: what the output's staging buffer and the scratch hold after the body at position `n`. -/
def outsAt0 (c : Dev nD) : (n : ℕ) → n < cfg0.N → Vec F S1024x1 .f32 × Vec F S1024x1 .f32
  | 0, hn => step0 V c ⟨0, hn⟩ (VS0_0.read (Elt F) VS0_0.junk)
  | n + 1, hn => step0 V c ⟨n + 1, hn⟩ (outsAt0 c n (Nat.lt_of_succ_lt hn)).2

/-- What the scratch held before point `t`. -/
def prev0 (c : Dev nD) (t : Fin cfg0.N) : Vec F S1024x1 .f32 :=
  match t with
  | ⟨0, _⟩ => VS0_0.read (Elt F) VS0_0.junk
  | ⟨n + 1, hn⟩ => (outsAt0 V c n (Nat.lt_of_succ_lt hn)).2

theorem outsAt0_step (c : Dev nD) (t : Fin cfg0.N) : outsAt0 V c t.val t.isLt = step0 V c t (prev0 V c t) := by
  obtain ⟨n, hn⟩ := t
  cases n <;> rfl

theorem prev0_pos (c : Dev nD) (t : Fin cfg0.N) (hz : t.val ≠ 0) :
    prev0 V c t = (outsAt0 V c (t.val - 1) (Nat.lt_of_le_of_lt (Nat.sub_le _ _) t.isLt)).2 := by
  obtain ⟨n, hn⟩ := t
  cases n with
  | zero => exact absurd rfl hz
  | succ n => rfl

/-! ## The region invariant -/

/-- The core's scoped buffers other than the pipeline's staging buffers and the accumulator, each at anything. -/
abbrev Rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA
  rw [Pipeline.scopedRest_split_of_list spec0 c [cc0_scratch0] (by decide) (by decide)]
  simp only [bigSepL_singleton, scM0_0, owns_whole]; try rfl

/-- Before position `n`: at the first point the class's invariant (every scratch at anything); afterwards the accumulator
    at what the point before left in it, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2) ∗ Rest0 c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the inputs' staging buffers hold their blocks; the point's number says which case it is in; the
    invariant hands the body the accumulator at what the point before left (at anything at the first point) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  by_cases h1 : t.val % 8 = 0
  · by_cases h2 : t.val % 9 = 0
    · have h3 : ¬t.val % 8 = 7 := by omega
      rw [Dat.leavesExact_idle (dat0 V c) 1 t (idleAt0_1 t (fun h => h3 ((hcond0_3 t).mp h))) (noFlush0_1 t (fun h => h3 ((hcond0_3 t).mp h)))]
      rw [outsAt0_step V c t, step0_A V c t _ h1 h2 h3]
      unfold sout0_A; (try dsimp only)
      by_cases hz : t.val = 0
      · -- the first point: every scratch at anything
        rw [PhiS0_castSucc V c t, PhiS0_zero V c _ _ hz, PhiA0_eq]
        iintro ⟨⟨⟨HS, HR⟩, Hg⟩, Ho, ⟨%d0, H0⟩, ⟨%d1, H1⟩⟩
        iapply ((run0_A V c t h1 h2 h3).2.2 _ Set.univ _)
        isplitl [H0]; · iexact H0
        isplitl [H1]; · iexact H1
        isplitl [HS]; · iexact HS
        iintro ⟨H0, H1, ⟨%es, HS⟩⟩
        isplitl [HS HR Hg]
        · isplitl [HS HR]
          · isplitl [HS]
            · unfold owns; iexists _; isplitr
              swap; · iexact HS
              ipureintro; exact View.read_writes_of_cover _ _ _ _ _ (scover0_A c _ _ _ _ _ _ _ _ _ _ _)
            iexact HR
          iexact Hg
        isplitl [Ho]; · iexact Ho
        isplitl [H0]; · iexact H0
        iexists _; iexact H1
      · -- a later point: the accumulator at what the point before left
        rw [PhiS0_castSucc V c t, PhiS0_pos V c _ _ hz]
        iintro ⟨⟨⟨HS, HR⟩, Hg⟩, Ho, ⟨%d0, H0⟩, ⟨%d1, H1⟩⟩
        iapply ((run0_A V c t h1 h2 h3).2.2 _ Set.univ _)
        isplitl [H0]; · iexact H0
        isplitl [H1]; · iexact H1
        isplitl [HS]; · iexists _; iexact HS
        iintro ⟨H0, H1, ⟨%es, HS⟩⟩
        isplitl [HS HR Hg]
        · isplitl [HS HR]
          · isplitl [HS]
            · unfold owns; iexists _; isplitr
              swap; · iexact HS
              ipureintro; exact View.read_writes_of_cover _ _ _ _ _ (scover0_A c _ _ _ _ _ _ _ _ _ _ _)
            iexact HR
          iexact Hg
        isplitl [Ho]; · iexact Ho
        isplitl [H0]; · iexact H0
        iexists _; iexact H1
    · have h3 : ¬t.val % 8 = 7 := by omega
      rw [Dat.leavesExact_idle (dat0 V c) 1 t (idleAt0_1 t (fun h => h3 ((hcond0_3 t).mp h))) (noFlush0_1 t (fun h => h3 ((hcond0_3 t).mp h)))]
      rw [outsAt0_step V c t, step0_B V c t _ h1 h2 h3]
      unfold sout0_B; (try dsimp only)
      by_cases hz : t.val = 0
      · exfalso; omega
      · -- a later point: the accumulator at what the point before left
        rw [PhiS0_castSucc V c t, PhiS0_pos V c _ _ hz]
        iintro ⟨⟨⟨HS, HR⟩, Hg⟩, Ho, ⟨%d0, H0⟩, ⟨%d1, H1⟩⟩
        iapply ((run0_B V c t h1 h2 h3).2.2 _ Set.univ _)
        isplitl [H0]; · iexact H0
        isplitl [H1]; · iexact H1
        isplitl [HS]; · iexists _; iexact HS
        iintro ⟨H0, H1, ⟨%es, HS⟩⟩
        isplitl [HS HR Hg]
        · isplitl [HS HR]
          · isplitl [HS]
            · unfold owns; iexists _; isplitr
              swap; · iexact HS
              ipureintro; exact View.read_writes_of_cover _ _ _ _ _ (scover0_B c _ _ _ _ _ _ _ _ _ _ _)
            iexact HR
          iexact Hg
        isplitl [Ho]; · iexact Ho
        isplitl [H0]; · iexact H0
        iexists _; iexact H1
  · by_cases h2 : t.val % 9 = 0
    · by_cases h3 : t.val % 8 = 7
      · rw [show (dat0 V c).leavesExact 1 t = owns (c : Thread nD τ) (ms0_1 t) fullShare ((dat0 V c).after 1 t) from by
          unfold Dat.leavesExact; rw [liveAt0_1 t ((hcond0_3 t).mpr h3)], after0_1]
        rw [outsAt0_step V c t, step0_E V c t _ h1 h2 h3]
        unfold out0_E sout0_E; (try dsimp only)
        by_cases hz : t.val = 0
        · exfalso; omega
        · -- a later point: the accumulator at what the point before left
          rw [PhiS0_castSucc V c t, PhiS0_pos V c _ _ hz, ← prev0_pos V c t hz]
          iintro ⟨⟨⟨HS, HR⟩, Hg⟩, Ho, ⟨%d0, H0⟩, ⟨%d1, H1⟩⟩
          iapply ((run0_E V c t h1 h2 h3 (prev0 V c t)).2.2 Set.univ _)
          isplitl [H0]; · iexact H0
          isplitl [H1]; · iexists _; iexact H1
          isplitl [HS]; · iexact HS
          iintro ⟨H0, ⟨%e1, H1⟩, ⟨%es, HS⟩⟩
          isplitl [HS HR Hg]
          · isplitl [HS HR]
            · isplitl [HS]
              · unfold owns; iexists _; isplitr
                swap; · iexact HS
                ipureintro; exact View.read_writes_of_cover _ _ _ _ _ (scover0_E c _ _ _ _ _ _ _ _ _ _ _ _)
              iexact HR
            iexact Hg
          isplitl [Ho]; · iexact Ho
          isplitl [H0]; · iexact H0
          unfold owns; iexists _; isplitr
          swap; · iexact H1
          ipureintro; exact View.read_writes_of_cover _ _ _ _ _ (cover0_E c _ _ _ _ _ _ _ _ _ _ _ _)
      · rw [Dat.leavesExact_idle (dat0 V c) 1 t (idleAt0_1 t (fun h => h3 ((hcond0_3 t).mp h))) (noFlush0_1 t (fun h => h3 ((hcond0_3 t).mp h)))]
        rw [outsAt0_step V c t, step0_C V c t _ h1 h2 h3]
        unfold sout0_C; (try dsimp only)
        by_cases hz : t.val = 0
        · exfalso; omega
        · -- a later point: the accumulator at what the point before left
          rw [PhiS0_castSucc V c t, PhiS0_pos V c _ _ hz, ← prev0_pos V c t hz]
          iintro ⟨⟨⟨HS, HR⟩, Hg⟩, Ho, ⟨%d0, H0⟩, ⟨%d1, H1⟩⟩
          iapply ((run0_C V c t h1 h2 h3 (prev0 V c t)).2.2 _ Set.univ _)
          isplitl [H0]; · iexact H0
          isplitl [H1]; · iexact H1
          isplitl [HS]; · iexact HS
          iintro ⟨H0, H1, ⟨%es, HS⟩⟩
          isplitl [HS HR Hg]
          · isplitl [HS HR]
            · isplitl [HS]
              · unfold owns; iexists _; isplitr
                swap; · iexact HS
                ipureintro; exact View.read_writes_of_cover _ _ _ _ _ (scover0_C c _ _ _ _ _ _ _ _ _ _ _ _)
              iexact HR
            iexact Hg
          isplitl [Ho]; · iexact Ho
          isplitl [H0]; · iexact H0
          iexists _; iexact H1
    · by_cases h3 : t.val % 8 = 7
      · rw [show (dat0 V c).leavesExact 1 t = owns (c : Thread nD τ) (ms0_1 t) fullShare ((dat0 V c).after 1 t) from by
          unfold Dat.leavesExact; rw [liveAt0_1 t ((hcond0_3 t).mpr h3)], after0_1]
        rw [outsAt0_step V c t, step0_F V c t _ h1 h2 h3]
        unfold out0_F sout0_F; (try dsimp only)
        by_cases hz : t.val = 0
        · exfalso; omega
        · -- a later point: the accumulator at what the point before left
          rw [PhiS0_castSucc V c t, PhiS0_pos V c _ _ hz, ← prev0_pos V c t hz]
          iintro ⟨⟨⟨HS, HR⟩, Hg⟩, Ho, ⟨%d0, H0⟩, ⟨%d1, H1⟩⟩
          iapply ((run0_F V c t h1 h2 h3 (prev0 V c t)).2.2 Set.univ _)
          isplitl [H0]; · iexact H0
          isplitl [H1]; · iexists _; iexact H1
          isplitl [HS]; · iexact HS
          iintro ⟨H0, ⟨%e1, H1⟩, ⟨%es, HS⟩⟩
          isplitl [HS HR Hg]
          · isplitl [HS HR]
            · isplitl [HS]
              · unfold owns; iexists _; isplitr
                swap; · iexact HS
                ipureintro; exact View.read_writes_of_cover _ _ _ _ _ (scover0_F c _ _ _ _ _ _ _ _ _ _ _ _)
              iexact HR
            iexact Hg
          isplitl [Ho]; · iexact Ho
          isplitl [H0]; · iexact H0
          unfold owns; iexists _; isplitr
          swap; · iexact H1
          ipureintro; exact View.read_writes_of_cover _ _ _ _ _ (cover0_F c _ _ _ _ _ _ _ _ _ _ _ _)
      · rw [Dat.leavesExact_idle (dat0 V c) 1 t (idleAt0_1 t (fun h => h3 ((hcond0_3 t).mp h))) (noFlush0_1 t (fun h => h3 ((hcond0_3 t).mp h)))]
        rw [outsAt0_step V c t, step0_D V c t _ h1 h2 h3]
        unfold sout0_D; (try dsimp only)
        by_cases hz : t.val = 0
        · exfalso; omega
        · -- a later point: the accumulator at what the point before left
          rw [PhiS0_castSucc V c t, PhiS0_pos V c _ _ hz, ← prev0_pos V c t hz]
          iintro ⟨⟨⟨HS, HR⟩, Hg⟩, Ho, ⟨%d0, H0⟩, ⟨%d1, H1⟩⟩
          iapply ((run0_D V c t h1 h2 h3 (prev0 V c t)).2.2 _ Set.univ _)
          isplitl [H0]; · iexact H0
          isplitl [H1]; · iexact H1
          isplitl [HS]; · iexact HS
          iintro ⟨H0, H1, ⟨%es, HS⟩⟩
          isplitl [HS HR Hg]
          · isplitl [HS HR]
            · isplitl [HS]
              · unfold owns; iexists _; isplitr
                swap; · iexact HS
                ipureintro; exact View.read_writes_of_cover _ _ _ _ _ (scover0_D c _ _ _ _ _ _ _ _ _ _ _ _)
              iexact HR
            iexact Hg
          isplitl [Ho]; · iexact Ho
          isplitl [H0]; · iexact H0
          iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the class's invariant is before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS, HR⟩, Hg⟩
  isplitl [HS HR]
  · isplitl [HS]
    · iexists _; iexact HS
    iexact HR
  iexact Hg

end

end Cert.KernelIdeal.Frame

end
-- ==== Proof.KernelIdealPieces0.lean ====
/-
  What each case of the degree kernel's body leaves in the scratch accumulator and in the output's staging buffer, as
  the body's arithmetic applied to the input blocks and to what the accumulator held: every store writes its buffer
  whole, so what is read back is the last store's value, and every load after a store reads that store's value.
-/
import proofs.«109869_j22351009808763_2_alg».proof.Proof.KernelIdealFrame0
import proofs.«109869_j22351009808763_2_alg».proof.Proof.LibWholeStores

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.LibWholeStores

/-- The accumulator read whole at the contents it was handed. -/
theorem scr0_read_unread (h : (scM0_0).IsWhole) (X : Vec F S1024x1 .f32) :
    View.read (Elt F) (View.whole cc0_scratch0) (h.unread X) = X := h.read_unread X

section
variable (V : (c : Dev nD) → (b : Ref sig .tc) → Buf (Elt F) ((c : Thread nD τ).loc b))

theorem sout0_A_eq (c : Dev nD) (t : Fin cfg0.N) (h1 : t.val % 8 = 0) (h2 : t.val % 9 = 0) (h3 : ¬t.val % 8 = 7) :
    sout0_A V c t h1 h2 h3 = k0_pay3 (k0_pay2 (k0_pay1 (F := F)) (iblk0 V c 0 t)) := by
  unfold sout0_A
  rw [View.read_writes_eq_canon _ _ _ (scover0_A c _ _ _ _ _ _ _ _ _ _ _)]
  unfold kernelRun0_A
  dsimp only
  sl_unfold_words
  rw [View.canon_cons_unit_zero (S := S1024x1) zero2]
  simp only [readCov_cons_unit_zero (S := S1024x1) _ zero2, View.readAt_eq_ld, Memref.IsWhole.read_unread, scr0_read_unread, View.ld_unit_zero (S := S1024x1) zero2, View.ld_unit_zero (S := S1024x1024) zero2]

theorem sout0_B_eq (c : Dev nD) (t : Fin cfg0.N) (h1 : t.val % 8 = 0) (h2 : ¬t.val % 9 = 0) (h3 : ¬t.val % 8 = 7) :
    sout0_B V c t h1 h2 h3 = k0_pay2 (k0_pay1 (F := F)) (iblk0 V c 0 t) := by
  unfold sout0_B
  rw [View.read_writes_eq_canon _ _ _ (scover0_B c _ _ _ _ _ _ _ _ _ _ _)]
  unfold kernelRun0_B
  dsimp only
  sl_unfold_words
  rw [View.canon_cons_unit_zero (S := S1024x1) zero2]
  simp only [readCov_cons_unit_zero (S := S1024x1) _ zero2, View.readAt_eq_ld, Memref.IsWhole.read_unread, scr0_read_unread, View.ld_unit_zero (S := S1024x1) zero2, View.ld_unit_zero (S := S1024x1024) zero2]

theorem sout0_C_eq (c : Dev nD) (t : Fin cfg0.N) (h1 : ¬t.val % 8 = 0) (h2 : t.val % 9 = 0) (h3 : ¬t.val % 8 = 7) (xs : Vec F S1024x1 .f32) :
    sout0_C V c t h1 h2 h3 xs = k0_pay3 (k0_pay2 xs (iblk0 V c 0 t)) := by
  unfold sout0_C
  rw [View.read_writes_eq_canon _ _ _ (scover0_C c _ _ _ _ _ _ _ _ _ _ _ _)]
  unfold kernelRun0_C
  dsimp only
  sl_unfold_words
  rw [View.canon_cons_unit_zero (S := S1024x1) zero2]
  simp only [readCov_cons_unit_zero (S := S1024x1) _ zero2, View.readAt_eq_ld, Memref.IsWhole.read_unread, scr0_read_unread, View.ld_unit_zero (S := S1024x1) zero2, View.ld_unit_zero (S := S1024x1024) zero2]

theorem sout0_D_eq (c : Dev nD) (t : Fin cfg0.N) (h1 : ¬t.val % 8 = 0) (h2 : ¬t.val % 9 = 0) (h3 : ¬t.val % 8 = 7) (xs : Vec F S1024x1 .f32) :
    sout0_D V c t h1 h2 h3 xs = k0_pay2 xs (iblk0 V c 0 t) := by
  unfold sout0_D
  rw [View.read_writes_eq_canon _ _ _ (scover0_D c _ _ _ _ _ _ _ _ _ _ _ _)]
  unfold kernelRun0_D
  dsimp only
  sl_unfold_words
  rw [View.canon_cons_unit_zero (S := S1024x1) zero2]
  simp only [readCov_cons_unit_zero (S := S1024x1) _ zero2, View.readAt_eq_ld, Memref.IsWhole.read_unread, scr0_read_unread, View.ld_unit_zero (S := S1024x1) zero2, View.ld_unit_zero (S := S1024x1024) zero2]

theorem sout0_E_eq (c : Dev nD) (t : Fin cfg0.N) (h1 : ¬t.val % 8 = 0) (h2 : t.val % 9 = 0) (h3 : t.val % 8 = 7) (xs : Vec F S1024x1 .f32) :
    sout0_E V c t h1 h2 h3 xs = k0_pay3 (k0_pay2 xs (iblk0 V c 0 t)) := by
  unfold sout0_E
  rw [View.read_writes_eq_canon _ _ _ (scover0_E c _ _ _ _ _ _ _ _ _ _ _ _)]
  unfold kernelRun0_E
  dsimp only
  sl_unfold_words
  rw [View.canon_cons_unit_zero (S := S1024x1) zero2]
  simp only [readCov_cons_unit_zero (S := S1024x1) _ zero2, View.readAt_eq_ld, Memref.IsWhole.read_unread, scr0_read_unread, View.ld_unit_zero (S := S1024x1) zero2, View.ld_unit_zero (S := S1024x1024) zero2]

theorem out0_E_eq (c : Dev nD) (t : Fin cfg0.N) (h1 : ¬t.val % 8 = 0) (h2 : t.val % 9 = 0) (h3 : t.val % 8 = 7) (xs : Vec F S1024x1 .f32) :
    out0_E V c t h1 h2 h3 xs = k0_pay4 (k0_pay3 (k0_pay2 xs (iblk0 V c 0 t))) := by
  unfold out0_E
  rw [View.read_writes_eq_canon _ _ _ (cover0_E c _ _ _ _ _ _ _ _ _ _ _ _)]
  unfold kernelRun0_E
  dsimp only
  sl_unfold_words
  rw [View.canon_cons_unit_zero (S := S1024x1) zero2]
  simp only [readCov_cons_unit_zero (S := S1024x1) _ zero2, View.readAt_eq_ld, Memref.IsWhole.read_unread, scr0_read_unread, View.ld_unit_zero (S := S1024x1) zero2, View.ld_unit_zero (S := S1024x1024) zero2]

theorem sout0_F_eq (c : Dev nD) (t : Fin cfg0.N) (h1 : ¬t.val % 8 = 0) (h2 : ¬t.val % 9 = 0) (h3 : t.val % 8 = 7) (xs : Vec F S1024x1 .f32) :
    sout0_F V c t h1 h2 h3 xs = k0_pay2 xs (iblk0 V c 0 t) := by
  unfold sout0_F
  rw [View.read_writes_eq_canon _ _ _ (scover0_F c _ _ _ _ _ _ _ _ _ _ _ _)]
  unfold kernelRun0_F
  dsimp only
  sl_unfold_words
  rw [View.canon_cons_unit_zero (S := S1024x1) zero2]
  simp only [readCov_cons_unit_zero (S := S1024x1) _ zero2, View.readAt_eq_ld, Memref.IsWhole.read_unread, scr0_read_unread, View.ld_unit_zero (S := S1024x1) zero2, View.ld_unit_zero (S := S1024x1024) zero2]

theorem out0_F_eq (c : Dev nD) (t : Fin cfg0.N) (h1 : ¬t.val % 8 = 0) (h2 : ¬t.val % 9 = 0) (h3 : t.val % 8 = 7) (xs : Vec F S1024x1 .f32) :
    out0_F V c t h1 h2 h3 xs = k0_pay4 (k0_pay2 xs (iblk0 V c 0 t)) := by
  unfold out0_F
  rw [View.read_writes_eq_canon _ _ _ (cover0_F c _ _ _ _ _ _ _ _ _ _ _ _)]
  unfold kernelRun0_F
  dsimp only
  sl_unfold_words
  rw [View.canon_cons_unit_zero (S := S1024x1) zero2]
  simp only [readCov_cons_unit_zero (S := S1024x1) _ zero2, View.readAt_eq_ld, Memref.IsWhole.read_unread, scr0_read_unread, View.ld_unit_zero (S := S1024x1) zero2, View.ld_unit_zero (S := S1024x1024) zero2]

end

end Cert.KernelIdeal.Frame

end
-- ==== Proof.LibRowOps.lean ====
/-
  Three keepdims-style layout steps of a row-wise computation, read as functions of the index, at the ideal
  values: a length-b array laid out as one row and repeated down a rows; an a × 1 column repeated across b
  columns; and the sum of every row of an a × b array.
-/
import Idealize.ShloMosaic.PureOps.Ideal.Laws
import Idealize.ShloMosaic.Lib.Pipeline.Value
import Idealize.ShloMosaic.Lib.ValueLayout

noncomputable section

open scoped BigOperators

namespace Cert.LibRowOps

open Idealize.ShloMosaic Idealize.ShloMosaic.ValueIdx

variable {α : Type}

/-- A length-b array reshaped to one row and broadcast down a rows holds, at (p, c), its entry c. -/
theorem row_bcast {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) :
    broadcastTo ⟨2, ![a, b]⟩ (shapeCast ⟨2, ![1, b]⟩ v h1) h2 = fun i => v (ix1 (i 1)) := by
  funext i
  exact (congrArg (broadcastTo ⟨2, ![a, b]⟩ (shapeCast ⟨2, ![1, b]⟩ v h1) h2) (eq_ix2 i)).trans
    ((broadcastTo_1b_ab_apply _ h2 (i 0) (i 1)).trans (shapeCast_a_1a_apply v h1 0 (i 1)))

/-- An a × 1 column broadcast across b columns holds, at (p, c), the column's entry p. -/
theorem col_bcast_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same, as a function of the index. -/
theorem col_bcast {a b : ℕ} (v : (⟨2, ![a, 1]⟩ : Shape).Idx → α) (h : (⟨2, ![a, 1]⟩ : Shape).Broadcasts ⟨2, ![a, b]⟩) :
    broadcastTo ⟨2, ![a, b]⟩ v h = fun i => v (ix2 (i 0) (0 : Fin 1)) := by
  funext i
  exact (congrArg (broadcastTo ⟨2, ![a, b]⟩ v h) (eq_ix2 i)).trans (col_bcast_apply v h (i 0) (i 1))

/-- The index that a row sum reads: row r, column k. -/
theorem lift_row {a b : ℕ} (h : (⟨2, ![a, b]⟩ : Shape).Reduces [1] ⟨1, ![a]⟩) (j : (⟨1, ![a]⟩ : Shape).Idx) (k : Fin b) :
    h.lift j k = ix2 (j 0) k := by
  funext c
  apply Fin.ext
  show h.liftVal j k.val c = (ix2 (j 0) k c).val
  match c with
  | ⟨0, _⟩ => simp [Shape.Reduces.liftVal]
  | ⟨1, _⟩ => simp [Shape.Reduces.liftVal]

/-- The sum over axis 1 of an a × b array from the zero accumulator is, at r, the sum of row r (the two side
    conditions typed as a printed program's proofs of them are). -/
theorem rowsum {a b : ℕ} (v : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

/-- The same, for an accumulator proof stated against the sum's neutral word. -/
theorem rowsum_neutral {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) :
    multiReduction .add [1] ⟨1, ![a]⟩ v 0x00000000#32 h hφ hacc = fun j => ∑ k : Fin b, v (ix2 (j 0) k) := by
  funext j
  refine (Ideal.multiReduction_add_single v 0x00000000#32 h hφ hacc j).trans ?_
  exact Finset.sum_congr rfl fun k _ => congrArg v (lift_row h j k)

end Cert.LibRowOps

end
-- ==== Proof.LibBlockSum.lean ====
/-
  Sums over a long axis taken block by block.

  A kernel that walks an axis of extent `N = T * R` in `T` blocks of `R` rows and keeps a running total adds up, in the
  end, the same terms as one sum over the whole axis: in a commutative monoid (the extended reals under `+` are one, infinities
  included) only the grouping differs.  Stated over an arbitrary commutative monoid, for literal or symbolic extents.
-/
import Idealize.ShloMosaic.Lib.ValueIdx

namespace Cert.LibBlockSum

open Finset

variable {M : Type*} [AddCommMonoid M]

/-- Row `r` of block `t`, as a row of the whole axis: `t * R + r`. -/
def row {T R : ℕ} (t : Fin T) (r : Fin R) : Fin (T * R) :=
  ⟨t.val * R + r.val, by
    have ht := t.isLt
    have hr := r.isLt
    calc t.val * R + r.val < t.val * R + R := by omega
      _ = (t.val + 1) * R := by ring
      _ ≤ T * R := Nat.mul_le_mul_right R ht⟩

@[simp] theorem row_val {T R : ℕ} (t : Fin T) (r : Fin R) : (row t r).val = t.val * R + r.val := rfl

/-- A sum over an axis of extent `T * R` is the sum over the `T` blocks of the sums over each block's `R` rows. -/
theorem sum_blocks (T R : ℕ) (f : Fin (T * R) → M) :
    ∑ i, f i = ∑ t : Fin T, ∑ r : Fin R, f (row t r) := by
  rw [← Equiv.sum_comp finProdFinEquiv f, Fintype.sum_prod_type]
  refine Finset.sum_congr rfl fun t _ => Finset.sum_congr rfl fun r _ => congrArg f ?_
  apply Fin.ext
  simp only [finProdFinEquiv_apply_val, row_val]
  ring

/-- The same over an axis whose extent `N` is given as a number with `T * R = N` (for instance `20 * 5000 = 100000`):
    the row `t * R + r` is named by its value. -/
theorem sum_blocks_of_eq {N : ℕ} (T R : ℕ) (h : T * R = N) (f : Fin N → M) :
    ∑ i, f i = ∑ t : Fin T, ∑ r : Fin R,
      f ⟨t.val * R + r.val, h ▸ (row t r).isLt⟩ := by
  subst h
  exact sum_blocks T R f

/-- A running total: start from `0`, add `g 0`, then `g 1`, … — what an accumulator holds after `k` steps. -/
def running (g : ℕ → M) : ℕ → M
  | 0 => 0
  | k + 1 => running g k + g k

@[simp] theorem running_zero (g : ℕ → M) : running g 0 = 0 := rfl
@[simp] theorem running_succ (g : ℕ → M) (k : ℕ) : running g (k + 1) = running g k + g k := rfl

/-- After `k` steps the accumulator holds the sum of the first `k` contributions. -/
theorem running_eq_sum_range (g : ℕ → M) (k : ℕ) : running g k = ∑ t ∈ Finset.range k, g t := by
  induction k with
  | zero => simp
  | succ k ih => rw [running_succ, ih, Finset.sum_range_succ]

/-- After all `T` steps: the sum over the `T` blocks. -/
theorem running_eq_sum_fin (g : ℕ → M) (T : ℕ) : running g T = ∑ t : Fin T, g t.val := by
  rw [running_eq_sum_range, Finset.sum_range]

/-- An accumulator fed block sums of `f` ends at the sum of `f` over the whole axis. -/
theorem running_blocks (T R : ℕ) (f : Fin (T * R) → M) (g : ℕ → M)
    (hg : ∀ t : Fin T, g t.val = ∑ r : Fin R, f (row t r)) :
    running g T = ∑ i, f i := by
  rw [running_eq_sum_fin, sum_blocks]
  exact Finset.sum_congr rfl fun t _ => hg t

end Cert.LibBlockSum
-- ==== Proof.LibColumn.lean ====
/-
  Two keepdims-style reshapes read at an index written by coordinates, for any extent and element type: a vector
  kept as a column, [a] -> [a, 1], and a column laid out as a row, [a, 1] -> [1, a].
-/
import Idealize.ShloMosaic.Lib.Pipeline.Value
import Idealize.ShloMosaic.Lib.ValueIdx

namespace Cert.LibColumn

open Idealize.ShloMosaic Idealize.ShloMosaic.ValueIdx

variable {α : Type}

/-- A vector kept as a column reads, at (i, 0), its entry i. -/
theorem cast_col {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid out as a row reads, at (0, i), the column's entry (i, 0). -/
theorem cast_col_row {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

end Cert.LibColumn
-- ==== Proof.KernelIdealValue0.lean ====
/-
  The degree kernel's result, at the ideal values. With A the adjacency matrix as the region finds it, point t = 8 i + k
  reads the block of rows 1024 i .. and columns 1024 k ..; the accumulator after it holds, for row r of the tile,
  the sum of the row's entries over the column tiles 0..k, plus one once the diagonal tile (k = i) has been passed. So
  after the last column tile it holds the whole row's sum plus one, and the block written back is its inverse square
  root: the result array is, at row R, (Σ_J A(R, J) + 1)^(-1/2).
-/
import proofs.«109869_j22351009808763_2_alg».proof.Proof.KernelIdealPieces0
import proofs.«109869_j22351009808763_2_alg».proof.Proof.LibRowOps
import proofs.«109869_j22351009808763_2_alg».proof.Proof.LibBlockSum
import proofs.«109869_j22351009808763_2_alg».proof.Proof.LibColumn
import Idealize.ShloMosaic.Lib.IdealHost
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.LibRowOps Cert.LibBlockSum Cert.LibColumn
open scoped BigOperators

/-! ## The body's arithmetic at an index -/

theorem pay1_0 (y : S1024x1.Idx) : k0_pay1 (F := Ideal) y = 0 := by
  unfold k0_pay1
  simp only [shapeCast_self]
  exact Ideal.ofBits_zero_f32

theorem pay2_0 (v3 : Vec Ideal S1024x1 .f32) (v4 : Vec Ideal S1024x1024 .bf16) (r : Fin 1024) :
    k0_pay2 v3 v4 (ix2 r (0 : Fin 1)) = v3 (ix2 r (0 : Fin 1)) + ∑ j : Fin 1024, v4 (ix2 r j) := by
  unfold k0_pay2
  simp only [shapeCast_self]
  rw [addf_apply, cast_col, rowsum]
  rfl

theorem pay3_0 (v : Vec Ideal S1024x1 .f32) (y : S1024x1.Idx) : k0_pay3 v y = v y + 1 := by
  unfold k0_pay3
  simp only [shapeCast_self]
  rw [addf_apply]
  show v y + Ideal.ofBits .f32 0x3F800000#32 = v y + 1
  rw [Ideal.ofBits_one_f32]

theorem pay4_0 (v : Vec Ideal S1024x1 .f32) (y : S1024x1.Idx) : k0_pay4 v y = Ideal.rsqrt (v y) := by
  unfold k0_pay4
  rfl

/-! ## Blocks as entries of the matrix -/

/-- The matrix entry at natural-number coordinates (zero outside). -/
def aNN (A : S8192x8192.Idx → EReal) (R J : ℕ) : EReal :=
  if h : R < 8192 ∧ J < 8192 then A (ix2 ⟨R, h.1⟩ ⟨J, h.2⟩) else 0

theorem idx0_0 : ∀ t : Fin cfg0.N, win0_0.index t (0 : Fin 2) = t.val / 8 ∧ win0_0.index t (1 : Fin 2) = t.val % 8 :=
  (by decide +kernel : ∀ t : Fin grid0.N, win0_0.index t (0 : Fin 2) = t.val / 8 ∧ win0_0.index t (1 : Fin 2) = t.val % 8)
theorem idx0_1 : ∀ t : Fin cfg0.N, win0_1.index t (0 : Fin 2) = t.val / 8 ∧ win0_1.index t (1 : Fin 2) = 0 :=
  (by decide +kernel : ∀ t : Fin grid0.N, win0_1.index t (0 : Fin 2) = t.val / 8 ∧ win0_1.index t (1 : Fin 2) = 0)

section
variable (V : (c : Dev nD) → (b : Ref sig .tc) → Buf (Elt Ideal) ((c : Thread nD τ).loc b))

/-- Point t's block of the matrix: rows from 1024 (t / 8), columns from 1024 (t % 8). -/
theorem iblk0_apply (c : Dev nD) (t : Fin cfg0.N) (r j : Fin 1024) :
    iblk0 V c 0 t (ix2 r j) = aNN (V c main_v19) (t.val / 8 * 1024 + r.val) (t.val % 8 * 1024 + j.val) := by
  have hN : t.val < 64 := lt_of_lt_of_eq t.isLt (show cfg0.N = 64 from N_0)
  have hr := r.isLt
  have hj := j.isLt
  obtain ⟨e0, e1⟩ := idx0_0 t
  unfold iblk0 aNN
  rw [View.read_apply, dif_pos ⟨by omega, by omega⟩]
  show V c main_v19 _ = V c main_v19 _
  congr 1
  funext a; apply Fin.ext
  match a with
  | ⟨0, _⟩ => show win0_0.index t (0 : Fin 2) * 1024 + 1 * r.val = t.val / 8 * 1024 + r.val; rw [e0]; omega
  | ⟨1, _⟩ => show win0_0.index t (1 : Fin 2) * 1024 + 1 * j.val = t.val % 8 * 1024 + j.val; rw [e1]; omega

/-! ## The accumulator, point by point -/

theorem scr0_rec (c : Dev nD) (t : Fin cfg0.N) (r : Fin 1024) :
    (outsAt0 V c t.val t.isLt).2 (ix2 r (0 : Fin 1))
      = (if t.val % 8 = 0 then 0 else prev0 V c t (ix2 r (0 : Fin 1)))
          + (∑ j : Fin 1024, aNN (V c main_v19) (t.val / 8 * 1024 + r.val) (t.val % 8 * 1024 + j.val))
          + (if t.val % 9 = 0 then 1 else 0) := by
  have hN : t.val < 64 := lt_of_lt_of_eq t.isLt (show cfg0.N = 64 from N_0)
  rw [outsAt0_step]
  by_cases h1 : t.val % 8 = 0
  · have h3 : ¬t.val % 8 = 7 := by omega
    by_cases h2 : t.val % 9 = 0
    · rw [step0_A V c t _ h1 h2 h3]
      dsimp only
      rw [sout0_A_eq, pay3_0, pay2_0, pay1_0, if_pos h1, if_pos h2]
      simp only [iblk0_apply]
    · rw [step0_B V c t _ h1 h2 h3]
      dsimp only
      rw [sout0_B_eq, pay2_0, pay1_0, if_pos h1, if_neg h2, add_zero]
      simp only [iblk0_apply]
  · by_cases h2 : t.val % 9 = 0
    · by_cases h3 : t.val % 8 = 7
      · rw [step0_E V c t _ h1 h2 h3]
        dsimp only
        rw [sout0_E_eq, pay3_0, pay2_0, if_neg h1, if_pos h2]
        simp only [iblk0_apply]
      · rw [step0_C V c t _ h1 h2 h3]
        dsimp only
        rw [sout0_C_eq, pay3_0, pay2_0, if_neg h1, if_pos h2]
        simp only [iblk0_apply]
    · by_cases h3 : t.val % 8 = 7
      · rw [step0_F V c t _ h1 h2 h3]
        dsimp only
        rw [sout0_F_eq, pay2_0, if_neg h1, if_neg h2, add_zero]
        simp only [iblk0_apply]
      · rw [step0_D V c t _ h1 h2 h3]
        dsimp only
        rw [sout0_D_eq, pay2_0, if_neg h1, if_neg h2, add_zero]
        simp only [iblk0_apply]

/-- At the last column tile the block written back is the accumulator's inverse square root. -/
theorem out0_flush (c : Dev nD) (t : Fin cfg0.N) (h3 : t.val % 8 = 7) (y : S1024x1.Idx) :
    (outsAt0 V c t.val t.isLt).1 y = Ideal.rsqrt ((outsAt0 V c t.val t.isLt).2 y) := by
  have h1 : ¬t.val % 8 = 0 := by omega
  rw [outsAt0_step]
  by_cases h2 : t.val % 9 = 0
  · rw [step0_E V c t _ h1 h2 h3]
    dsimp only
    rw [out0_E_eq, sout0_E_eq, pay4_0]
  · rw [step0_F V c t _ h1 h2 h3]
    dsimp only
    rw [out0_F_eq, sout0_F_eq, pay4_0]

end

/-! ## The accumulator in closed form -/

/-- Column tile k's share of row R's sum. -/
def blockSum (A : S8192x8192.Idx → EReal) (R k : ℕ) : EReal := ∑ j : Fin 1024, aNN A R (k * 1024 + j.val)

/-- The accumulator for row R of row tile i after column tile k: the shares of tiles 0..k, and the self-loop's one once
    the diagonal tile is among them. -/
def accD (A : S8192x8192.Idx → EReal) (R i k : ℕ) : EReal :=
  (∑ k' ∈ Finset.range (k + 1), blockSum A R k') + ∑ k' ∈ Finset.range (k + 1), (if i = k' then (1 : EReal) else 0)

theorem accD_zero (A : S8192x8192.Idx → EReal) (R i : ℕ) :
    accD A R i 0 = 0 + blockSum A R 0 + (if i = 0 then 1 else 0) := by
  unfold accD
  rw [Finset.sum_range_one, Finset.sum_range_one, zero_add]

theorem accD_succ (A : S8192x8192.Idx → EReal) (R i k : ℕ) :
    accD A R i (k + 1) = accD A R i k + blockSum A R (k + 1) + (if i = k + 1 then 1 else 0) := by
  unfold accD
  rw [Finset.sum_range_succ _ (k + 1), Finset.sum_range_succ (fun k' => if i = k' then (1 : EReal) else 0) (k + 1),
    add_add_add_comm, ← add_assoc]

/-- After the last column tile: the whole row's sum, plus one. -/
theorem accD_last (A : S8192x8192.Idx → EReal) (R i : ℕ) (hR : R < 8192) (hi : i < 8) :
    accD A R i 7 = (∑ J : Fin 8192, A (ix2 ⟨R, hR⟩ J)) + 1 := by
  unfold accD
  congr 1
  · rw [Finset.sum_range, sum_blocks_of_eq 8 1024 (by norm_num) (fun J : Fin 8192 => A (ix2 (⟨R, hR⟩ : Fin 8192) J))]
    refine Finset.sum_congr rfl fun k _ => Finset.sum_congr rfl fun j _ => ?_
    have hk := k.isLt
    have hj := j.isLt
    unfold aNN
    rw [dif_pos ⟨hR, by omega⟩]
  · rw [Finset.sum_ite_eq, if_pos (Finset.mem_range.mpr hi)]

section
variable (V : (c : Dev nD) → (b : Ref sig .tc) → Buf (Elt Ideal) ((c : Thread nD τ).loc b))

theorem scr0_closed (c : Dev nD) (n : ℕ) : ∀ (hn : n < cfg0.N) (r : Fin 1024),
    (outsAt0 V c n hn).2 (ix2 r (0 : Fin 1)) = accD (V c main_v19) (n / 8 * 1024 + r.val) (n / 8) (n % 8) := by
  induction n with
  | zero =>
    intro hn r
    rw [scr0_rec V c ⟨0, hn⟩ r]
    show (if 0 % 8 = 0 then (0 : EReal) else _) + _ + (if 0 % 9 = 0 then (1 : EReal) else 0) = _
    rw [if_pos rfl, if_pos rfl, show (0 : ℕ) / 8 = 0 from rfl, show (0 : ℕ) % 8 = 0 from rfl, accD_zero, if_pos rfl]
    rfl
  | succ n ih =>
    intro hn r
    have hN : n + 1 < 64 := lt_of_lt_of_eq hn (show cfg0.N = 64 from N_0)
    rw [scr0_rec V c ⟨n + 1, hn⟩ r]
    show (if (n + 1) % 8 = 0 then (0 : EReal) else prev0 V c ⟨n + 1, hn⟩ (ix2 r (0 : Fin 1)))
        + (∑ j : Fin 1024, aNN (V c main_v19) ((n + 1) / 8 * 1024 + r.val) ((n + 1) % 8 * 1024 + j.val))
        + (if (n + 1) % 9 = 0 then (1 : EReal) else 0) = _
    by_cases h1 : (n + 1) % 8 = 0
    · rw [if_pos h1, h1, accD_zero, if_congr (show (n + 1) % 9 = 0 ↔ (n + 1) / 8 = 0 from by omega) rfl rfl]
      rfl
    · have e1 : (n + 1) / 8 = n / 8 := by omega
      have e2 : (n + 1) % 8 = n % 8 + 1 := by omega
      rw [if_neg h1, show prev0 V c ⟨n + 1, hn⟩ = (outsAt0 V c n (Nat.lt_of_succ_lt hn)).2 from rfl,
        ih (Nat.lt_of_succ_lt hn) r, e1, e2, accD_succ,
        if_congr (show (n + 1) % 9 = 0 ↔ n / 8 = n % 8 + 1 from by omega) rfl rfl]
      rfl

/-! ## The result array -/

/-- Row R's degree with the self-loop counted, to the power -1/2. -/
def G0 (A : S8192x8192.Idx → EReal) : S8192x1.Idx → EReal :=
  fun i => Ideal.rsqrt ((∑ J : Fin 8192, A (ix2 (i 0) J)) + 1)

theorem flushed0_eq (c : Dev nD) (t : Fin cfg0.N) (hf : (cfg0.win 1).flush t = true) :
    (dat0 V c).flushed 1 t = ((cfg0.win 1).blk t).view.read (Elt Ideal) (G0 (V c main_v19)) := by
  have h3 : t.val % 8 = 7 := (flush0_1 t).mp hf
  have hN : t.val < 64 := lt_of_lt_of_eq t.isLt (show cfg0.N = 64 from N_0)
  obtain ⟨e0, e1⟩ := idx0_1 t
  show (cfg0.win 1).cut (grid0.coords t) ((dat0 V c).after 1 t) = _
  rw [after0_1]
  funext y
  obtain ⟨r, u, rfl⟩ : ∃ (r : Fin 1024) (u : Fin 1), y = ix2 r u := ⟨y 0, y 1, eq_ix2 y⟩
  obtain rfl : u = 0 := Subsingleton.elim _ _
  have hr := r.isLt
  show (outsAt0 V c t.val t.isLt).1 (ix2 r (0 : Fin 1)) = G0 (V c main_v19) (((cfg0.win 1).blk t).view.emb (ix2 r (0 : Fin 1)))
  have he : (((cfg0.win 1).blk t).view.emb (ix2 r (0 : Fin 1))) 0 = (⟨t.val / 8 * 1024 + r.val, by omega⟩ : Fin 8192) :=
    Fin.ext (by show win0_1.index t (0 : Fin 2) * 1024 + 1 * r.val = t.val / 8 * 1024 + r.val; rw [e0]; omega)
  rw [out0_flush V c t h3, scr0_closed V c t.val t.isLt r, h3, accD_last _ _ _ (by omega) (by omega)]
  unfold G0
  dsimp only
  rw [he]

theorem mem_blk0 (t : Fin cfg0.N) (i : S8192x1.Idx) :
    i ∈ ((cfg0.win 1).blk t).view.set ↔ ∀ a : Fin 2, win0_1.index t a * S1024x1.size a ≤ (i a).val ∧ (i a).val < win0_1.index t a * S1024x1.size a + S1024x1.size a := by
  show i ∈ ((View.whole main_v20).slice (win0_1.rect t)).set ↔ _
  rw [View.set_slice_whole, Rect.mem_set_unit]
  exact Iff.rfl

theorem cover0 (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  have hlt : (i 0).val / 1024 * 8 + 7 < cfg0.N := by rw [show cfg0.N = 64 from N_0]; omega
  refine ⟨⟨(i 0).val / 1024 * 8 + 7, hlt⟩, (flush0_1 _).mpr (by show ((i 0).val / 1024 * 8 + 7) % 8 = 7; omega), ?_⟩
  rw [mem_blk0]
  obtain ⟨e0, e1⟩ := idx0_1 ⟨(i 0).val / 1024 * 8 + 7, hlt⟩
  intro a
  match a with
  | ⟨0, _⟩ =>
    show win0_1.index ⟨(i 0).val / 1024 * 8 + 7, hlt⟩ (0 : Fin 2) * 1024 ≤ (i 0).val ∧ (i 0).val < win0_1.index ⟨(i 0).val / 1024 * 8 + 7, hlt⟩ (0 : Fin 2) * 1024 + 1024
    rw [e0]
    show ((i 0).val / 1024 * 8 + 7) / 8 * 1024 ≤ (i 0).val ∧ (i 0).val < ((i 0).val / 1024 * 8 + 7) / 8 * 1024 + 1024
    omega
  | ⟨1, _⟩ =>
    show win0_1.index ⟨(i 0).val / 1024 * 8 + 7, hlt⟩ (1 : Fin 2) * 1 ≤ (i 1).val ∧ (i 1).val < win0_1.index ⟨(i 0).val / 1024 * 8 + 7, hlt⟩ (1 : Fin 2) * 1 + 1
    rw [e1]
    omega

/-- THE RESULT of the degree kernel's region: every row's degree, self-loop counted, to the power -1/2. -/
theorem final0 (c : Dev nD) : (dat0 V c).arrAt 1 cfg0.N = G0 (V c main_v19) :=
  (dat0 V c).arrAt_eq_of_cover 1 (G0 (V c main_v19)) (flushed0_eq V c) cover0

end

end Cert.KernelIdeal.Frame

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.KernelIdealValue1.lean ====
/-
  The aggregate kernel's result, at the ideal values. With A the adjacency matrix, D the column of inverse square roots
  of the degrees, Dc the same values laid out as a row and H the projected features, as the region finds them, point
  t = 8 i + k reads the block of A at rows 1024 i .. and columns 1024 k .., D's rows 1024 i .., Dc's columns 1024 k ..
  and H's rows 1024 k ..; the accumulator after it holds, for row r of the tile and feature q, the sum over the column
  tiles 0..k of Σ_j ((A · D(row)) · Dc(column)) · H(column, q), plus (D(row) · D(row)) · H(row, q) once the diagonal tile
  (k = i) has been passed. After the last column tile that is the whole row's sum plus the self-loop's term, and it is
  the block written back.
-/
import proofs.«109869_j22351009808763_2_alg».proof.Proof.KernelIdealPieces1
import proofs.«109869_j22351009808763_2_alg».proof.Proof.KernelIdealValue0
import proofs.«109869_j22351009808763_2_alg».proof.Proof.LibMatmul
import Idealize.ShloMosaic.Lib.ValueLayout

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.LibRowOps Cert.LibBlockSum Cert.LibColumn Cert.LibMatmul
open scoped BigOperators

/-! ## The body's arithmetic at an index -/

theorem pay1_1 (y : S1024x128.Idx) : k1_pay1 (F := Ideal) y = 0 := by
  unfold k1_pay1
  simp only [shapeCast_self]
  exact Ideal.ofBits_zero_f32

theorem pay3_1 (hb : FVec Ideal S1024x128 .bf16) (x0 : FVec Ideal S1024x1024 .bf16) (x1 : FVec Ideal S1024x1 .f32)
    (x2 : FVec Ideal S1x1024 .f32) (acc : FVec Ideal S1024x128 .f32) (r : Fin 1024) (q : Fin 128) :
    k1_pay3 hb x0 x1 x2 acc (ix2 r q)
      = acc (ix2 r q) + ∑ j : Fin 1024, ((x0 (ix2 r j) * x1 (ix2 r (0 : Fin 1))) * x2 (ix2 (0 : Fin 1) j)) * hb (ix2 j q) := by
  unfold k1_pay3 k1_pay2
  simp only [shapeCast_self]
  rw [addf_apply]
  dsimp only [Idealize.ShloMosaic.matmul]
  rw [Ideal.matmul_constant_zero_apply,
    plain_sum dot_S1024x1024_S1024x128_S1024x128_1_0_0_1_n_n rfl rfl rfl rfl rfl rfl, MM_apply]
  refine congrArg (acc (ix2 r q) + ·) (Finset.sum_congr rfl fun j _ => ?_)
  rw [truncf_apply, mulf_apply, mulf_apply, extf_apply, col_bcast_apply, broadcastTo_1b_ab_apply]

theorem pay4_1 (hb : FVec Ideal S1024x128 .bf16) (v32 v34 : FVec Ideal S1024x1 .f32) (v37 : FVec Ideal S1024x128 .f32)
    (r : Fin 1024) (q : Fin 128) :
    k1_pay4 hb v32 v34 v37 (ix2 r q)
      = v37 (ix2 r q) + (v32 (ix2 r (0 : Fin 1)) * v34 (ix2 r (0 : Fin 1))) * hb (ix2 r q) := by
  unfold k1_pay4 k1_pay2
  simp only [shapeCast_self]
  rw [addf_apply, mulf_apply, col_bcast_apply, mulf_apply, extf_apply]

/-! ## Blocks as entries of the arrays -/

def dN (D : S8192x1.Idx → EReal) (R : ℕ) : EReal := if h : R < 8192 then D (ix2 ⟨R, h⟩ (0 : Fin 1)) else 0
def dcN (Dc : S1x8192.Idx → EReal) (J : ℕ) : EReal := if h : J < 8192 then Dc (ix2 (0 : Fin 1) ⟨J, h⟩) else 0
def hN (H : S8192x128.Idx → EReal) (J : ℕ) (q : Fin 128) : EReal := if h : J < 8192 then H (ix2 ⟨J, h⟩ q) else 0

theorem idx1_0 : ∀ t : Fin cfg1.N, win1_0.index t (0 : Fin 2) = t.val / 8 ∧ win1_0.index t (1 : Fin 2) = t.val % 8 :=
  (by decide +kernel : ∀ t : Fin grid1.N, win1_0.index t (0 : Fin 2) = t.val / 8 ∧ win1_0.index t (1 : Fin 2) = t.val % 8)
theorem idx1_1 : ∀ t : Fin cfg1.N, win1_1.index t (0 : Fin 2) = t.val / 8 ∧ win1_1.index t (1 : Fin 2) = 0 :=
  (by decide +kernel : ∀ t : Fin grid1.N, win1_1.index t (0 : Fin 2) = t.val / 8 ∧ win1_1.index t (1 : Fin 2) = 0)
theorem idx1_2 : ∀ t : Fin cfg1.N, win1_2.index t (0 : Fin 2) = 0 ∧ win1_2.index t (1 : Fin 2) = t.val % 8 :=
  (by decide +kernel : ∀ t : Fin grid1.N, win1_2.index t (0 : Fin 2) = 0 ∧ win1_2.index t (1 : Fin 2) = t.val % 8)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = t.val / 8 ∧ win1_4.index t (1 : Fin 2) = 0 :=
  (by decide +kernel : ∀ t : Fin grid1.N, win1_4.index t (0 : Fin 2) = t.val / 8 ∧ win1_4.index t (1 : Fin 2) = 0)
/-- The rows of the resident features the body slices out: those of the point's column tile. -/
theorem off1 : ∀ t : Fin cfg1.N, k1_off1 (grid1.coords t) = ![t.val % 8 * 1024, 0] :=
  (by decide +kernel : ∀ t : Fin grid1.N, k1_off1 (grid1.coords t) = ![t.val % 8 * 1024, 0])

section
variable (V : (c : Dev nD) → (b : Ref sig .tc) → Buf (Elt Ideal) ((c : Thread nD τ).loc b))

theorem iblk1_0_apply (c : Dev nD) (t : Fin cfg1.N) (r j : Fin 1024) :
    iblk1 V c 0 t (ix2 r j) = aNN (V c main_v19) (t.val / 8 * 1024 + r.val) (t.val % 8 * 1024 + j.val) := by
  have hN : t.val < 64 := lt_of_lt_of_eq t.isLt (show cfg1.N = 64 from N_1)
  have hr := r.isLt
  have hj := j.isLt
  obtain ⟨e0, e1⟩ := idx1_0 t
  unfold iblk1 aNN
  rw [View.read_apply, dif_pos ⟨by omega, by omega⟩]
  show V c main_v19 _ = V c main_v19 _
  congr 1
  funext a; apply Fin.ext
  match a with
  | ⟨0, _⟩ => show win1_0.index t (0 : Fin 2) * 1024 + 1 * r.val = t.val / 8 * 1024 + r.val; rw [e0]; omega
  | ⟨1, _⟩ => show win1_0.index t (1 : Fin 2) * 1024 + 1 * j.val = t.val % 8 * 1024 + j.val; rw [e1]; omega

theorem iblk1_1_apply (c : Dev nD) (t : Fin cfg1.N) (r : Fin 1024) :
    iblk1 V c 1 t (ix2 r (0 : Fin 1)) = dN (V c main_v20) (t.val / 8 * 1024 + r.val) := by
  have hN : t.val < 64 := lt_of_lt_of_eq t.isLt (show cfg1.N = 64 from N_1)
  have hr := r.isLt
  obtain ⟨e0, e1⟩ := idx1_1 t
  unfold iblk1 dN
  rw [View.read_apply, dif_pos (by omega)]
  show V c main_v20 _ = V c main_v20 _
  congr 1
  funext a; apply Fin.ext
  match a with
  | ⟨0, _⟩ => show win1_1.index t (0 : Fin 2) * 1024 + 1 * r.val = t.val / 8 * 1024 + r.val; rw [e0]; omega
  | ⟨1, _⟩ => show win1_1.index t (1 : Fin 2) * 1 + 1 * 0 = 0; rw [e1]

theorem iblk1_2_apply (c : Dev nD) (t : Fin cfg1.N) (j : Fin 1024) :
    iblk1 V c 2 t (ix2 (0 : Fin 1) j) = dcN (V c main_v21) (t.val % 8 * 1024 + j.val) := by
  have hN : t.val < 64 := lt_of_lt_of_eq t.isLt (show cfg1.N = 64 from N_1)
  have hj := j.isLt
  obtain ⟨e0, e1⟩ := idx1_2 t
  unfold iblk1 dcN
  rw [View.read_apply, dif_pos (by omega)]
  show V c main_v21 _ = V c main_v21 _
  congr 1
  funext a; apply Fin.ext
  match a with
  | ⟨0, _⟩ => show win1_2.index t (0 : Fin 2) * 1 + 1 * 0 = 0; rw [e0]
  | ⟨1, _⟩ => show win1_2.index t (1 : Fin 2) * 1024 + 1 * j.val = t.val % 8 * 1024 + j.val; rw [e1]; omega

/-- The rows of the features the body slices out of the resident array, at (j, q): row 1024 (t % 8) + j. -/
theorem hblk_apply (c : Dev nD) (t : Fin cfg1.N) (j : Fin 1024) (q : Fin 128) :
    View.ld (iblk1 V c 3 t) (Rect.unit (s := S8192x128) (k1_off1 (grid1.coords t)) S1024x128.size (k1_off1_inb (grid1.coords t))) (ix2 j q)
      = hN (V c main_v27) (t.val % 8 * 1024 + j.val) q := by
  have hN' : t.val < 64 := lt_of_lt_of_eq t.isLt (show cfg1.N = 64 from N_1)
  have hj := j.isLt
  obtain ⟨e0, e1⟩ := idx1_3 t
  have ho := off1 t
  unfold View.ld iblk1 hN
  rw [View.read_apply, dif_pos (by omega)]
  show V c main_v27 _ = V c main_v27 _
  congr 1
  funext a; apply Fin.ext
  match a with
  | ⟨0, _⟩ =>
    show win1_3.index t (0 : Fin 2) * 8192 + 1 * (k1_off1 (grid1.coords t) 0 + 1 * j.val) = t.val % 8 * 1024 + j.val
    rw [e0, ho]; show 0 * 8192 + 1 * (t.val % 8 * 1024 + 1 * j.val) = _; omega
  | ⟨1, _⟩ =>
    show win1_3.index t (1 : Fin 2) * 128 + 1 * (k1_off1 (grid1.coords t) 1 + 1 * q.val) = q.val
    rw [e1, ho]; show 0 * 128 + 1 * (0 + 1 * q.val) = _; omega

/-! ## The accumulator, point by point -/

theorem scr1_rec (c : Dev nD) (t : Fin cfg1.N) (r : Fin 1024) (q : Fin 128) :
    (outsAt1 V c t.val t.isLt).2 (ix2 r q)
      = (if t.val % 8 = 0 then 0 else prev1 V c t (ix2 r q))
          + (∑ j : Fin 1024, ((aNN (V c main_v19) (t.val / 8 * 1024 + r.val) (t.val % 8 * 1024 + j.val)
                * dN (V c main_v20) (t.val / 8 * 1024 + r.val)) * dcN (V c main_v21) (t.val % 8 * 1024 + j.val))
              * hN (V c main_v27) (t.val % 8 * 1024 + j.val) q)
          + (if t.val % 9 = 0 then (dN (V c main_v20) (t.val / 8 * 1024 + r.val) * dN (V c main_v20) (t.val / 8 * 1024 + r.val))
              * hN (V c main_v27) (t.val % 8 * 1024 + r.val) q else 0) := by
  have hN' : t.val < 64 := lt_of_lt_of_eq t.isLt (show cfg1.N = 64 from N_1)
  rw [outsAt1_step]
  by_cases h1 : t.val % 8 = 0
  · have h3 : ¬t.val % 8 = 7 := by omega
    by_cases h2 : t.val % 9 = 0
    · rw [step1_A V c t _ h1 h2 h3]
      dsimp only
      rw [sout1_A_eq, pay4_1, pay3_1, pay1_1, if_pos h1, if_pos h2]
      simp only [iblk1_0_apply, iblk1_1_apply, iblk1_2_apply]
      exact congrArg₂ (· + ·) (congrArg₂ (· + ·) rfl (Finset.sum_congr rfl fun j _ => congrArg (_ * ·) (hblk_apply V c t j q)))
        (congrArg (_ * ·) (hblk_apply V c t r q))
    · rw [step1_B V c t _ h1 h2 h3]
      dsimp only
      rw [sout1_B_eq, pay3_1, pay1_1, if_pos h1, if_neg h2, add_zero]
      simp only [iblk1_0_apply, iblk1_1_apply, iblk1_2_apply]
      exact congrArg₂ (· + ·) rfl (Finset.sum_congr rfl fun j _ => congrArg (_ * ·) (hblk_apply V c t j q))
  · by_cases h2 : t.val % 9 = 0
    · by_cases h3 : t.val % 8 = 7
      · rw [step1_E V c t _ h1 h2 h3]
        dsimp only
        rw [sout1_E_eq, pay4_1, pay3_1, if_neg h1, if_pos h2]
        simp only [iblk1_0_apply, iblk1_1_apply, iblk1_2_apply]
        exact congrArg₂ (· + ·) (congrArg₂ (· + ·) rfl (Finset.sum_congr rfl fun j _ => congrArg (_ * ·) (hblk_apply V c t j q)))
          (congrArg (_ * ·) (hblk_apply V c t r q))
      · rw [step1_C V c t _ h1 h2 h3]
        dsimp only
        rw [sout1_C_eq, pay4_1, pay3_1, if_neg h1, if_pos h2]
        simp only [iblk1_0_apply, iblk1_1_apply, iblk1_2_apply]
        exact congrArg₂ (· + ·) (congrArg₂ (· + ·) rfl (Finset.sum_congr rfl fun j _ => congrArg (_ * ·) (hblk_apply V c t j q)))
          (congrArg (_ * ·) (hblk_apply V c t r q))
    · by_cases h3 : t.val % 8 = 7
      · rw [step1_F V c t _ h1 h2 h3]
        dsimp only
        rw [sout1_F_eq, pay3_1, if_neg h1, if_neg h2, add_zero]
        simp only [iblk1_0_apply, iblk1_1_apply, iblk1_2_apply]
        exact congrArg₂ (· + ·) rfl (Finset.sum_congr rfl fun j _ => congrArg (_ * ·) (hblk_apply V c t j q))
      · rw [step1_D V c t _ h1 h2 h3]
        dsimp only
        rw [sout1_D_eq, pay3_1, if_neg h1, if_neg h2, add_zero]
        simp only [iblk1_0_apply, iblk1_1_apply, iblk1_2_apply]
        exact congrArg₂ (· + ·) rfl (Finset.sum_congr rfl fun j _ => congrArg (_ * ·) (hblk_apply V c t j q))

/-- At the last column tile the block written back is the accumulator. -/
theorem out1_flush (c : Dev nD) (t : Fin cfg1.N) (h3 : t.val % 8 = 7) :
    (outsAt1 V c t.val t.isLt).1 = (outsAt1 V c t.val t.isLt).2 := by
  have h1 : ¬t.val % 8 = 0 := by omega
  rw [outsAt1_step]
  by_cases h2 : t.val % 9 = 0
  · rw [step1_E V c t _ h1 h2 h3]
    dsimp only
    rw [out1_E_eq, sout1_E_eq]
  · rw [step1_F V c t _ h1 h2 h3]
    dsimp only
    rw [out1_F_eq, sout1_F_eq]

end

/-! ## The accumulator in closed form -/

/-- Column tile k's share of the product's entry (row R, feature q). -/
def blockM (A : S8192x8192.Idx → EReal) (D : S8192x1.Idx → EReal) (Dc : S1x8192.Idx → EReal) (H : S8192x128.Idx → EReal)
    (R : ℕ) (q : Fin 128) (k : ℕ) : EReal :=
  ∑ j : Fin 1024, ((aNN A R (k * 1024 + j.val) * dN D R) * dcN Dc (k * 1024 + j.val)) * hN H (k * 1024 + j.val) q

/-- The self-loop's term as the diagonal tile k adds it for row rr of the tile. -/
def selfM (D : S8192x1.Idx → EReal) (H : S8192x128.Idx → EReal) (R rr : ℕ) (q : Fin 128) (k : ℕ) : EReal :=
  (dN D R * dN D R) * hN H (k * 1024 + rr) q

def accM (A : S8192x8192.Idx → EReal) (D : S8192x1.Idx → EReal) (Dc : S1x8192.Idx → EReal) (H : S8192x128.Idx → EReal)
    (R rr : ℕ) (q : Fin 128) (i k : ℕ) : EReal :=
  (∑ k' ∈ Finset.range (k + 1), blockM A D Dc H R q k')
    + ∑ k' ∈ Finset.range (k + 1), (if i = k' then selfM D H R rr q k' else 0)

theorem accM_zero (A : S8192x8192.Idx → EReal) (D : S8192x1.Idx → EReal) (Dc : S1x8192.Idx → EReal) (H : S8192x128.Idx → EReal)
    (R rr : ℕ) (q : Fin 128) (i : ℕ) :
    accM A D Dc H R rr q i 0 = 0 + blockM A D Dc H R q 0 + (if i = 0 then selfM D H R rr q 0 else 0) := by
  unfold accM
  rw [Finset.sum_range_one, Finset.sum_range_one, zero_add]

theorem accM_succ (A : S8192x8192.Idx → EReal) (D : S8192x1.Idx → EReal) (Dc : S1x8192.Idx → EReal) (H : S8192x128.Idx → EReal)
    (R rr : ℕ) (q : Fin 128) (i k : ℕ) :
    accM A D Dc H R rr q i (k + 1)
      = accM A D Dc H R rr q i k + blockM A D Dc H R q (k + 1) + (if i = k + 1 then selfM D H R rr q (k + 1) else 0) := by
  unfold accM
  rw [Finset.sum_range_succ _ (k + 1), Finset.sum_range_succ (fun k' => if i = k' then selfM D H R rr q k' else 0) (k + 1),
    add_add_add_comm, ← add_assoc]

/-- After the last column tile: the whole row's sum, plus the self-loop's term. -/
theorem accM_last (A : S8192x8192.Idx → EReal) (D : S8192x1.Idx → EReal) (Dc : S1x8192.Idx → EReal) (H : S8192x128.Idx → EReal)
    (i : ℕ) (r : Fin 1024) (q : Fin 128) (hi : i < 8) (hR : i * 1024 + r.val < 8192) :
    accM A D Dc H (i * 1024 + r.val) r.val q i 7
      = (∑ J : Fin 8192, ((A (ix2 ⟨i * 1024 + r.val, hR⟩ J) * D (ix2 ⟨i * 1024 + r.val, hR⟩ (0 : Fin 1))) * Dc (ix2 (0 : Fin 1) J)) * H (ix2 J q))
        + (D (ix2 ⟨i * 1024 + r.val, hR⟩ (0 : Fin 1)) * D (ix2 ⟨i * 1024 + r.val, hR⟩ (0 : Fin 1))) * H (ix2 ⟨i * 1024 + r.val, hR⟩ q) := by
  unfold accM
  congr 1
  · rw [Finset.sum_range, sum_blocks_of_eq 8 1024 (by norm_num)
      (fun J : Fin 8192 => ((A (ix2 (⟨i * 1024 + r.val, hR⟩ : Fin 8192) J) * D (ix2 (⟨i * 1024 + r.val, hR⟩ : Fin 8192) (0 : Fin 1))) * Dc (ix2 (0 : Fin 1) J)) * H (ix2 J q))]
    refine Finset.sum_congr rfl fun k _ => Finset.sum_congr rfl fun j _ => ?_
    have hk := k.isLt
    have hj := j.isLt
    unfold aNN dN dcN hN
    rw [dif_pos ⟨hR, by omega⟩, dif_pos hR, dif_pos (by omega), dif_pos (by omega)]
  · rw [Finset.sum_ite_eq, if_pos (Finset.mem_range.mpr hi)]
    unfold selfM dN hN
    rw [dif_pos hR, dif_pos hR]

section
variable (V : (c : Dev nD) → (b : Ref sig .tc) → Buf (Elt Ideal) ((c : Thread nD τ).loc b))

theorem scr1_closed (c : Dev nD) (n : ℕ) : ∀ (hn : n < cfg1.N) (r : Fin 1024) (q : Fin 128),
    (outsAt1 V c n hn).2 (ix2 r q)
      = accM (V c main_v19) (V c main_v20) (V c main_v21) (V c main_v27) (n / 8 * 1024 + r.val) r.val q (n / 8) (n % 8) := by
  induction n with
  | zero =>
    intro hn r q
    rw [scr1_rec V c ⟨0, hn⟩ r q]
    show (if 0 % 8 = 0 then (0 : EReal) else _) + _ + (if 0 % 9 = 0 then _ else (0 : EReal)) = _
    rw [if_pos rfl, if_pos rfl, show (0 : ℕ) / 8 = 0 from rfl, show (0 : ℕ) % 8 = 0 from rfl, accM_zero, if_pos rfl]
    rfl
  | succ n ih =>
    intro hn r q
    have hN : n + 1 < 64 := lt_of_lt_of_eq hn (show cfg1.N = 64 from N_1)
    rw [scr1_rec V c ⟨n + 1, hn⟩ r q]
    show (if (n + 1) % 8 = 0 then (0 : EReal) else prev1 V c ⟨n + 1, hn⟩ (ix2 r q))
        + blockM (V c main_v19) (V c main_v20) (V c main_v21) (V c main_v27) ((n + 1) / 8 * 1024 + r.val) q ((n + 1) % 8)
        + (if (n + 1) % 9 = 0 then selfM (V c main_v20) (V c main_v27) ((n + 1) / 8 * 1024 + r.val) r.val q ((n + 1) % 8) else (0 : EReal)) = _
    by_cases h1 : (n + 1) % 8 = 0
    · rw [if_pos h1, h1, accM_zero, if_congr (show (n + 1) % 9 = 0 ↔ (n + 1) / 8 = 0 from by omega) rfl rfl]
    · have e1 : (n + 1) / 8 = n / 8 := by omega
      have e2 : (n + 1) % 8 = n % 8 + 1 := by omega
      rw [if_neg h1, show prev1 V c ⟨n + 1, hn⟩ = (outsAt1 V c n (Nat.lt_of_succ_lt hn)).2 from rfl,
        ih (Nat.lt_of_succ_lt hn) r q, e1, e2, accM_succ,
        if_congr (show (n + 1) % 9 = 0 ↔ n / 8 = n % 8 + 1 from by omega) rfl rfl]

/-! ## The result array -/

/-- The normalized aggregation with the self-loop kept apart. -/
def G1 (A : S8192x8192.Idx → EReal) (D : S8192x1.Idx → EReal) (Dc : S1x8192.Idx → EReal) (H : S8192x128.Idx → EReal) :
    S8192x128.Idx → EReal :=
  fun i => (∑ J : Fin 8192, ((A (ix2 (i 0) J) * D (ix2 (i 0) (0 : Fin 1))) * Dc (ix2 (0 : Fin 1) J)) * H (ix2 J (i 1)))
    + (D (ix2 (i 0) (0 : Fin 1)) * D (ix2 (i 0) (0 : Fin 1))) * H (ix2 (i 0) (i 1))

theorem flushed1_eq (c : Dev nD) (t : Fin cfg1.N) (hf : (cfg1.win 4).flush t = true) :
    (dat1 V c).flushed 4 t
      = ((cfg1.win 4).blk t).view.read (Elt Ideal) (G1 (V c main_v19) (V c main_v20) (V c main_v21) (V c main_v27)) := by
  have h3 : t.val % 8 = 7 := (flush1_4 t).mp hf
  have hN : t.val < 64 := lt_of_lt_of_eq t.isLt (show cfg1.N = 64 from N_1)
  obtain ⟨e0, e1⟩ := idx1_4 t
  show (cfg1.win 4).cut (grid1.coords t) ((dat1 V c).after 4 t) = _
  rw [after1_4, out1_flush V c t h3]
  funext y
  obtain ⟨r, q, rfl⟩ : ∃ (r : Fin 1024) (q : Fin 128), y = ix2 r q := ⟨y 0, y 1, eq_ix2 y⟩
  have hr := r.isLt
  show (outsAt1 V c t.val t.isLt).2 (ix2 r q)
    = G1 (V c main_v19) (V c main_v20) (V c main_v21) (V c main_v27) (((cfg1.win 4).blk t).view.emb (ix2 r q))
  have he0 : (((cfg1.win 4).blk t).view.emb (ix2 r q)) 0 = (⟨t.val / 8 * 1024 + r.val, by omega⟩ : Fin 8192) :=
    Fin.ext (by show win1_4.index t (0 : Fin 2) * 1024 + 1 * r.val = t.val / 8 * 1024 + r.val; rw [e0]; omega)
  have he1 : (((cfg1.win 4).blk t).view.emb (ix2 r q)) 1 = q :=
    Fin.ext (by show win1_4.index t (1 : Fin 2) * 128 + 1 * q.val = q.val; rw [e1]; omega)
  rw [scr1_closed V c t.val t.isLt r q, h3, accM_last _ _ _ _ _ r q (by omega) (by omega)]
  unfold G1
  dsimp only
  rw [he0, he1]

theorem mem_blk1 (t : Fin cfg1.N) (i : S8192x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v28).slice (win1_4.rect t)).set ↔ _
  rw [View.set_slice_whole, Rect.mem_set_unit]
  exact Iff.rfl

theorem cover1 (i : S8192x128.Idx) : ∃ t : Fin cfg1.N, (cfg1.win 4).flush t = true ∧ i ∈ ((cfg1.win 4).blk t).view.set := by
  have hi0 : (i 0).val < 8192 := (i 0).isLt
  have hi1 : (i 1).val < 128 := (i 1).isLt
  have hlt : (i 0).val / 1024 * 8 + 7 < cfg1.N := by rw [show cfg1.N = 64 from N_1]; omega
  refine ⟨⟨(i 0).val / 1024 * 8 + 7, hlt⟩, (flush1_4 _).mpr (by show ((i 0).val / 1024 * 8 + 7) % 8 = 7; omega), ?_⟩
  rw [mem_blk1]
  obtain ⟨e0, e1⟩ := idx1_4 ⟨(i 0).val / 1024 * 8 + 7, hlt⟩
  intro a
  match a with
  | ⟨0, _⟩ =>
    show win1_4.index ⟨(i 0).val / 1024 * 8 + 7, hlt⟩ (0 : Fin 2) * 1024 ≤ (i 0).val ∧ (i 0).val < win1_4.index ⟨(i 0).val / 1024 * 8 + 7, hlt⟩ (0 : Fin 2) * 1024 + 1024
    rw [e0]
    show ((i 0).val / 1024 * 8 + 7) / 8 * 1024 ≤ (i 0).val ∧ (i 0).val < ((i 0).val / 1024 * 8 + 7) / 8 * 1024 + 1024
    omega
  | ⟨1, _⟩ =>
    show win1_4.index ⟨(i 0).val / 1024 * 8 + 7, hlt⟩ (1 : Fin 2) * 128 ≤ (i 1).val ∧ (i 1).val < win1_4.index ⟨(i 0).val / 1024 * 8 + 7, hlt⟩ (1 : Fin 2) * 128 + 128
    rw [e1]
    omega

/-- THE RESULT of the aggregate kernel's region. -/
theorem final1 (c : Dev nD) :
    (dat1 V c).arrAt 4 cfg1.N = G1 (V c main_v19) (V c main_v20) (V c main_v21) (V c main_v27) :=
  (dat1 V c).arrAt_eq_of_cover 4 _ (flushed1_eq V c) cover1

end

end Cert.KernelIdeal.Frame

end
-- ==== Proof.KernelIdealRun.lean ====
/-
  The whole run of `KernelIdeal`'s @main: host operations, the degree kernel's region, host operations, the aggregate
  kernel's region. The contents of the core's buffers at each boundary are a fold from the launch memory (a stretch
  of host operations applies them; a region leaves its arrays at what its write-backs leave); each region is entered
  from every unscoped buffer at the boundary's contents and left at the next boundary's; the last boundary's contents
  are read off the final state. No host operation and no region writes an argument array.
-/
import proofs.«109869_j22351009808763_2_alg».proof.Proof.KernelIdealFrame0
import proofs.«109869_j22351009808763_2_alg».proof.Proof.KernelIdealFrame1
import proofs.«109869_j22351009808763_2_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer no host operation of the first stretch writes holds its launch contents at the first region's entry. -/
theorem W1_of (c : Dev nD) (r : Ref sig .tc) (h : r ∉ hostOps0_W) : W1 m ρ c r = W0 m ρ c r :=
  StableHlo.after_of_writes_sub hostOps0 _ hostOps0_writes h
/-- A buffer no host operation of the second stretch writes is as the first region left it at the second's entry. -/
theorem W3_of (c : Dev nD) (r : Ref sig .tc) (h : r ∉ hostOps1_W) : W3 m ρ c r = W2 m ρ c r :=
  StableHlo.after_of_writes_sub hostOps1 _ hostOps1_writes h

theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <|
    (W2_of_ne m ρ c main_arg3 (by decide)).trans <| (W1_of m ρ c main_arg3 (by decide)).trans rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The degree kernel's region over the thread state: its arrays split out of the unscoped buffers at entry and put
    back at the exit contents; the generator register into the invariant and out; the scratch's named contents forgotten at
    the end; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The aggregate kernel's region over the thread state: its arrays split out of the unscoped buffers at entry and put
    back at the exit contents; the generator register into the invariant and out; the scratch's named contents forgotten at
    the end; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and every
    final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Frame

end
-- ==== Proof.KernelIdealHost.lean ====
/-
  The kernel program's host side, at the ideal values: what its host operations hand the two regions and what the
  second region's result is as a function of the argument arrays. The first stretch builds the adjacency matrix from
  the edge list (ones set at the index pairs over zeros); the first region turns it into the column D of the degrees'
  inverse square roots; the second stretch lays D out as a row and computes the features x · Wᵀ + b; the second region
  aggregates.
-/
import proofs.«109869_j22351009808763_2_alg».proof.Proof.KernelIdealValue1
import proofs.«109869_j22351009808763_2_alg».proof.Proof.KernelIdealRun

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Idealize.ShloMosaic.StableHlo

/-! ## The host stretches' functions -/

/-- One row of the edge list as a column of indices, a negative entry wrapped by the extent 8192. -/
def colK0 (x1 : (⟨S2x262144, .i32⟩ : BufTy).Contents (Elt F)) : (⟨S262144x1, .i32⟩ : BufTy).Contents (Elt F) :=
  broadcastInDim S262144x1 ![0] bcast_S262144_S262144x1_0 (select (cmpi .slt (shapeCast _ (extractStridedSlice S1x262144 ![0, 0] x1 slices_S2x262144_S1x262144_0_0) shapeCasts_S1x262144_S262144) (broadcastInDim S262144 ![] bcast_S_S262144 (constantI S_ 32 0#32))) (addi (shapeCast _ (extractStridedSlice S1x262144 ![0, 0] x1 slices_S2x262144_S1x262144_0_0) shapeCasts_S1x262144_S262144) (broadcastInDim S262144 ![] bcast_S_S262144 (constantI S_ 32 8192#32))) (shapeCast _ (extractStridedSlice S1x262144 ![0, 0] x1 slices_S2x262144_S1x262144_0_0) shapeCasts_S1x262144_S262144))
def colK1 (x1 : (⟨S2x262144, .i32⟩ : BufTy).Contents (Elt F)) : (⟨S262144x1, .i32⟩ : BufTy).Contents (Elt F) :=
  broadcastInDim S262144x1 ![0] bcast_S262144_S262144x1_0 (select (cmpi .slt (shapeCast _ (extractStridedSlice S1x262144 ![1, 0] x1 slices_S2x262144_S1x262144_1_0) shapeCasts_S1x262144_S262144) (broadcastInDim S262144 ![] bcast_S_S262144 (constantI S_ 32 0#32))) (addi (shapeCast _ (extractStridedSlice S1x262144 ![1, 0] x1 slices_S2x262144_S1x262144_1_0) shapeCasts_S1x262144_S262144) (broadcastInDim S262144 ![] bcast_S_S262144 (constantI S_ 32 8192#32))) (shapeCast _ (extractStridedSlice S1x262144 ![1, 0] x1 slices_S2x262144_S1x262144_1_0) shapeCasts_S1x262144_S262144))
/-- The index pairs. -/
def pairsK (x1 : (⟨S2x262144, .i32⟩ : BufTy).Contents (Elt F)) : (⟨S262144x2, .i32⟩ : BufTy).Contents (Elt F) :=
  concatenate S262144x2 1 [⟨S262144x1, colK0 x1⟩, ⟨S262144x1, colK1 x1⟩] concatenates_S262144x1_S262144x1_S262144x2_d1
/-- The adjacency matrix: ones set at the index pairs over zeros. -/
def adjK (x1 : (⟨S2x262144, .i32⟩ : BufTy).Contents (Elt F)) : (⟨S8192x8192, .bf16⟩ : BufTy).Contents (Elt F) :=
  Host.scatter scatter_S8192x8192_S262144x2_S262144_n_01_01_1 (fun _ b => b)
    (broadcastInDim S8192x8192 ![] bcast_S_S8192x8192 (constant S_ .bf16 0x0000#16)) (pairsK x1)
    (broadcastInDim S262144 ![] bcast_S_S262144 (constant S_ .bf16 0x3F80#16))
/-- x · Wᵀ + b, narrowed. -/
def linK (x0 : (⟨S8192x128, .f32⟩ : BufTy).Contents (Elt F)) (x2 : (⟨S128x128, .f32⟩ : BufTy).Contents (Elt F)) (x3 : (⟨S128, .f32⟩ : BufTy).Contents (Elt F)) :
    (⟨S8192x128, .bf16⟩ : BufTy).Contents (Elt F) :=
  truncf .bf16 (addf (Host.dotGeneral dot_S8192x128_S128x128_S8192x128_1_0_0_1_n_n none x0 (transpose S128x128 [1, 0] x2 transposes_S128x128_S128x128_1_0))
    (broadcastInDim S8192x128 ![0, 1] bcast_S1x128_S8192x128_0_1 (broadcastInDim S1x128 ![1] bcast_S128_S1x128_1 x3))) bitsLt_bf16_f32

variable (m : (ℓ : Loc nD τ sig) → Buf (Elt F) ℓ) (ρ : Dev nD → PrngReg)

set_option maxRecDepth 8192 in
set_option maxHeartbeats 2000000 in
theorem W1_v19 (c : Dev nD) : W1 m ρ c (main_v19 : DevRef τ sig) = adjK (m ((c.tc : Thread nD τ).loc main_arg1)) := by
  show after hostOps0 (W0 m ρ c) (main_v19 : DevRef τ sig) = _
  unfold adjK pairsK colK0 colK1
  after_results_simp
  all_goals rfl

set_option maxRecDepth 8192 in
theorem W3_v21 (c : Dev nD) : W3 m ρ c (main_v21 : DevRef τ sig) = shapeCast _ (W2 m ρ c (main_v20 : DevRef τ sig)) shapeCasts_S8192x1_S1x8192 := by
  show after hostOps1 (W2 m ρ c) (main_v21 : DevRef τ sig) = _
  after_results_simp
  all_goals rfl

set_option maxRecDepth 8192 in
theorem W3_v27 (c : Dev nD) : W3 m ρ c (main_v27 : DevRef τ sig)
    = linK (W2 m ρ c (main_arg0 : DevRef τ sig)) (W2 m ρ c (main_arg2 : DevRef τ sig)) (W2 m ρ c (main_arg3 : DevRef τ sig)) := by
  show after hostOps1 (W2 m ρ c) (main_v27 : DevRef τ sig) = _
  unfold linK
  after_results_simp
  all_goals rfl

theorem W2_arg (c : Dev nD) (r : Ref sig .tc) (h : r ∈ [main_arg0, main_arg1, main_arg2, main_arg3]) :
    W2 m ρ c (Proc.devRef .tc r) = m ((c.tc : Thread nD τ).loc r) := by
  simp only [List.mem_cons, List.mem_nil_iff, or_false] at h
  rcases h with rfl | rfl | rfl | rfl
  · exact (W2_of_ne m ρ c main_arg0 (by decide)).trans ((W1_of m ρ c main_arg0 (by decide)).trans rfl)
  · exact (W2_of_ne m ρ c main_arg1 (by decide)).trans ((W1_of m ρ c main_arg1 (by decide)).trans rfl)
  · exact (W2_of_ne m ρ c main_arg2 (by decide)).trans ((W1_of m ρ c main_arg2 (by decide)).trans rfl)
  · exact (W2_of_ne m ρ c main_arg3 (by decide)).trans ((W1_of m ρ c main_arg3 (by decide)).trans rfl)

end Cert.KernelIdeal.Frame

namespace Cert.KernelIdeal.Frame

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- The adjacency matrix reaches both regions as built. -/
theorem V1_v19 (c : Dev nD) : V1 m ρ c main_v19 = adjK (m ((c.tc : Thread nD τ).loc main_arg1)) := W1_v19 m ρ c

theorem W2_v19 (c : Dev nD) : W2 m ρ c (Proc.devRef .tc main_v19) = adjK (m ((c.tc : Thread nD τ).loc main_arg1)) :=
  (W2_arr m ρ c 0).trans (((dat0 (V1 m ρ) c).arrAt_in 0 rfl _).trans ((A_eq0 (V1 m ρ) c 0).trans (V1_v19 m ρ c)))

/-- The first region's result: the degrees' inverse square roots. -/
theorem W2_v20 (c : Dev nD) : W2 m ρ c (Proc.devRef .tc main_v20) = G0 (adjK (m ((c.tc : Thread nD τ).loc main_arg1))) :=
  (W2_arr m ρ c 1).trans ((final0 (V1 m ρ) c).trans (congrArg G0 (V1_v19 m ρ c)))

/-- THE KERNEL PROGRAM'S RESULT as a function of the argument arrays. -/
theorem kernel_result (c : Dev nD) :
    W4 m ρ c (Proc.devRef .tc main_v28)
      = G1 (adjK (m ((c.tc : Thread nD τ).loc main_arg1))) (G0 (adjK (m ((c.tc : Thread nD τ).loc main_arg1))))
          (shapeCast _ (G0 (adjK (m ((c.tc : Thread nD τ).loc main_arg1)))) shapeCasts_S8192x1_S1x8192)
          (linK (m ((c.tc : Thread nD τ).loc main_arg0)) (m ((c.tc : Thread nD τ).loc main_arg2)) (m ((c.tc : Thread nD τ).loc main_arg3))) := by
  refine (W4_arr m ρ c 4).trans ((final1 (V3 m ρ) c).trans ?_)
  have e19 : V3 m ρ c main_v19 = adjK (m ((c.tc : Thread nD τ).loc main_arg1)) :=
    (W3_of m ρ c main_v19 (by decide)).trans (W2_v19 m ρ c)
  have e20 : V3 m ρ c main_v20 = G0 (adjK (m ((c.tc : Thread nD τ).loc main_arg1))) :=
    (W3_of m ρ c main_v20 (by decide)).trans (W2_v20 m ρ c)
  have e21 : V3 m ρ c main_v21 = shapeCast _ (G0 (adjK (m ((c.tc : Thread nD τ).loc main_arg1)))) shapeCasts_S8192x1_S1x8192 := by
    refine (W3_v21 m ρ c).trans ?_
    rw [show W2 m ρ c (main_v20 : DevRef τ sig) = G0 (adjK (m ((c.tc : Thread nD τ).loc main_arg1))) from W2_v20 m ρ c]
  have e27 : V3 m ρ c main_v27 = linK (m ((c.tc : Thread nD τ).loc main_arg0)) (m ((c.tc : Thread nD τ).loc main_arg2)) (m ((c.tc : Thread nD τ).loc main_arg3)) := by
    refine (W3_v27 m ρ c).trans ?_
    rw [show W2 m ρ c (main_arg0 : DevRef τ sig) = _ from W2_arg m ρ c main_arg0 (by decide),
      show W2 m ρ c (main_arg2 : DevRef τ sig) = _ from W2_arg m ρ c main_arg2 (by decide),
      show W2 m ρ c (main_arg3 : DevRef τ sig) = _ from W2_arg m ρ c main_arg3 (by decide)]
  rw [e19, e20, e21, e27]

/-- THE KERNEL PROGRAM'S RUN at the ideal values: the result buffer at that function, the arguments unchanged. -/
theorem run_value : θ_run defs (onTc (τ := τ) (main (F := Ideal))) ⟨m, fun _ => 0, ρ⟩ (fun r => ∀ c : Dev nD,
      r.2.mem ((c.tc : Thread nD τ).loc main_v28)
          = G1 (adjK (m ((c.tc : Thread nD τ).loc main_arg1))) (G0 (adjK (m ((c.tc : Thread nD τ).loc main_arg1))))
              (shapeCast _ (G0 (adjK (m ((c.tc : Thread nD τ).loc main_arg1)))) shapeCasts_S8192x1_S1x8192)
              (linK (m ((c.tc : Thread nD τ).loc main_arg0)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v28 (by decide))).trans (kernel_result m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Frame

end
-- ==== Proof.RefOps.lean ====
/-
  The reference's @main as a straight line of 57 host operations, taken in three stretches: the first builds the
  adjacency matrix, the second the degree and its guarded power -1/2, the third the normalized matrix, x · Wᵀ + b and
  their product.
-/
import proofs.«109869_j22351009808763_2_alg».proof.ReferenceIdeal
import proofs.«109869_j22351009808763_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The three stretches -/

abbrev opsA : List (HloOp τ sig (Elt F)) :=
  [ nullary main_cst (constant S_ .f32 0x00000000#32),
    unary main_cst main_v0 (broadcastInDim S8192x8192 ![] bcast_S_S8192x8192 : (⟨S_, .f32⟩ : BufTy).Contents (Elt F) → (⟨S8192x8192, .f32⟩ : BufTy).Contents (Elt F)),
    unary main_arg1 main_v1 ((extractStridedSlice S1x262144 ![0, 0] · slices_S2x262144_S1x262144_0_0) : (⟨S2x262144, .i32⟩ : BufTy).Contents (Elt F) → (⟨S1x262144, .i32⟩ : BufTy).Contents (Elt F)),
    reshape main_v1 main_v2 rfl shapeCasts_S1x262144_S262144,
    unary main_arg1 main_v3 ((extractStridedSlice S1x262144 ![1, 0] · slices_S2x262144_S1x262144_1_0) : (⟨S2x262144, .i32⟩ : BufTy).Contents (Elt F) → (⟨S1x262144, .i32⟩ : BufTy).Contents (Elt F)),
    reshape main_v3 main_v4 rfl shapeCasts_S1x262144_S262144,
    nullary main_c (constantI S_ 32 0#32),
    unary main_c main_v5 (broadcastInDim S262144 ![] bcast_S_S262144 : (⟨S_, .i32⟩ : BufTy).Contents (Elt F) → (⟨S262144, .i32⟩ : BufTy).Contents (Elt F)),
    binary main_v2 main_v5 main_v6 (cmpi .slt : (⟨S262144, .i32⟩ : BufTy).Contents (Elt F) → (⟨S262144, .i32⟩ : BufTy).Contents (Elt F) → (⟨S262144, .i1⟩ : BufTy).Contents (Elt F)),
    nullary main_c_0 (constantI S_ 32 8192#32),
    unary main_c_0 main_v7 (broadcastInDim S262144 ![] bcast_S_S262144 : (⟨S_, .i32⟩ : BufTy).Contents (Elt F) → (⟨S262144, .i32⟩ : BufTy).Contents (Elt F)),
    binary main_v2 main_v7 main_v8 (addi : (⟨S262144, .i32⟩ : BufTy).Contents (Elt F) → (⟨S262144, .i32⟩ : BufTy).Contents (Elt F) → (⟨S262144, .i32⟩ : BufTy).Contents (Elt F)),
    ternary main_v6 main_v8 main_v2 main_v9 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    nullary main_c_1 (constantI S_ 32 0#32),
    unary main_c_1 main_v10 (broadcastInDim S262144 ![] bcast_S_S262144 : (⟨S_, .i32⟩ : BufTy).Contents (Elt F) → (⟨S262144, .i32⟩ : BufTy).Contents (Elt F)),
    binary main_v4 main_v10 main_v11 (cmpi .slt : (⟨S262144, .i32⟩ : BufTy).Contents (Elt F) → (⟨S262144, .i32⟩ : BufTy).Contents (Elt F) → (⟨S262144, .i1⟩ : BufTy).Contents (Elt F)),
    nullary main_c_2 (constantI S_ 32 8192#32),
    unary main_c_2 main_v12 (broadcastInDim S262144 ![] bcast_S_S262144 : (⟨S_, .i32⟩ : BufTy).Contents (Elt F) → (⟨S262144, .i32⟩ : BufTy).Contents (Elt F)),
    binary main_v4 main_v12 main_v13 (addi : (⟨S262144, .i32⟩ : BufTy).Contents (Elt F) → (⟨S262144, .i32⟩ : BufTy).Contents (Elt F) → (⟨S262144, .i32⟩ : BufTy).Contents (Elt F)),
    ternary main_v11 main_v13 main_v4 main_v14 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v9 main_v15 (broadcastInDim S262144x1 ![0] bcast_S262144_S262144x1_0 : (⟨S262144, .i32⟩ : BufTy).Contents (Elt F) → (⟨S262144x1, .i32⟩ : BufTy).Contents (Elt F)),
    unary main_v14 main_v16 (broadcastInDim S262144x1 ![0] bcast_S262144_S262144x1_0 : (⟨S262144, .i32⟩ : BufTy).Contents (Elt F) → (⟨S262144x1, .i32⟩ : BufTy).Contents (Elt F)),
    binary main_v15 main_v16 main_v17 ((fun a b => concatenate S262144x2 1 [⟨S262144x1, a⟩, ⟨S262144x1, b⟩] concatenates_S262144x1_S262144x1_S262144x2_d1) : (⟨S262144x1, .i32⟩ : BufTy).Contents (Elt F) → (⟨S262144x1, .i32⟩ : BufTy).Contents (Elt F) → (⟨S262144x2, .i32⟩ : BufTy).Contents (Elt F)),
    nullary main_cst_3 (constant S_ .f32 0x3F800000#32),
    unary main_cst_3 main_v18 (broadcastInDim S262144 ![] bcast_S_S262144 : (⟨S_, .f32⟩ : BufTy).Contents (Elt F) → (⟨S262144, .f32⟩ : BufTy).Contents (Elt F)),
    ternary main_v0 main_v17 main_v18 main_v19 ((fun x i u => Host.scatter scatter_S8192x8192_S262144x2_S262144_n_01_01_1 (fun _ b => b) x i u) : (⟨S8192x8192, .f32⟩ : BufTy).Contents (Elt F) → (⟨S262144x2, .i32⟩ : BufTy).Contents (Elt F) → (⟨S262144, .f32⟩ : BufTy).Contents (Elt F) → (⟨S8192x8192, .f32⟩ : BufTy).Contents (Elt F)) ]

abbrev opsB : List (HloOp τ sig (Elt F)) :=
  [ nullary main_v20 (iotaInDim S8192x8192 32 0),
    nullary main_v21 (iotaInDim S8192x8192 32 1),
    nullary main_c_4 (constantI S_ 32 0#32),
    unary main_c_4 main_v22 (broadcastInDim S8192x8192 ![] bcast_S_S8192x8192 : (⟨S_, .i32⟩ : BufTy).Contents (Elt F) → (⟨S8192x8192, .i32⟩ : BufTy).Contents (Elt F)),
    binary main_v20 main_v22 main_v23 (addi : (⟨S8192x8192, .i32⟩ : BufTy).Contents (Elt F) → (⟨S8192x8192, .i32⟩ : BufTy).Contents (Elt F) → (⟨S8192x8192, .i32⟩ : BufTy).Contents (Elt F)),
    binary main_v23 main_v21 main_v24 (cmpi .eq : (⟨S8192x8192, .i32⟩ : BufTy).Contents (Elt F) → (⟨S8192x8192, .i32⟩ : BufTy).Contents (Elt F) → (⟨S8192x8192, .i1⟩ : BufTy).Contents (Elt F)),
    unary main_v24 main_v25 (uitofp .f32 : (⟨S8192x8192, .i1⟩ : BufTy).Contents (Elt F) → (⟨S8192x8192, .f32⟩ : BufTy).Contents (Elt F)),
    binary main_v19 main_v25 main_v26 (addf : (⟨S8192x8192, .f32⟩ : BufTy).Contents (Elt F) → (⟨S8192x8192, .f32⟩ : BufTy).Contents (Elt F) → (⟨S8192x8192, .f32⟩ : BufTy).Contents (Elt F)),
    nullary main_cst_5 (constant S_ .f32 0x00000000#32),
    binary main_v26 main_cst_5 main_v27 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v27 main_v28 (broadcastInDim S8192x1 ![0] bcast_S8192_S8192x1_0 : (⟨S8192, .f32⟩ : BufTy).Contents (Elt F) → (⟨S8192x1, .f32⟩ : BufTy).Contents (Elt F)),
    nullary main_cst_6 (constant S_ .f32 0x00000000#32),
    unary main_cst_6 main_v29 (broadcastInDim S8192x1 ![] bcast_S_S8192x1 : (⟨S_, .f32⟩ : BufTy).Contents (Elt F) → (⟨S8192x1, .f32⟩ : BufTy).Contents (Elt F)),
    binary main_v28 main_v29 main_v30 (cmpf .ogt : (⟨S8192x1, .f32⟩ : BufTy).Contents (Elt F) → (⟨S8192x1, .f32⟩ : BufTy).Contents (Elt F) → (⟨S8192x1, .i1⟩ : BufTy).Contents (Elt F)),
    nullary main_cst_7 (constant S_ .f32 0xBF000000#32),
    unary main_cst_7 main_v31 (broadcastInDim S8192x1 ![] bcast_S_S8192x1 : (⟨S_, .f32⟩ : BufTy).Contents (Elt F) → (⟨S8192x1, .f32⟩ : BufTy).Contents (Elt F)),
    binary main_v28 main_v31 main_v32 (Host.powf : (⟨S8192x1, .f32⟩ : BufTy).Contents (Elt F) → (⟨S8192x1, .f32⟩ : BufTy).Contents (Elt F) → (⟨S8192x1, .f32⟩ : BufTy).Contents (Elt F)),
    nullary main_cst_8 (constant S_ .f32 0x00000000#32),
    unary main_cst_8 main_v33 (broadcastInDim S8192x1 ![] bcast_S_S8192x1 : (⟨S_, .f32⟩ : BufTy).Contents (Elt F) → (⟨S8192x1, .f32⟩ : BufTy).Contents (Elt F)),
    TRef.ternary (TRef.of (T := ⟨S8192x1, .i1⟩) main_v30) (TRef.of (T := ⟨S8192x1, .f32⟩) main_v32) (TRef.of (T := ⟨S8192x1, .f32⟩) main_v33) (TRef.of (T := ⟨S8192x1, .f32⟩) main_v34) select ]

abbrev opsC : List (HloOp τ sig (Elt F)) :=
  [ unary main_v34 main_v35 ((transpose S1x8192 [1, 0] · transposes_S8192x1_S1x8192_1_0) : (⟨S8192x1, .f32⟩ : BufTy).Contents (Elt F) → (⟨S1x8192, .f32⟩ : BufTy).Contents (Elt F)),
    unary main_v34 main_v36 (broadcastInDim S8192x8192 ![0, 1] bcast_S8192x1_S8192x8192_0_1 : (⟨S8192x1, .f32⟩ : BufTy).Contents (Elt F) → (⟨S8192x8192, .f32⟩ : BufTy).Contents (Elt F)),
    unary main_v35 main_v37 (broadcastInDim S8192x8192 ![0, 1] bcast_S1x8192_S8192x8192_0_1 : (⟨S1x8192, .f32⟩ : BufTy).Contents (Elt F) → (⟨S8192x8192, .f32⟩ : BufTy).Contents (Elt F)),
    binary main_v36 main_v37 main_v38 (mulf : (⟨S8192x8192, .f32⟩ : BufTy).Contents (Elt F) → (⟨S8192x8192, .f32⟩ : BufTy).Contents (Elt F) → (⟨S8192x8192, .f32⟩ : BufTy).Contents (Elt F)),
    binary main_v38 main_v26 main_v39 (mulf : (⟨S8192x8192, .f32⟩ : BufTy).Contents (Elt F) → (⟨S8192x8192, .f32⟩ : BufTy).Contents (Elt F) → (⟨S8192x8192, .f32⟩ : BufTy).Contents (Elt F)),
    unary main_arg2 main_v40 ((transpose S128x128 [1, 0] · transposes_S128x128_S128x128_1_0) : (⟨S128x128, .f32⟩ : BufTy).Contents (Elt F) → (⟨S128x128, .f32⟩ : BufTy).Contents (Elt F)),
    binary main_arg0 main_v40 main_v41 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg3 main_v42 (broadcastInDim S1x128 ![1] bcast_S128_S1x128_1 : (⟨S128, .f32⟩ : BufTy).Contents (Elt F) → (⟨S1x128, .f32⟩ : BufTy).Contents (Elt F)),
    unary main_v42 main_v43 (broadcastInDim S8192x128 ![0, 1] bcast_S1x128_S8192x128_0_1 : (⟨S1x128, .f32⟩ : BufTy).Contents (Elt F) → (⟨S8192x128, .f32⟩ : BufTy).Contents (Elt F)),
    binary main_v41 main_v43 main_v44 (addf : (⟨S8192x128, .f32⟩ : BufTy).Contents (Elt F) → (⟨S8192x128, .f32⟩ : BufTy).Contents (Elt F) → (⟨S8192x128, .f32⟩ : BufTy).Contents (Elt F)),
    binary main_v39 main_v44 main_v45 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)) ]

abbrev ops : List (HloOp τ sig (Elt F)) := opsA ++ (opsB ++ opsC)

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., nullary_bufs_sub .., nullary_bufs_sub .., nullary_bufs_sub .., unary_bufs_sub .., binary_bufs_sub .., binary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., nullary_bufs_sub .., unary_bufs_sub .., ternary_bufs_sub .., unary_bufs_sub .., unary_bufs_sub .., unary_bufs_sub .., binary_bufs_sub .., binary_bufs_sub .., unary_bufs_sub .., binary_bufs_sub .., unary_bufs_sub .., unary_bufs_sub .., binary_bufs_sub .., binary_bufs_sub ..⟩

end Cert.ReferenceIdeal.RefRun

end
-- ==== Proof.RefRun.lean ====
/-
  The reference's run: every weakly fair execution ends with each buffer at the fold of the 57 operations' results
  over its launch contents; read at the result buffer, that fold is the composition of the three stretches'
  functions — the adjacency matrix from the edge list; the degree's guarded power -1/2 from the matrix plus the
  identity; the normalized matrix times x · Wᵀ + b.
-/
import proofs.«109869_j22351009808763_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two stretches is the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## What each stretch computes -/

/-- One row of the edge list as a column of indices, a negative entry wrapped by the extent 8192. -/
def col0 (x1 : (⟨S2x262144, .i32⟩ : BufTy).Contents (Elt F)) : (⟨S262144x1, .i32⟩ : BufTy).Contents (Elt F) :=
  broadcastInDim S262144x1 ![0] bcast_S262144_S262144x1_0 (select (cmpi .slt (shapeCast _ (extractStridedSlice S1x262144 ![0, 0] x1 slices_S2x262144_S1x262144_0_0) shapeCasts_S1x262144_S262144) (broadcastInDim S262144 ![] bcast_S_S262144 (constantI S_ 32 0#32))) (addi (shapeCast _ (extractStridedSlice S1x262144 ![0, 0] x1 slices_S2x262144_S1x262144_0_0) shapeCasts_S1x262144_S262144) (broadcastInDim S262144 ![] bcast_S_S262144 (constantI S_ 32 8192#32))) (shapeCast _ (extractStridedSlice S1x262144 ![0, 0] x1 slices_S2x262144_S1x262144_0_0) shapeCasts_S1x262144_S262144))
def col1 (x1 : (⟨S2x262144, .i32⟩ : BufTy).Contents (Elt F)) : (⟨S262144x1, .i32⟩ : BufTy).Contents (Elt F) :=
  broadcastInDim S262144x1 ![0] bcast_S262144_S262144x1_0 (select (cmpi .slt (shapeCast _ (extractStridedSlice S1x262144 ![1, 0] x1 slices_S2x262144_S1x262144_1_0) shapeCasts_S1x262144_S262144) (broadcastInDim S262144 ![] bcast_S_S262144 (constantI S_ 32 0#32))) (addi (shapeCast _ (extractStridedSlice S1x262144 ![1, 0] x1 slices_S2x262144_S1x262144_1_0) shapeCasts_S1x262144_S262144) (broadcastInDim S262144 ![] bcast_S_S262144 (constantI S_ 32 8192#32))) (shapeCast _ (extractStridedSlice S1x262144 ![1, 0] x1 slices_S2x262144_S1x262144_1_0) shapeCasts_S1x262144_S262144))
/-- The index pairs. -/
def pairs (x1 : (⟨S2x262144, .i32⟩ : BufTy).Contents (Elt F)) : (⟨S262144x2, .i32⟩ : BufTy).Contents (Elt F) :=
  concatenate S262144x2 1 [⟨S262144x1, col0 x1⟩, ⟨S262144x1, col1 x1⟩] concatenates_S262144x1_S262144x1_S262144x2_d1
/-- The adjacency matrix: ones set at the index pairs over zeros. -/
def adj (x1 : (⟨S2x262144, .i32⟩ : BufTy).Contents (Elt F)) : (⟨S8192x8192, .f32⟩ : BufTy).Contents (Elt F) :=
  Host.scatter scatter_S8192x8192_S262144x2_S262144_n_01_01_1 (fun _ b => b)
    (broadcastInDim S8192x8192 ![] bcast_S_S8192x8192 (constant S_ .f32 0x00000000#32)) (pairs x1)
    (broadcastInDim S262144 ![] bcast_S_S262144 (constant S_ .f32 0x3F800000#32))
/-- The identity matrix: one where the row's number is the column's. -/
def eye : (⟨S8192x8192, .f32⟩ : BufTy).Contents (Elt F) :=
  uitofp .f32 (cmpi .eq (addi (iotaInDim S8192x8192 32 0) (broadcastInDim S8192x8192 ![] bcast_S_S8192x8192 (constantI S_ 32 0#32))) (iotaInDim S8192x8192 32 1))
/-- The degree, as a column: every row's sum. -/
def deg (a : (⟨S8192x8192, .f32⟩ : BufTy).Contents (Elt F)) : (⟨S8192x1, .f32⟩ : BufTy).Contents (Elt F) :=
  broadcastInDim S8192x1 ![0] bcast_S8192_S8192x1_0 (Host.reduceAdd a (constant S_ .f32 0x00000000#32) reducesTo_S8192x8192_S8192_d1 h_S_)
/-- The degree to the power -1/2 where it is positive, zero elsewhere. -/
def nrm (a : (⟨S8192x8192, .f32⟩ : BufTy).Contents (Elt F)) : (⟨S8192x1, .f32⟩ : BufTy).Contents (Elt F) :=
  select (cmpf .ogt (deg a) (broadcastInDim S8192x1 ![] bcast_S_S8192x1 (constant S_ .f32 0x00000000#32)))
    (Host.powf (deg a) (broadcastInDim S8192x1 ![] bcast_S_S8192x1 (constant S_ .f32 0xBF000000#32)))
    (broadcastInDim S8192x1 ![] bcast_S_S8192x1 (constant S_ .f32 0x00000000#32))
/-- x · Wᵀ + b. -/
def lin (x0 : (⟨S8192x128, .f32⟩ : BufTy).Contents (Elt F)) (x2 : (⟨S128x128, .f32⟩ : BufTy).Contents (Elt F)) (x3 : (⟨S128, .f32⟩ : BufTy).Contents (Elt F)) :
    (⟨S8192x128, .f32⟩ : BufTy).Contents (Elt F) :=
  addf (Host.dotGeneral dot_S8192x128_S128x128_S8192x128_1_0_0_1_n_n none x0 (transpose S128x128 [1, 0] x2 transposes_S128x128_S128x128_1_0))
    (broadcastInDim S8192x128 ![0, 1] bcast_S1x128_S8192x128_0_1 (broadcastInDim S1x128 ![1] bcast_S128_S1x128_1 x3))
/-- The normalized matrix times the projected features. -/
def out (a : (⟨S8192x8192, .f32⟩ : BufTy).Contents (Elt F)) (n : (⟨S8192x1, .f32⟩ : BufTy).Contents (Elt F)) (h : (⟨S8192x128, .f32⟩ : BufTy).Contents (Elt F)) :
    (⟨S8192x128, .f32⟩ : BufTy).Contents (Elt F) :=
  Host.dotGeneral dot_S8192x8192_S8192x128_S8192x128_1_0_0_1_n_n none
    (mulf (mulf (broadcastInDim S8192x8192 ![0, 1] bcast_S8192x1_S8192x8192_0_1 n)
        (broadcastInDim S8192x8192 ![0, 1] bcast_S1x8192_S8192x8192_0_1 (transpose S1x8192 [1, 0] n transposes_S8192x1_S1x8192_1_0))) a) h

set_option maxRecDepth 8192 in
set_option maxHeartbeats 2000000 in
theorem stageA (V : Valuation τ sig (Elt F)) :
    after opsA V (main_v19 : DevRef τ sig) = adj (V (main_arg1 : DevRef τ sig)) := by
  unfold adj pairs col0 col1
  after_results_simp
  all_goals rfl

set_option maxRecDepth 8192 in
set_option maxHeartbeats 2000000 in
theorem stageB26 (V : Valuation τ sig (Elt F)) :
    after opsB V (main_v26 : DevRef τ sig) = addf (V (main_v19 : DevRef τ sig)) eye := by
  unfold eye
  after_results_simp
  all_goals rfl

set_option maxRecDepth 8192 in
set_option maxHeartbeats 2000000 in
theorem stageB34 (V : Valuation τ sig (Elt F)) :
    after opsB V (main_v34 : DevRef τ sig) = nrm (addf (V (main_v19 : DevRef τ sig)) eye) := by
  unfold nrm deg eye
  after_results_simp
  all_goals rfl

set_option maxRecDepth 8192 in
set_option maxHeartbeats 2000000 in
theorem stageC (V : Valuation τ sig (Elt F)) :
    after opsC V (main_v45 : DevRef τ sig)
      = out (V (main_v26 : DevRef τ sig)) (V (main_v34 : DevRef τ sig))
          (lin (V (main_arg0 : DevRef τ sig)) (V (main_arg2 : DevRef τ sig)) (V (main_arg3 : DevRef τ sig))) := by
  unfold out lin
  after_results_simp
  all_goals rfl

theorem keepA (V : Valuation τ sig (Elt F)) (r : Ref sig .tc) (h : r ∈ [main_arg0, main_arg1, main_arg2, main_arg3]) :
    after opsA V (r : DevRef τ sig) = V (r : DevRef τ sig) := by
  simp only [List.mem_cons, List.mem_nil_iff, or_false] at h
  rcases h with rfl | rfl | rfl | rfl <;> (after_results_simp <;> rfl)

theorem keepB (V : Valuation τ sig (Elt F)) (r : Ref sig .tc) (h : r ∈ [main_arg0, main_arg1, main_arg2, main_arg3]) :
    after opsB V (r : DevRef τ sig) = V (r : DevRef τ sig) := by
  simp only [List.mem_cons, List.mem_nil_iff, or_false] at h
  rcases h with rfl | rfl | rfl | rfl <;> (after_results_simp <;> rfl)

theorem keepC (V : Valuation τ sig (Elt F)) (r : Ref sig .tc) (h : r ∈ [main_arg0, main_arg1, main_arg2, main_arg3]) :
    after opsC V (r : DevRef τ sig) = V (r : DevRef τ sig) := by
  simp only [List.mem_cons, List.mem_nil_iff, or_false] at h
  rcases h with rfl | rfl | rfl | rfl <;> (after_results_simp <;> rfl)

theorem keep (V : Valuation τ sig (Elt F)) (r : Ref sig .tc) (h : r ∈ [main_arg0, main_arg1, main_arg2, main_arg3]) :
    after ops V (r : DevRef τ sig) = V (r : DevRef τ sig) := by
  unfold ops
  rw [after_append, after_append, keepC _ r h, keepB _ r h, keepA _ r h]

/-- The fold at the result buffer: the three stretches composed. -/
theorem result_eq (V : Valuation τ sig (Elt F)) :
    after ops V (main_v45 : DevRef τ sig)
      = out (addf (adj (V (main_arg1 : DevRef τ sig))) eye) (nrm (addf (adj (V (main_arg1 : DevRef τ sig))) eye))
          (lin (V (main_arg0 : DevRef τ sig)) (V (main_arg2 : DevRef τ sig)) (V (main_arg3 : DevRef τ sig))) := by
  unfold ops
  rw [after_append, after_append, stageC, stageB26, stageB34, stageA,
    keepB _ main_arg0 (by decide), keepB _ main_arg2 (by decide), keepB _ main_arg3 (by decide),
    keepA _ main_arg0 (by decide), keepA _ main_arg2 (by decide), keepA _ main_arg3 (by decide)]

/-- THE RUN: every weakly fair execution terminates, the result buffer at the composed function of the arguments'
    launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45)
          = out (addf (adj (m ((c.tc : Thread nD τ).loc main_arg1))) eye) (nrm (addf (adj (m ((c.tc : Thread nD τ).loc main_arg1))) eye))
              (lin (m ((c.tc : Thread nD τ).loc main_arg0)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v45).trans (result_eq _),
      (h c main_arg0).trans (keep _ main_arg0 (by decide)),
      (h c main_arg1).trans (keep _ main_arg1 (by decide)),
      (h c main_arg2).trans (keep _ main_arg2 (by decide)),
      (h c main_arg3).trans (keep _ main_arg3 (by decide))⟩)
    (run_seq scopedRefs_eq scopedSems_eq defs main (fun _ => ops) main_eq (fun _ => ops_sub) m ρ)

end Cert.ReferenceIdeal.RefRun

end
-- ==== Proof.LibReal.lean ====
/-
  General lemmas: arrays of extended reals all of whose entries are real numbers, and the operations that keep
  them so — sums, products, differences, finite sums, maxima, quotients by a nonzero real, and the inverse square
  root of a positive real.
-/
import Idealize.ShloMosaic.PureOps.Ideal

noncomputable section

namespace Cert.LibReal

open Idealize.ShloMosaic

/-- An extended real that is a real number. -/
def IsR (x : EReal) : Prop := ∃ r : ℝ, x = (r : EReal)

/-- Every entry of an array is a real number. -/
def AllR {ι : Type} (v : ι → EReal) : Prop := ∀ i, IsR (v i)

theorem isR_coe (r : ℝ) : IsR (r : EReal) := ⟨r, rfl⟩
theorem isR_zero : IsR (0 : EReal) := ⟨0, rfl⟩
theorem isR_one : IsR (1 : EReal) := ⟨1, rfl⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.max {x y : EReal} (hx : IsR x) (hy : IsR y) : IsR (max x y) := by
  rcases max_choice x y with h | h <;> rw [h] <;> assumption

theorem IsR.sum {ι : Type} (s : Finset ι) (f : ι → EReal) (h : ∀ i ∈ s, IsR (f i)) : IsR (∑ i ∈ s, f i) := by
  classical
  induction s using Finset.induction_on with
  | empty => simpa using isR_zero
  | insert i s hi ih =>
    rw [Finset.sum_insert hi]
    exact (h i (Finset.mem_insert_self i s)).add (ih fun j hj => h j (Finset.mem_insert_of_mem hj))

/-- A quotient by a nonzero real. -/
theorem IsR.div {x : EReal} (hx : IsR x) {n : ℝ} (hn : n ≠ 0) : IsR (Ideal.div x (n : EReal)) := by
  obtain ⟨a, rfl⟩ := hx
  rw [Ideal.div_coe hn]
  exact (isR_coe a).mul (isR_coe _)

/-- The inverse square root of a positive real is a real. -/
theorem isR_rsqrt {r : ℝ} (hr : 0 < r) : IsR (Ideal.rsqrt (r : EReal)) := by
  rw [Ideal.rsqrt_coe, if_neg (not_lt.mpr hr.le), if_neg hr.ne']
  exact isR_coe _

/-- A sum of ones over a finite set is a nonnegative real. -/
theorem sum_ones {ι : Type} (s : Finset ι) : ∃ r : ℝ, 0 ≤ r ∧ (∑ _i ∈ s, ((1 : ℝ) : EReal)) = (r : EReal) := by
  classical
  induction s using Finset.induction_on with
  | empty => exact ⟨0, le_refl _, by simp⟩
  | insert i s hi ih =>
    obtain ⟨r, hr, e⟩ := ih
    refine ⟨1 + r, by linarith, ?_⟩
    rw [Finset.sum_insert hi, e, EReal.coe_add]

end Cert.LibReal

end
-- ==== Proof.LibSymNorm.lean ====
/-
  Symmetric normalization of a graph with self-loops, two ways.

  For a 0/1 matrix a (one where there is an edge) and real features h, let deg i = Σ_j a i j + 1 and d i = deg i ^ (-1/2).
  Adding the identity to a and multiplying the product matrix (d i · d j) · (a + I) i j into h gives, at (i, q),
      Σ_j ((d i · d j) · (a i j + I i j)) · h j q .
  Keeping the self-loop apart gives
      Σ_j (a i j · d i · d j) · h j q  +  (d i · d i) · h i q .
  The two agree: every quantity is a real number (deg i ≥ 1, so its power -1/2 is the real 1/√deg i, and the guard
  "deg i > 0" always holds), and over the reals the product distributes over a i j + I i j; the identity's column
  picks out the term j = i.
-/
import Idealize.ShloMosaic.PureOps.Ideal
import proofs.«109869_j22351009808763_2_alg».proof.Proof.LibReal

noncomputable section

open scoped BigOperators

namespace Cert.LibSymNorm

open Idealize.ShloMosaic Cert.LibReal

/-- An entry that is zero or one. -/
def Bit (x : EReal) : Prop := x = 0 ∨ x = 1

theorem Bit.isR {x : EReal} (h : Bit x) : ∃ r : ℝ, 0 ≤ r ∧ x = (r : EReal) := by
  rcases h with rfl | rfl
  · exact ⟨0, le_refl _, rfl⟩
  · exact ⟨1, zero_le_one, rfl⟩

/-- A finite sum of zeros and ones is a nonnegative real. -/
theorem sum_bits {ι : Type} (s : Finset ι) (f : ι → EReal) (hf : ∀ i, Bit (f i)) :
    ∃ r : ℝ, 0 ≤ r ∧ ∑ i ∈ s, f i = (r : EReal) := by
  classical
  induction s using Finset.induction_on with
  | empty => exact ⟨0, le_refl _, by simp⟩
  | insert i s hi ih =>
    obtain ⟨r, hr, e⟩ := ih
    obtain ⟨b, hb, eb⟩ := (hf i).isR
    refine ⟨b + r, add_nonneg hb hr, ?_⟩
    rw [Finset.sum_insert hi, e, eb, EReal.coe_add]

/-- The power -1/2 of a positive real is its inverse square root. -/
theorem pow_neg_half {r : ℝ} (hr : 0 < r) :
    Ideal.pow (r : EReal) ((-(1 / 2) : ℝ) : EReal) = Ideal.rsqrt (r : EReal) := by
  rw [Ideal.pow_coe_coe, Ideal.rsqrt_coe, if_neg (not_lt.mpr hr.le), if_neg hr.ne']
  congr 1
  show (r ^ (-(1 / 2) : ℝ) : ℝ) = (Real.sqrt r)⁻¹
  rw [Real.sqrt_eq_rpow, Real.rpow_neg hr.le]

section
variable {ι κ : Type} [Fintype ι] [DecidableEq ι]

/-- The identity matrix's entry. -/
def eyeE (i j : ι) : EReal := if i = j then 1 else 0

/-- The degree with the self-loop counted apart: the row's sum, plus one. -/
def degK (a : ι → ι → EReal) (i : ι) : EReal := (∑ j, a i j) + 1

/-- Its inverse square root. -/
def dK (a : ι → ι → EReal) (i : ι) : EReal := Ideal.rsqrt (degK a i)

/-- The degree of the matrix with the identity added, summed from zero. -/
def degR (a : ι → ι → EReal) (i : ι) : EReal := 0 + ∑ j, (a i j + eyeE i j)

/-- Its guarded power: `mh` is the exponent. -/
def nR (a : ι → ι → EReal) (mh : EReal) (i : ι) : EReal := if 0 < degR a i then Ideal.pow (degR a i) mh else 0

theorem degR_eq (a : ι → ι → EReal) (i : ι) : degR a i = degK a i := by
  unfold degR degK eyeE
  rw [zero_add, Finset.sum_add_distrib, Finset.sum_ite_eq, if_pos (Finset.mem_univ i)]

theorem degK_real (a : ι → ι → EReal) (ha : ∀ i j, Bit (a i j)) (i : ι) : ∃ r : ℝ, 0 < r ∧ degK a i = (r : EReal) := by
  obtain ⟨r, hr, e⟩ := sum_bits Finset.univ (a i) (ha i)
  refine ⟨r + 1, by linarith, ?_⟩
  unfold degK
  rw [e, EReal.coe_add, EReal.coe_one]

theorem dK_real (a : ι → ι → EReal) (ha : ∀ i j, Bit (a i j)) (i : ι) : IsR (dK a i) := by
  obtain ⟨r, hr, e⟩ := degK_real a ha i
  unfold dK
  rw [e]
  exact isR_rsqrt hr

theorem nR_eq (a : ι → ι → EReal) (ha : ∀ i j, Bit (a i j)) (mh : EReal) (hmh : mh = ((-(1 / 2) : ℝ) : EReal)) (i : ι) :
    nR a mh i = dK a i := by
  obtain ⟨r, hr, e⟩ := degK_real a ha i
  unfold nR dK
  rw [degR_eq, e, if_pos (by exact_mod_cast hr), hmh, pow_neg_half hr]

/-- THE LAW: the product with the identity added is the product without it plus the self-loop's term. -/
theorem sym_norm_eq (a : ι → ι → EReal) (ha : ∀ i j, Bit (a i j)) (h : ι → κ → EReal) (hh : ∀ j q, IsR (h j q))
    (mh : EReal) (hmh : mh = ((-(1 / 2) : ℝ) : EReal)) (i : ι) (q : κ) :
    ∑ j, ((nR a mh i * nR a mh j) * (a i j + eyeE i j)) * h j q
      = (∑ j, (a i j * dK a i * dK a j) * h j q) + (dK a i * dK a i) * h i q := by
  have hd : ∀ j, ∃ r : ℝ, dK a j = (r : EReal) := fun j => dK_real a ha j
  choose d hd using hd
  have hα : ∀ j, ∃ r : ℝ, a i j = (r : EReal) := fun j => by obtain ⟨r, _, e⟩ := (ha i j).isR; exact ⟨r, e⟩
  choose α hα using hα
  have hη : ∀ j, ∃ r : ℝ, h j q = (r : EReal) := fun j => hh j q
  choose η hη using hη
  have hterm : ∀ j, ((nR a mh i * nR a mh j) * (a i j + eyeE i j)) * h j q
      = (a i j * dK a i * dK a j) * h j q + (if i = j then (dK a i * dK a i) * h i q else 0) := by
    intro j
    rw [nR_eq a ha mh hmh i, nR_eq a ha mh hmh j, hd i, hd j, hα j, hη j]
    unfold eyeE
    by_cases hij : i = j
    · subst hij
      rw [if_pos rfl, if_pos rfl, hη i]
      exact_mod_cast (by ring : (d i * d i * (α i + 1)) * η i = α i * d i * d i * η i + d i * d i * η i)
    · rw [if_neg hij, if_neg hij, add_zero, add_zero]
      exact_mod_cast (by ring : (d i * d j * α j) * η j = α j * d i * d j * η j)
  rw [Finset.sum_congr rfl (fun j _ => hterm j), Finset.sum_add_distrib, Finset.sum_ite_eq, if_pos (Finset.mem_univ i)]

end

end Cert.LibSymNorm

end
-- ==== Proof.RefValue.lean ====
/-
  The reference read at an index, at the ideal values. With a the adjacency matrix it builds, the identity's entry
  (R, J) is one when R = J and zero otherwise; the degree of row R is 0 + Σ_J (a + I)(R, J); the normalizing vector is the
  degree to the power -1/2 where the degree is positive and zero elsewhere; and the result at (R, q) is
  Σ_J ((n R · n J) · (a + I)(R, J)) · h(J, q), with h = x · Wᵀ + b. The features at (J, q) are Σ_k x(J, k) · W(q, k) + b(q).
-/
import proofs.«109869_j22351009808763_2_alg».proof.Proof.RefRun
import proofs.«109869_j22351009808763_2_alg».proof.Proof.LibMatmul
import proofs.«109869_j22351009808763_2_alg».proof.Proof.LibSymNorm
import Idealize.ShloMosaic.Lib.IdealHost
import Idealize.ShloMosaic.Lib.ValueLayout
import Idealize.ShloMosaic.Lib.Pipeline.Value
import Idealize.ShloMosaic.PureOps.Ideal.Laws

noncomputable section

open scoped BigOperators

namespace Cert.ReferenceIdeal.RefRun

open Cert.ReferenceIdeal Cert.ReferenceIdeal.Gen Idealize.ShloMosaic Idealize.ShloMosaic.TcCoe Idealize.ShloMosaic.ValueIdx
open Cert.LibMatmul Cert.LibSymNorm Cert.LibReal

/-- The word of -0.5. -/
theorem ofBits_neg_half : Ideal.ofBits .f32 0xBF000000#32 = ((-(1 / 2) : ℝ) : EReal) := by
  simp [Ideal.ofBits, Ideal.ieee, -EReal.coe_mul, -EReal.coe_neg]; norm_num

/-- Two numbers below 2^32 are equal as 32-bit words exactly when they are equal. -/
theorem cmpi_eq_ofNat (a b : ℕ) (ha : a < 4294967296) (hb : b < 4294967296) :
    ((IntOp.cmpi .eq (BitVec.ofNat 32 a + 0#32) (BitVec.ofNat 32 b)).toNat : ℝ) = if a = b then 1 else 0 := by
  by_cases h : a = b
  · subst h; simp [IntOp.cmpi]
  · have hne : BitVec.ofNat 32 a ≠ BitVec.ofNat 32 b := fun e => h (by
      have := congrArg BitVec.toNat e
      simp only [BitVec.toNat_ofNat] at this
      omega)
    simp [IntOp.cmpi, hne, h]

/-- The identity matrix's entry. -/
theorem eye_apply (R J : Fin 8192) : eye (F := Ideal) (ix2 R J) = eyeE R J := by
  have hR := R.isLt
  have hJ := J.isLt
  have h : eye (F := Ideal) (ix2 R J)
      = (((IntOp.cmpi .eq (BitVec.ofNat 32 R.val + 0#32) (BitVec.ofNat 32 J.val)).toNat : ℝ) : EReal) := rfl
  rw [h, cmpi_eq_ofNat _ _ (by omega) (by omega)]
  unfold eyeE
  by_cases e : R = J
  · rw [if_pos e, if_pos (congrArg Fin.val e)]; exact EReal.coe_one
  · rw [if_neg e, if_neg (fun h => e (Fin.ext h))]; exact EReal.coe_zero

/-- The degree of a row: zero plus the row's sum. -/
theorem deg_apply (a : FVec Ideal S8192x8192 .f32) (R : Fin 8192) (u : Fin 1) :
    deg (F := Ideal) a (ix2 R u) = 0 + ∑ J : Fin 8192, a (ix2 R J) := by
  unfold deg
  rw [broadcastInDim_apply ![0] bcast_S8192_S8192x1_0 _ (ix2 R u) (ix1 R) (fun ax => match ax with
    | ⟨0, _⟩ => by show R.val = if (8192 : ℕ) = 1 then 0 else R.val; rw [if_neg (by decide)])]
  simp only [Host.reduceAdd, Ideal.hostReduceAdd_def]
  rw [Ideal.hostReduceAdd_single reducesTo_S8192x8192_S8192_d1 (by decide)]
  refine congrArg₂ (· + ·) Ideal.ofBits_zero_f32 (Finset.sum_congr rfl fun k _ => congrArg a (funext fun ax => Fin.ext (by
    match ax with | ⟨0, _⟩ => rfl | ⟨1, _⟩ => rfl)))

/-- A select on "positive" reads as an if. -/
theorem select_ogt_zero (x a b : EReal) : Scalar.select (Ideal.cmp .ogt x 0) a b = if 0 < x then a else b := by
  unfold Scalar.select Ideal.cmp
  by_cases h : (0 : EReal) < x <;> simp [h]

/-- The normalizing vector's entry. -/
theorem nrm_apply (a : FVec Ideal S8192x8192 .f32) (R : Fin 8192) (u : Fin 1) :
    nrm (F := Ideal) a (ix2 R u) = if 0 < deg (F := Ideal) a (ix2 R u) then Ideal.pow (deg (F := Ideal) a (ix2 R u)) (Ideal.ofBits .f32 0xBF000000#32) else 0 := by
  have h : nrm (F := Ideal) a (ix2 R u)
      = Scalar.select (Ideal.cmp .ogt (deg (F := Ideal) a (ix2 R u)) (Ideal.ofBits .f32 0x00000000#32))
          (Ideal.pow (deg (F := Ideal) a (ix2 R u)) (Ideal.ofBits .f32 0xBF000000#32)) (Ideal.ofBits .f32 0x00000000#32) := rfl
  rw [h, Ideal.ofBits_zero_f32, select_ogt_zero]

/-- The result's entry: the normalized matrix's row against the features' column. -/
theorem out_apply (a : FVec Ideal S8192x8192 .f32) (n : FVec Ideal S8192x1 .f32) (h : FVec Ideal S8192x128 .f32)
    (R : Fin 8192) (q : Fin 128) :
    out (F := Ideal) a n h (ix2 R q) = ∑ J : Fin 8192, ((n (ix2 R (0 : Fin 1)) * n (ix2 J (0 : Fin 1))) * a (ix2 R J)) * h (ix2 J q) := by
  unfold out
  simp only [Host.dotGeneral]
  rw [dotGeneral_eq dot_S8192x8192_S8192x128_S8192x128_1_0_0_1_n_n rfl rfl rfl rfl rfl rfl, MM_apply]
  refine Finset.sum_congr rfl fun J _ => ?_
  rw [mulf_apply, mulf_apply,
    broadcastInDim_apply ![0, 1] bcast_S8192x1_S8192x8192_0_1 n (ix2 R J) (ix2 R (0 : Fin 1)) (fun ax => match ax with
      | ⟨0, _⟩ => by show R.val = if (8192 : ℕ) = 1 then 0 else R.val; rw [if_neg (by decide)]
      | ⟨1, _⟩ => by show 0 = if (1 : ℕ) = 1 then 0 else J.val; rw [if_pos rfl]),
    broadcastInDim_apply ![0, 1] bcast_S1x8192_S8192x8192_0_1 _ (ix2 R J) (ix2 (0 : Fin 1) J) (fun ax => match ax with
      | ⟨0, _⟩ => by show 0 = if (1 : ℕ) = 1 then 0 else R.val; rw [if_pos rfl]
      | ⟨1, _⟩ => by show J.val = if (8192 : ℕ) = 1 then 0 else J.val; rw [if_neg (by decide)]),
    transpose_apply [1, 0] n transposes_S8192x1_S1x8192_1_0 (ix2 (0 : Fin 1) J) (ix2 J (0 : Fin 1)) (fun b => match b with
      | ⟨0, _⟩ => rfl
      | ⟨1, _⟩ => rfl)]

/-- The features' entry. -/
theorem lin_apply (x0 : FVec Ideal S8192x128 .f32) (x2 : FVec Ideal S128x128 .f32) (x3 : FVec Ideal S128 .f32)
    (J : Fin 8192) (q : Fin 128) :
    lin (F := Ideal) x0 x2 x3 (ix2 J q) = (∑ k : Fin 128, x0 (ix2 J k) * x2 (ix2 q k)) + x3 (ix1 q) := by
  unfold lin
  simp only [Host.dotGeneral]
  rw [addf_apply, dotGeneral_eq dot_S8192x128_S128x128_S8192x128_1_0_0_1_n_n rfl rfl rfl rfl rfl rfl, MM_apply,
    broadcastInDim_apply ![0, 1] bcast_S1x128_S8192x128_0_1 _ (ix2 J q) (ix2 (0 : Fin 1) q) (fun ax => match ax with
      | ⟨0, _⟩ => by show 0 = if (1 : ℕ) = 1 then 0 else J.val; rw [if_pos rfl]
      | ⟨1, _⟩ => by show q.val = if (128 : ℕ) = 1 then 0 else q.val; rw [if_neg (by decide)]),
    broadcastInDim_apply ![1] bcast_S128_S1x128_1 x3 (ix2 (0 : Fin 1) q) (ix1 q) (fun ax => match ax with
      | ⟨0, _⟩ => by show q.val = if (128 : ℕ) = 1 then 0 else q.val; rw [if_neg (by decide)])]
  refine congrArg (· + x3 (ix1 q)) (Finset.sum_congr rfl fun k _ => ?_)
  rw [transpose_apply [1, 0] x2 transposes_S128x128_S128x128_1_0 (ix2 k q) (ix2 q k) (fun b => match b with
      | ⟨0, _⟩ => rfl
      | ⟨1, _⟩ => rfl)]

/-- A set-scatter of one constant over another holds, everywhere, one of the two. -/
theorem scatter_set_mem {α : Type} {s si u : Shape} {w : ℕ} (d : ScatterDims s si u) (x : s.Idx → α) (idx : IVec si w)
    (upd : u.Idx → α) (P : α → Prop) (hx : ∀ i, P (x i)) (hu : ∀ j, P (upd j)) (i : s.Idx) :
    P (Host.scatter d (fun _ b => b) x idx upd i) := by
  unfold Host.scatter
  suffices h : ∀ (l : List (Fin u.numel)) (r : s.Idx → α), (∀ i, P (r i)) →
      ∀ i, P (l.foldl (fun r n =>
        match d.resultIdx? (u.rowMajor.symm n) idx with
        | some i => fun i' => if i' = i then (fun _ b => b) (r i) (upd (u.rowMajor.symm n)) else r i'
        | none => r) r i) from h _ x hx i
  intro l
  induction l with
  | nil => intro r hr i; exact hr i
  | cons n l ih =>
    intro r hr i
    rw [List.foldl_cons]
    refine ih _ (fun i' => ?_) i
    cases d.resultIdx? (u.rowMajor.symm n) idx with
    | none => exact hr i'
    | some i0 =>
      show P (if i' = i0 then upd (u.rowMajor.symm n) else r i')
      split
      · exact hu _
      · exact hr i'

end Cert.ReferenceIdeal.RefRun

end
-- ==== Proof.Finite.lean ====
/-
  What the precondition gives: every entry of the three float inputs is a real number. The precondition is the
  conjunction, over x, W and b, of "every |entry| is below +∞"; an extended real whose absolute value is below +∞ is
  neither infinity.
-/
import proofs.«109869_j22351009808763_2_alg».proof.Pre_finite_inputs
import proofs.«109869_j22351009808763_2_alg».proof.Proof.LibReal
import Idealize.ShloMosaic.Lib.ReduceAll
import Idealize.ShloMosaic.Lib.Affine
import Idealize.ShloMosaic.Lib.ValueIdx

noncomputable section

namespace Cert.Pre_finite_inputs.Finite

open Idealize.ShloMosaic Cert.Pre_finite_inputs Cert.LibReal

instance : Subsingleton S_.Idx := ⟨fun a b => funext fun d => d.elim0⟩

/-- An extended real whose absolute value is below the word of +∞ is a real number. -/
theorem isR_of_finite (x : EReal) (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

variable [Facts]

/-- THE PRECONDITION, decoded: x, W and b hold real numbers. -/
theorem allR_of_pre (x0 : FVec Ideal S8192x128 .f32) (x1 : IVec S2x262144 32) (x2 : FVec Ideal S128x128 .f32)
    (x3 : FVec Ideal S128 .f32) (h : fn (F := Ideal) x0 x1 x2 x3 = fun _ => 1#1) :
    AllR x0 ∧ AllR x2 ∧ AllR x3 := by
  have h0 := congrFun h ValueIdx.ix0
  dsimp only [fn] at h0
  obtain ⟨h01, h3⟩ := IntOp.andi_eq_one.mp h0
  obtain ⟨h0', h2⟩ := IntOp.andi_eq_one.mp h01
  exact ⟨fun i => isR_of_finite _ (Host.reduce_andi_all _ _ _ _ _ h0' i),
    fun i => isR_of_finite _ (Host.reduce_andi_all _ _ _ _ _ h2 i),
    fun i => isR_of_finite _ (Host.reduce_andi_all _ _ _ _ _ h3 i)⟩

end Cert.Pre_finite_inputs.Finite

end
-- ==== Proof.Bridge.lean ====
/-
  The two programs compute one function. Index by index, at the ideal values and for real-valued x, W, b: the
  reference's Σ_J ((n R · n J) · (a + I)(R, J)) · h(J, q), with n the degree's guarded power -1/2, is the kernel's
  Σ_J ((a(R, J) · D R) · D J) · h(J, q) + (D R · D R) · h(R, q), with D the inverse square root of the degree counted with
  its self-loop: the adjacency matrix holds zeros and ones (a set-scatter of ones over zeros), so every degree is a real
  number at least one, its power -1/2 is its inverse square root and the guard holds; the features are real; and over
  the reals the product distributes over a + I, the identity's column picking out the term J = R. The two programs build
  the same adjacency matrix (zero and one in two float formats are the same extended reals) and the same features (a
  change of format is the identity).
-/
import proofs.«109869_j22351009808763_2_alg».proof.Proof.KernelIdealHost
import proofs.«109869_j22351009808763_2_alg».proof.Proof.RefValue
import proofs.«109869_j22351009808763_2_alg».proof.Proof.Finite
import proofs.«109869_j22351009808763_2_alg».proof.Proof.LibSymNorm

noncomputable section

open scoped BigOperators

namespace Cert.Bridge

open Idealize.ShloMosaic Idealize.ShloMosaic.ValueIdx Cert.LibSymNorm Cert.LibReal Cert.LibColumn

/-- The kernel's adjacency matrix is the reference's. -/
theorem adj_eq (x1 : IVec Cert.KernelIdeal.S2x262144 32) :
    (Cert.KernelIdeal.Frame.adjK (F := Ideal) x1 : Cert.KernelIdeal.S8192x8192.Idx → EReal)
      = Cert.ReferenceIdeal.RefRun.adj (F := Ideal) x1 := by
  unfold Cert.KernelIdeal.Frame.adjK Cert.ReferenceIdeal.RefRun.adj
  have hz : (broadcastInDim Cert.KernelIdeal.S8192x8192 ![] Cert.KernelIdeal.Facts₀.bcast_S_S8192x8192
        (constant (F := Ideal) Cert.KernelIdeal.S_ .bf16 0x0000#16) : Cert.KernelIdeal.S8192x8192.Idx → EReal)
      = broadcastInDim Cert.ReferenceIdeal.S8192x8192 ![] Cert.ReferenceIdeal.Facts₀.bcast_S_S8192x8192
        (constant (F := Ideal) Cert.ReferenceIdeal.S_ .f32 0x00000000#32) := by
    funext i
    show Ideal.ofBits .bf16 0x0000#16 = Ideal.ofBits .f32 0x00000000#32
    rw [Ideal.ofBits_zero_bf16, Ideal.ofBits_zero_f32]
  have ho : (broadcastInDim Cert.KernelIdeal.S262144 ![] Cert.KernelIdeal.Facts₀.bcast_S_S262144
        (constant (F := Ideal) Cert.KernelIdeal.S_ .bf16 0x3F80#16) : Cert.KernelIdeal.S262144.Idx → EReal)
      = broadcastInDim Cert.ReferenceIdeal.S262144 ![] Cert.ReferenceIdeal.Facts₀.bcast_S_S262144
        (constant (F := Ideal) Cert.ReferenceIdeal.S_ .f32 0x3F800000#32) := by
    funext i
    show Ideal.ofBits .bf16 0x3F80#16 = Ideal.ofBits .f32 0x3F800000#32
    rw [Ideal.ofBits_one_bf16, Ideal.ofBits_one_f32]
  rw [hz, ho]
  rfl

/-- The kernel's features are the reference's: the narrowing is the identity at the ideal values. -/
theorem lin_eq (x0 : FVec Ideal Cert.KernelIdeal.S8192x128 .f32) (x2 : FVec Ideal Cert.KernelIdeal.S128x128 .f32)
    (x3 : FVec Ideal Cert.KernelIdeal.S128 .f32) :
    (Cert.KernelIdeal.Frame.linK (F := Ideal) x0 x2 x3 : Cert.KernelIdeal.S8192x128.Idx → EReal)
      = Cert.ReferenceIdeal.RefRun.lin (F := Ideal) x0 x2 x3 := by
  funext i
  rfl

/-- The adjacency matrix holds zeros and ones. -/
theorem adj_bit (x1 : IVec Cert.ReferenceIdeal.S2x262144 32) (i : Cert.ReferenceIdeal.S8192x8192.Idx) :
    Bit (Cert.ReferenceIdeal.RefRun.adj (F := Ideal) x1 i) := by
  unfold Cert.ReferenceIdeal.RefRun.adj
  refine Cert.ReferenceIdeal.RefRun.scatter_set_mem _ _ _ _ Bit (fun i => Or.inl ?_) (fun j => Or.inr ?_) i
  · show Ideal.ofBits .f32 0x00000000#32 = 0
    exact Ideal.ofBits_zero_f32
  · show Ideal.ofBits .f32 0x3F800000#32 = 1
    exact Ideal.ofBits_one_f32

/-- The adjacency matrix with the identity added. -/
abbrev aI (x1 : IVec Cert.ReferenceIdeal.S2x262144 32) : FVec Ideal Cert.ReferenceIdeal.S8192x8192 .f32 :=
  addf (Cert.ReferenceIdeal.RefRun.adj (F := Ideal) x1) (Cert.ReferenceIdeal.RefRun.eye (F := Ideal))

theorem aI_apply (x1 : IVec Cert.ReferenceIdeal.S2x262144 32) (R J : Fin 8192) :
    aI x1 (ix2 R J) = Cert.ReferenceIdeal.RefRun.adj (F := Ideal) x1 (ix2 R J) + eyeE R J := by
  unfold aI
  rw [addf_apply, Cert.ReferenceIdeal.RefRun.eye_apply]

/-- The features are real numbers when x, W and b are. -/
theorem lin_real (x0 : FVec Ideal Cert.ReferenceIdeal.S8192x128 .f32) (x2 : FVec Ideal Cert.ReferenceIdeal.S128x128 .f32)
    (x3 : FVec Ideal Cert.ReferenceIdeal.S128 .f32) (h0 : AllR x0) (h2 : AllR x2) (h3 : AllR x3) (J : Fin 8192) (q : Fin 128) :
    IsR (Cert.ReferenceIdeal.RefRun.lin (F := Ideal) x0 x2 x3 (ix2 J q)) := by
  rw [Cert.ReferenceIdeal.RefRun.lin_apply]
  exact (IsR.sum _ _ fun k _ => (h0 _).mul (h2 _)).add (h3 _)

/-- THE BRIDGE: the reference's result is the kernel's. -/
theorem result_eq (x0 : FVec Ideal Cert.ReferenceIdeal.S8192x128 .f32) (x1 : IVec Cert.ReferenceIdeal.S2x262144 32)
    (x2 : FVec Ideal Cert.ReferenceIdeal.S128x128 .f32) (x3 : FVec Ideal Cert.ReferenceIdeal.S128 .f32)
    (h0 : AllR x0) (h2 : AllR x2) (h3 : AllR x3) :
    Cert.ReferenceIdeal.RefRun.out (F := Ideal)
        (aI x1)
        (Cert.ReferenceIdeal.RefRun.nrm (F := Ideal) (aI x1))
        (Cert.ReferenceIdeal.RefRun.lin (F := Ideal) x0 x2 x3)
      = Cert.KernelIdeal.Frame.G1 (Cert.KernelIdeal.Frame.adjK (F := Ideal) x1)
          (Cert.KernelIdeal.Frame.G0 (Cert.KernelIdeal.Frame.adjK (F := Ideal) x1))
          (shapeCast _ (Cert.KernelIdeal.Frame.G0 (Cert.KernelIdeal.Frame.adjK (F := Ideal) x1)) Cert.KernelIdeal.Facts₀.shapeCasts_S8192x1_S1x8192)
          (Cert.KernelIdeal.Frame.linK (F := Ideal) x0 x2 x3) := by
  rw [adj_eq, lin_eq]
  funext idx
  obtain ⟨R, q, rfl⟩ : ∃ (R : Fin 8192) (q : Fin 128), idx = ix2 R q := ⟨idx 0, idx 1, eq_ix2 idx⟩
  -- the matrix and the features as functions of coordinates
  let a : Fin 8192 → Fin 8192 → EReal := fun i j => Cert.ReferenceIdeal.RefRun.adj (F := Ideal) x1 (ix2 i j)
  let h : Fin 8192 → Fin 128 → EReal := fun j q => Cert.ReferenceIdeal.RefRun.lin (F := Ideal) x0 x2 x3 (ix2 j q)
  have ha : ∀ i j, Bit (a i j) := fun i j => adj_bit x1 _
  have hh : ∀ j q, IsR (h j q) := fun j q => lin_real x0 x2 x3 h0 h2 h3 j q
  -- the reference's side
  have hn : ∀ (i : Fin 8192) (u : Fin 1),
      Cert.ReferenceIdeal.RefRun.nrm (F := Ideal) (aI x1) (ix2 i u)
        = nR a (Ideal.ofBits .f32 0xBF000000#32) i := by
    intro i u
    rw [Cert.ReferenceIdeal.RefRun.nrm_apply, Cert.ReferenceIdeal.RefRun.deg_apply]
    have hd : (0 : EReal) + ∑ J : Fin 8192, aI x1 (ix2 i J)
        = degR a i := by
      unfold degR
      refine congrArg (0 + ·) (Finset.sum_congr rfl fun J _ => ?_)
      rw [aI_apply]
    rw [hd]
    rfl
  rw [Cert.ReferenceIdeal.RefRun.out_apply]
  have hL : ∀ J : Fin 8192,
      ((Cert.ReferenceIdeal.RefRun.nrm (F := Ideal) (aI x1) (ix2 R (0 : Fin 1))
          * Cert.ReferenceIdeal.RefRun.nrm (F := Ideal) (aI x1) (ix2 J (0 : Fin 1)))
          * aI x1 (ix2 R J))
          * Cert.ReferenceIdeal.RefRun.lin (F := Ideal) x0 x2 x3 (ix2 J q)
        = ((nR a (Ideal.ofBits .f32 0xBF000000#32) R * nR a (Ideal.ofBits .f32 0xBF000000#32) J) * (a R J + eyeE R J)) * h J q := by
    intro J
    rw [hn R 0, hn J 0, aI_apply]
  rw [Finset.sum_congr rfl (fun J _ => hL J),
    sym_norm_eq a ha h hh _ Cert.ReferenceIdeal.RefRun.ofBits_neg_half R q]
  -- the kernel's side
  unfold Cert.KernelIdeal.Frame.G1
  dsimp only
  refine congrArg₂ (· + ·) (Finset.sum_congr rfl fun J _ => ?_) ?_
  · rw [cast_col_row]
    rfl
  · rfl

end Cert.Bridge

end
-- ==== Proof.lean ====
/-
  A graph-convolution layer with symmetric normalization, computed two ways, is one function of its inputs at the ideal
  values.

  The inputs are features x : [8192, 128], an edge list : [2, 262144], a weight W : [128, 128] and a bias b : [128]. Both
  programs build the adjacency matrix a by setting ones at the listed (row, column) pairs over zeros, and the projected
  features h = x · Wᵀ + b.

  The reference adds the identity to a, takes deg = the rows' sums, n = deg^(-1/2) where deg > 0 (zero elsewhere), and
  returns ((n nᵀ) ∘ (a + I)) · h.

  The kernel program never forms a + I. A first kernel walks a in 1024 × 1024 tiles, row tile by row tile: it sums each row
  over the column tiles in an accumulator that is reset at the first column tile, adds one on the diagonal tile (the
  self-loop), and at the last column tile writes the accumulator's inverse square root: D R = (Σ_J a(R, J) + 1)^(-1/2). A
  second kernel walks the same tiles with D as a column and as a row and the features resident: it accumulates
  Σ_j ((a(r, j) · D r) · D j) · h(j, q) over the column tiles, adds (D r · D r) · h(r, q) on the diagonal tile, and writes
  the accumulator at the last column tile.

  Each frame: the kernel program is host operations, the first kernel's region, host operations, the second kernel's
  region; each region's body runs in one of six cases of its three conditions, its accumulator carried from point to
  point. The reference is a straight line of host operations. The idealization rewrote nothing. The two results agree
  because a holds zeros and ones — so every degree is a real number at least one, its power -1/2 is its inverse square
  root and the guard deg > 0 holds — the features are real numbers when x, W, b are (the precondition), and over the
  reals the product distributes over a + I, the identity's column picking out the term J = R; a sum over 8192 columns is
  the sum over eight tiles of the sums over each tile's 1024 columns.
-/
import proofs.«109869_j22351009808763_2_alg».proof.Defs
import proofs.«109869_j22351009808763_2_alg».proof.Proof.Gen.Kernel
import proofs.«109869_j22351009808763_2_alg».proof.Proof.Gen.KernelIdeal
import proofs.«109869_j22351009808763_2_alg».proof.Proof.Gen.ReferenceIdeal
import proofs.«109869_j22351009808763_2_alg».proof.Proof.Gen.Pre_finite_inputs
import proofs.«109869_j22351009808763_2_alg».proof.Proof.KernelRun
import proofs.«109869_j22351009808763_2_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Frame.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Frame.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- Both programs end with the same result array: the kernel program's value (its two regions' results composed through
    its host operations) and the reference's (its operations composed) are one function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Frame.run_value m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3⟩ := hagree c
  rw [a0, a1, a2, a3]
  obtain ⟨r0, r2, r3⟩ := Cert.Pre_finite_inputs.Finite.allR_of_pre _ _ _ _ (hpre c)
  exact Cert.Bridge.result_eq _ _ _ _ r0 r2 r3

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
